-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S768x768 .f32 .bf16
  ∧ IdealRules.truncf_extf.Statement Cert.KernelIdeal.S768x768 .f32 .bf16
  ∧ IdealRules.truncf_extf.Statement Cert.KernelIdeal.S768x768 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S20x768x768 : Shape := ⟨3, ![20, 768, 768]⟩
abbrev S20x768 : Shape := ⟨2, ![20, 768]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S20x768x768 : S_.BroadcastsInDim S20x768x768 (![] : Fin 0 → Fin S20x768x768.rank)
  reducesTo_S20x768x768_S_d0_1_2 : S20x768x768.ReducesTo [0, 1, 2] S_
  bcast_S_S20x768 : S_.BroadcastsInDim S20x768 (![] : Fin 0 → Fin S20x768.rank)
  reducesTo_S20x768_S_d0_1 : S20x768.ReducesTo [0, 1] S_

variable [Facts]

def fn {F : FTy → Type} [FloatOps F] (main_arg0 : FVec F S32768x768 .f32) (main_arg1 : FVec F S20x768x768 .f32) (main_arg2 : FVec F S20x768 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S20x768x768 .f32 := Host.absf main_arg1
  let main_cst_0 : FVec F S_ .f32 := constant S_ .f32 0x7F800000#32
  let main_v5 : FVec F S20x768x768 .f32 := broadcastInDim S20x768x768 ![] bcast_S_S20x768x768 main_cst_0
  let main_v6 : IVec S20x768x768 1 := cmpf .olt main_v4 main_v5
  let main_c_1 : IVec S_ 1 := constantI S_ 1 1#1
  let main_v7 : IVec S_ 1 := (fun x v => Host.reduce IntOp.andi x v reducesTo_S20x768x768_S_d0_1_2 h_S_) main_v6 main_c_1
  let main_v8 : IVec S_ 1 := andi main_v3 main_v7
  let main_v9 : FVec F S20x768 .f32 := Host.absf main_arg2
  let main_cst_2 : FVec F S_ .f32 := constant S_ .f32 0x7F800000#32
  let main_v10 : FVec F S20x768 .f32 := broadcastInDim S20x768 ![] bcast_S_S20x768 main_cst_2
  let main_v11 : IVec S20x768 1 := cmpf .olt main_v9 main_v10
  let main_c_3 : IVec S_ 1 := constantI S_ 1 1#1
  let main_v12 : IVec S_ 1 := (fun x v => Host.reduce IntOp.andi x v reducesTo_S20x768_S_d0_1 h_S_) main_v11 main_c_3
  let main_v13 : IVec S_ 1 := andi main_v8 main_v12
  main_v13
-- ==== Kernel.lean ====
abbrev S32768x768 : Shape := ⟨2, ![32768, 768]⟩
abbrev S20x768x768 : Shape := ⟨3, ![20, 768, 768]⟩
abbrev S20x768 : Shape := ⟨2, ![20, 768]⟩
abbrev S20x1x768 : Shape := ⟨3, ![20, 1, 768]⟩
abbrev S2x768x768 : Shape := ⟨3, ![2, 768, 768]⟩
abbrev S2x1x768 : Shape := ⟨3, ![2, 1, 768]⟩
abbrev S2048x768 : Shape := ⟨2, ![2048, 768]⟩
abbrev S768x768 : Shape := ⟨2, ![768, 768]⟩
abbrev S1x768 : Shape := ⟨2, ![1, 768]⟩
abbrev S1x768x768 : Shape := ⟨3, ![1, 768, 768]⟩
abbrev S1x1x768 : Shape := ⟨3, ![1, 1, 768]⟩
abbrev S768 : Shape := ⟨1, ![768]⟩

abbrev nBuf : Space → Nat
  | .hbm => 9
  | .vmem => 12
  | .smem => 0
  | _ => 0

abbrev bufTy : (tb : Table) → Fin (tcTables nBuf tb) → BufTy
  | .hbm, ⟨0, _⟩ => ⟨S32768x768, .f32⟩
  | .hbm, ⟨1, _⟩ => ⟨S20x768x768, .f32⟩
  | .hbm, ⟨2, _⟩ => ⟨S20x768, .f32⟩
  | .hbm, ⟨3, _⟩ => ⟨S20x1x768, .f32⟩
  | .hbm, ⟨4, _⟩ => ⟨S20x768x768, .bf16⟩
  | .hbm, ⟨5, _⟩ => ⟨S20x768x768, .f32⟩
  | .hbm, ⟨6, _⟩ => ⟨S20x768x768, .f32⟩
  | .hbm, ⟨7, _⟩ => ⟨S20x768x768, .bf16⟩
  | .hbm, ⟨8, _⟩ => ⟨S32768x768, .f32⟩
  | .local _ .vmem, ⟨0, _⟩ => ⟨S2x768x768, .bf16⟩
  | .local _ .vmem, ⟨1, _⟩ => ⟨S2x768x768, .bf16⟩
  | .local _ .vmem, ⟨2, _⟩ => ⟨S2x768x768, .bf16⟩
  | .local _ .vmem, ⟨3, _⟩ => ⟨S2x768x768, .bf16⟩
  | .local _ .vmem, ⟨4, _⟩ => ⟨S2x1x768, .f32⟩
  | .local _ .vmem, ⟨5, _⟩ => ⟨S2x1x768, .f32⟩
  | .local _ .vmem, ⟨6, _⟩ => ⟨S2048x768, .f32⟩
  | .local _ .vmem, ⟨7, _⟩ => ⟨S2048x768, .f32⟩
  | .local _ .vmem, ⟨8, _⟩ => ⟨S2048x768, .f32⟩
  | .local _ .vmem, ⟨9, _⟩ => ⟨S2048x768, .f32⟩
  | .local _ .vmem, ⟨10, _⟩ => ⟨S768x768, .f32⟩
  | .local _ .vmem, ⟨11, _⟩ => ⟨S1x768, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![26], ![false]⟩

def k0_cond3 (i : grid0.Coords) : BitVec 1 :=
  let arg0 : BitVec 32 := BitVec.ofNat 32 (i 0).val
  let c10_i32_3 : BitVec 32 := 10#32
  let v8 : BitVec 1 := Scalar.cmpi .sge arg0 c10_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S2x768x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x768x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S20x768_S20x1x768 : S20x768.ShapeCasts S20x1x768
  bitsLt_bf16_f32 : FTy.bits .bf16 < FTy.bits .f32
  inb_S2x768x768_S1x768x768_0_0_0 : ∀ a, (![0, 0, 0] : Fin 3 → Nat) a + S1x768x768.size a ≤ S2x768x768.size a
  h_S1x768x768 : 0 < S1x768x768.numel
  shapeCasts_S1x768x768_S768x768 : S1x768x768.ShapeCasts S768x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S2x1x768_S1x1x768_0_0_0 : ∀ a, (![0, 0, 0] : Fin 3 → Nat) a + S1x1x768.size a ≤ S2x1x768.size a
  h_S1x1x768 : 0 < S1x1x768.numel
  shapeCasts_S1x1x768_S1x768 : S1x1x768.ShapeCasts S1x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  inb_S2x768x768_S1x768x768_1_0_0 : ∀ a, (![1, 0, 0] : Fin 3 → Nat) a + S1x768x768.size a ≤ S2x768x768.size a
  inb_S2x1x768_S1x1x768_1_0_0 : ∀ a, (![1, 0, 0] : Fin 3 → Nat) a + S1x1x768.size a ≤ S2x1x768.size a
  inb_S2048x768_S2048x768_0_0 : ∀ a, (![0, 0] : Fin 2 → Nat) a + S2048x768.size a ≤ S2048x768.size a
  h_S2048x768 : 0 < S2048x768.numel
  shapeCasts_S1x768_S768 : S1x768.ShapeCasts S768
  shapeCasts_S768_S1x768 : S768.ShapeCasts S1x768
  broadcasts_S1x768_S2048x768 : S1x768.Broadcasts S2048x768
  dot_S768x768_S768x768_S768x768_1_0_0_1_n_n_wf : DotDims.WF S768x768 S768x768 S768x768 [1] [0] [0] [1] [] []
  dot_S1x768_S768x768_S1x768_1_1_0_0_n_n_wf : DotDims.WF S1x768 S768x768 S1x768 [1] [1] [0] [0] [] []
  dot_S2048x768_S768x768_S2048x768_1_1_0_0_n_n_wf : DotDims.WF S2048x768 S768x768 S2048x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x768x768.size a ≤ S20x768x768.size a
  hwx0_0 : ∀ i : grid0.Coords, EltTy.bits .bf16 = 32 ∨ (Rect.block (s := S20x768x768) S2x768x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x768x768.size a ≤ S20x768x768.size a
  hwx0_1 : ∀ i : grid0.Coords, EltTy.bits .bf16 = 32 ∨ (Rect.block (s := S20x768x768) S2x768x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x768.size a ≤ S20x1x768.size a
  hwx0_2 : ∀ i : grid0.Coords, EltTy.bits .f32 = 32 ∨ (Rect.block (s := S20x1x768) S2x1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x768.size a ≤ S32768x768.size a
  hwx0_3 : ∀ i : grid0.Coords, EltTy.bits .f32 = 32 ∨ (Rect.block (s := S32768x768) S2048x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x768.size a ≤ S32768x768.size a
  hwx0_4 : ∀ i : grid0.Coords, EltTy.bits .f32 = 32 ∨ (Rect.block (s := S32768x768) S2048x768.size (cc0_transform_4 i) (hinb0_4 i)).WholeWords (EltTy.packing .f32)

variable [Facts₀]

def dot_S768x768_S768x768_S768x768_1_0_0_1_n_n : DotDims S768x768 S768x768 S768x768 where
  lhsContracting := [1]
  rhsContracting := [0]
  lhsNonContracting := [0]
  rhsNonContracting := [1]
  lhsBatch := []
  rhsBatch := []
  wf := dot_S768x768_S768x768_S768x768_1_0_0_1_n_n_wf
def dot_S1x768_S768x768_S1x768_1_1_0_0_n_n : DotDims S1x768 S768x768 S1x768 where
  lhsContracting := [1]
  rhsContracting := [1]
  lhsNonContracting := [0]
  rhsNonContracting := [0]
  lhsBatch := []
  rhsBatch := []
  wf := dot_S1x768_S768x768_S1x768_1_1_0_0_n_n_wf
def dot_S2048x768_S768x768_S2048x768_1_1_0_0_n_n : DotDims S2048x768 S768x768 S2048x768 where
  lhsContracting := [1]
  rhsContracting := [1]
  lhsNonContracting := [0]
  rhsNonContracting := [0]
  lhsBatch := []
  rhsBatch := []
  wf := dot_S2048x768_S768x768_S2048x768_1_1_0_0_n_n_wf

abbrev win0_0 : Pipeline.Window sig grid0 :=
  Pipeline.Window.ofSpec (Memref.whole main_call0_v1) S2x768x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v4) S2x768x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S2x1x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S2048x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2048x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S32768x768 : Shape := ⟨2, ![32768, 768]⟩
abbrev S20x768x768 : Shape := ⟨3, ![20, 768, 768]⟩
abbrev S20x768 : Shape := ⟨2, ![20, 768]⟩
abbrev S0x768 : Shape := ⟨2, ![0, 768]⟩
abbrev S1x768x768 : Shape := ⟨3, ![1, 768, 768]⟩
abbrev S768x768 : Shape := ⟨2, ![768, 768]⟩
abbrev S1x768 : Shape := ⟨2, ![1, 768]⟩
abbrev S768 : Shape := ⟨1, ![768]⟩

abbrev nBuf : Space → Nat
  | .hbm => 184
  | .vmem => 0
  | .smem => 0
  | _ => 0

abbrev hbmTy0_0 (i : Nat) : BufTy := match i % 128 with
  | 0 => ⟨S32768x768, .f32⟩
  | 1 => ⟨S20x768x768, .f32⟩
  | 2 => ⟨S20x768, .f32⟩
  | 3 => ⟨S0x768, .f32⟩
  | 4 => ⟨S1x768x768, .f32⟩
  | 5 => ⟨S768x768, .f32⟩
  | 6 => ⟨S768x768, .f32⟩
  | 7 => ⟨S32768x768, .f32⟩
  | 8 => ⟨S1x768, .f32⟩
  | 9 => ⟨S768, .f32⟩
  | 10 => ⟨S1x768, .f32⟩
  | 11 => ⟨S32768x768, .f32⟩
  | 12 => ⟨S32768x768, .f32⟩
  | 13 => ⟨S1x768x768, .f32⟩
  | 14 => ⟨S768x768, .f32⟩
  | 15 => ⟨S768x768, .f32⟩
  | 16 => ⟨S32768x768, .f32⟩
  | 17 => ⟨S1x768, .f32⟩
  | 18 => ⟨S768, .f32⟩
  | 19 => ⟨S1x768, .f32⟩
  | 20 => ⟨S32768x768, .f32⟩
  | 21 => ⟨S32768x768, .f32⟩
  | 22 => ⟨S1x768x768, .f32⟩
  | 23 => ⟨S768x768, .f32⟩
  | 24 => ⟨S768x768, .f32⟩
  | 25 => ⟨S32768x768, .f32⟩
  | 26 => ⟨S1x768, .f32⟩
  | 27 => ⟨S768, .f32⟩
  | 28 => ⟨S1x768, .f32⟩
  | 29 => ⟨S32768x768, .f32⟩
  | 30 => ⟨S32768x768, .f32⟩
  | 31 => ⟨S1x768x768, .f32⟩
  | 32 => ⟨S768x768, .f32⟩
  | 33 => ⟨S768x768, .f32⟩
  | 34 => ⟨S32768x768, .f32⟩
  | 35 => ⟨S1x768, .f32⟩
  | 36 => ⟨S768, .f32⟩
  | 37 => ⟨S1x768, .f32⟩
  | 38 => ⟨S32768x768, .f32⟩
  | 39 => ⟨S32768x768, .f32⟩
  | 40 => ⟨S1x768x768, .f32⟩
  | 41 => ⟨S768x768, .f32⟩
  | 42 => ⟨S768x768, .f32⟩
  | 43 => ⟨S32768x768, .f32⟩
  | 44 => ⟨S1x768, .f32⟩
  | 45 => ⟨S768, .f32⟩
  | 46 => ⟨S1x768, .f32⟩
  | 47 => ⟨S32768x768, .f32⟩
  | 48 => ⟨S32768x768, .f32⟩
  | 49 => ⟨S1x768x768, .f32⟩
  | 50 => ⟨S768x768, .f32⟩
  | 51 => ⟨S768x768, .f32⟩
  | 52 => ⟨S32768x768, .f32⟩
  | 53 => ⟨S1x768, .f32⟩
  | 54 => ⟨S768, .f32⟩
  | 55 => ⟨S1x768, .f32⟩
  | 56 => ⟨S32768x768, .f32⟩
  | 57 => ⟨S32768x768, .f32⟩
  | 58 => ⟨S1x768x768, .f32⟩
  | 59 => ⟨S768x768, .f32⟩
  | 60 => ⟨S768x768, .f32⟩
  | 61 => ⟨S32768x768, .f32⟩
  | 62 => ⟨S1x768, .f32⟩
  | 63 => ⟨S768, .f32⟩
  | 64 => ⟨S1x768, .f32⟩
  | 65 => ⟨S32768x768, .f32⟩
  | 66 => ⟨S32768x768, .f32⟩
  | 67 => ⟨S1x768x768, .f32⟩
  | 68 => ⟨S768x768, .f32⟩
  | 69 => ⟨S768x768, .f32⟩
  | 70 => ⟨S32768x768, .f32⟩
  | 71 => ⟨S1x768, .f32⟩
  | 72 => ⟨S768, .f32⟩
  | 73 => ⟨S1x768, .f32⟩
  | 74 => ⟨S32768x768, .f32⟩
  | 75 => ⟨S32768x768, .f32⟩
  | 76 => ⟨S1x768x768, .f32⟩
  | 77 => ⟨S768x768, .f32⟩
  | 78 => ⟨S768x768, .f32⟩
  | 79 => ⟨S32768x768, .f32⟩
  | 80 => ⟨S1x768, .f32⟩
  | 81 => ⟨S768, .f32⟩
  | 82 => ⟨S1x768, .f32⟩
  | 83 => ⟨S32768x768, .f32⟩
  | 84 => ⟨S32768x768, .f32⟩
  | 85 => ⟨S1x768x768, .f32⟩
  | 86 => ⟨S768x768, .f32⟩
  | 87 => ⟨S768x768, .f32⟩
  | 88 => ⟨S32768x768, .f32⟩
  | 89 => ⟨S1x768, .f32⟩
  | 90 => ⟨S768, .f32⟩
  | 91 => ⟨S1x768, .f32⟩
  | 92 => ⟨S32768x768, .f32⟩
  | 93 => ⟨S32768x768, .f32⟩
  | 94 => ⟨S1x768x768, .f32⟩
  | 95 => ⟨S768x768, .f32⟩
  | 96 => ⟨S768x768, .f32⟩
  | 97 => ⟨S32768x768, .f32⟩
  | 98 => ⟨S1x768, .f32⟩
  | 99 => ⟨S768, .f32⟩
  | 100 => ⟨S1x768, .f32⟩
  | 101 => ⟨S32768x768, .f32⟩
  | 102 => ⟨S32768x768, .f32⟩
  | 103 => ⟨S1x768x768, .f32⟩
  | 104 => ⟨S768x768, .f32⟩
  | 105 => ⟨S768x768, .f32⟩
  | 106 => ⟨S32768x768, .f32⟩
  | 107 => ⟨S1x768, .f32⟩
  | 108 => ⟨S768, .f32⟩
  | 109 => ⟨S1x768, .f32⟩
  | 110 => ⟨S32768x768, .f32⟩
  | 111 => ⟨S32768x768, .f32⟩
  | 112 => ⟨S1x768x768, .f32⟩
  | 113 => ⟨S768x768, .f32⟩
  | 114 => ⟨S768x768, .f32⟩
  | 115 => ⟨S32768x768, .f32⟩
  | 116 => ⟨S1x768, .f32⟩
  | 117 => ⟨S768, .f32⟩
  | 118 => ⟨S1x768, .f32⟩
  | 119 => ⟨S32768x768, .f32⟩
  | 120 => ⟨S32768x768, .f32⟩
  | 121 => ⟨S1x768x768, .f32⟩
  | 122 => ⟨S768x768, .f32⟩
  | 123 => ⟨S768x768, .f32⟩
  | 124 => ⟨S32768x768, .f32⟩
  | 125 => ⟨S1x768, .f32⟩
  | 126 => ⟨S768, .f32⟩
  | 127 => ⟨S1x768, .f32⟩
  | _ => ⟨S32768x768, .f32⟩

abbrev hbmTy0_1 (i : Nat) : BufTy := match i % 128 with
  | 0 => ⟨S32768x768, .f32⟩
  | 1 => ⟨S32768x768, .f32⟩
  | 2 => ⟨S1x768x768, .f32⟩
  | 3 => ⟨S768x768, .f32⟩
  | 4 => ⟨S768x768, .f32⟩
  | 5 => ⟨S32768x768, .f32⟩
  | 6 => ⟨S1x768, .f32⟩
  | 7 => ⟨S768, .f32⟩
  | 8 => ⟨S1x768, .f32⟩
  | 9 => ⟨S32768x768, .f32⟩
  | 10 => ⟨S32768x768, .f32⟩
  | 11 => ⟨S1x768x768, .f32⟩
  | 12 => ⟨S768x768, .f32⟩
  | 13 => ⟨S768x768, .f32⟩
  | 14 => ⟨S32768x768, .f32⟩
  | 15 => ⟨S1x768, .f32⟩
  | 16 => ⟨S768, .f32⟩
  | 17 => ⟨S1x768, .f32⟩
  | 18 => ⟨S32768x768, .f32⟩
  | 19 => ⟨S32768x768, .f32⟩
  | 20 => ⟨S1x768x768, .f32⟩
  | 21 => ⟨S768x768, .f32⟩
  | 22 => ⟨S768x768, .f32⟩
  | 23 => ⟨S32768x768, .f32⟩
  | 24 => ⟨S1x768, .f32⟩
  | 25 => ⟨S768, .f32⟩
  | 26 => ⟨S1x768, .f32⟩
  | 27 => ⟨S32768x768, .f32⟩
  | 28 => ⟨S32768x768, .f32⟩
  | 29 => ⟨S1x768x768, .f32⟩
  | 30 => ⟨S768x768, .f32⟩
  | 31 => ⟨S768x768, .f32⟩
  | 32 => ⟨S32768x768, .f32⟩
  | 33 => ⟨S1x768, .f32⟩
  | 34 => ⟨S768, .f32⟩
  | 35 => ⟨S1x768, .f32⟩
  | 36 => ⟨S32768x768, .f32⟩
  | 37 => ⟨S32768x768, .f32⟩
  | 38 => ⟨S1x768x768, .f32⟩
  | 39 => ⟨S768x768, .f32⟩
  | 40 => ⟨S768x768, .f32⟩
  | 41 => ⟨S32768x768, .f32⟩
  | 42 => ⟨S1x768, .f32⟩
  | 43 => ⟨S768, .f32⟩
  | 44 => ⟨S1x768, .f32⟩
  | 45 => ⟨S32768x768, .f32⟩
  | 46 => ⟨S32768x768, .f32⟩
  | 47 => ⟨S1x768x768, .f32⟩
  | 48 => ⟨S768x768, .f32⟩
  | 49 => ⟨S768x768, .f32⟩
  | 50 => ⟨S32768x768, .f32⟩
  | 51 => ⟨S1x768, .f32⟩
  | 52 => ⟨S768, .f32⟩
  | 53 => ⟨S1x768, .f32⟩
  | 54 => ⟨S32768x768, .f32⟩
  | 55 => ⟨S32768x768, .f32⟩
  | _ => ⟨S32768x768, .f32⟩

abbrev hbmTy (i : Nat) : BufTy := match i / 128 with
  | 0 => hbmTy0_0 i
  | 1 => hbmTy0_1 i
  | _ => ⟨S32768x768, .f32⟩

abbrev bufTy : (tb : Table) → Fin (tcTables nBuf tb) → BufTy
  | .hbm, ⟨i, _⟩ => hbmTy i
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_v119 : Ref sig .tc := ⟨.hbm, 122, rfl⟩
abbrev main_v120 : Ref sig .tc := ⟨.hbm, 123, rfl⟩
abbrev main_v121 : Ref sig .tc := ⟨.hbm, 124, rfl⟩
abbrev main_v122 : Ref sig .tc := ⟨.hbm, 125, rfl⟩
abbrev main_v123 : Ref sig .tc := ⟨.hbm, 126, rfl⟩
abbrev main_v124 : Ref sig .tc := ⟨.hbm, 127, rfl⟩
abbrev main_v125 : Ref sig .tc := ⟨.hbm, 128, rfl⟩
abbrev main_v126 : Ref sig .tc := ⟨.hbm, 129, rfl⟩
abbrev main_v127 : Ref sig .tc := ⟨.hbm, 130, rfl⟩
abbrev main_v128 : Ref sig .tc := ⟨.hbm, 131, rfl⟩
abbrev main_v129 : Ref sig .tc := ⟨.hbm, 132, rfl⟩
abbrev main_v130 : Ref sig .tc := ⟨.hbm, 133, rfl⟩
abbrev main_v131 : Ref sig .tc := ⟨.hbm, 134, rfl⟩
abbrev main_v132 : Ref sig .tc := ⟨.hbm, 135, rfl⟩
abbrev main_v133 : Ref sig .tc := ⟨.hbm, 136, rfl⟩
abbrev main_v134 : Ref sig .tc := ⟨.hbm, 137, rfl⟩
abbrev main_v135 : Ref sig .tc := ⟨.hbm, 138, rfl⟩
abbrev main_v136 : Ref sig .tc := ⟨.hbm, 139, rfl⟩
abbrev main_v137 : Ref sig .tc := ⟨.hbm, 140, rfl⟩
abbrev main_v138 : Ref sig .tc := ⟨.hbm, 141, rfl⟩
abbrev main_v139 : Ref sig .tc := ⟨.hbm, 142, rfl⟩
abbrev main_v140 : Ref sig .tc := ⟨.hbm, 143, rfl⟩
abbrev main_v141 : Ref sig .tc := ⟨.hbm, 144, rfl⟩
abbrev main_v142 : Ref sig .tc := ⟨.hbm, 145, rfl⟩
abbrev main_v143 : Ref sig .tc := ⟨.hbm, 146, rfl⟩
abbrev main_v144 : Ref sig .tc := ⟨.hbm, 147, rfl⟩
abbrev main_v145 : Ref sig .tc := ⟨.hbm, 148, rfl⟩
abbrev main_v146 : Ref sig .tc := ⟨.hbm, 149, rfl⟩
abbrev main_v147 : Ref sig .tc := ⟨.hbm, 150, rfl⟩
abbrev main_v148 : Ref sig .tc := ⟨.hbm, 151, rfl⟩
abbrev main_v149 : Ref sig .tc := ⟨.hbm, 152, rfl⟩
abbrev main_v150 : Ref sig .tc := ⟨.hbm, 153, rfl⟩
abbrev main_v151 : Ref sig .tc := ⟨.hbm, 154, rfl⟩
abbrev main_v152 : Ref sig .tc := ⟨.hbm, 155, rfl⟩
abbrev main_v153 : Ref sig .tc := ⟨.hbm, 156, rfl⟩
abbrev main_v154 : Ref sig .tc := ⟨.hbm, 157, rfl⟩
abbrev main_v155 : Ref sig .tc := ⟨.hbm, 158, rfl⟩
abbrev main_v156 : Ref sig .tc := ⟨.hbm, 159, rfl⟩
abbrev main_v157 : Ref sig .tc := ⟨.hbm, 160, rfl⟩
abbrev main_v158 : Ref sig .tc := ⟨.hbm, 161, rfl⟩
abbrev main_v159 : Ref sig .tc := ⟨.hbm, 162, rfl⟩
abbrev main_v160 : Ref sig .tc := ⟨.hbm, 163, rfl⟩
abbrev main_v161 : Ref sig .tc := ⟨.hbm, 164, rfl⟩
abbrev main_v162 : Ref sig .tc := ⟨.hbm, 165, rfl⟩
abbrev main_v163 : Ref sig .tc := ⟨.hbm, 166, rfl⟩
abbrev main_v164 : Ref sig .tc := ⟨.hbm, 167, rfl⟩
abbrev main_v165 : Ref sig .tc := ⟨.hbm, 168, rfl⟩
abbrev main_v166 : Ref sig .tc := ⟨.hbm, 169, rfl⟩
abbrev main_v167 : Ref sig .tc := ⟨.hbm, 170, rfl⟩
abbrev main_v168 : Ref sig .tc := ⟨.hbm, 171, rfl⟩
abbrev main_v169 : Ref sig .tc := ⟨.hbm, 172, rfl⟩
abbrev main_v170 : Ref sig .tc := ⟨.hbm, 173, rfl⟩
abbrev main_v171 : Ref sig .tc := ⟨.hbm, 174, rfl⟩
abbrev main_v172 : Ref sig .tc := ⟨.hbm, 175, rfl⟩
abbrev main_v173 : Ref sig .tc := ⟨.hbm, 176, rfl⟩
abbrev main_v174 : Ref sig .tc := ⟨.hbm, 177, rfl⟩
abbrev main_v175 : Ref sig .tc := ⟨.hbm, 178, rfl⟩
abbrev main_v176 : Ref sig .tc := ⟨.hbm, 179, rfl⟩
abbrev main_v177 : Ref sig .tc := ⟨.hbm, 180, rfl⟩
abbrev main_v178 : Ref sig .tc := ⟨.hbm, 181, rfl⟩
abbrev main_v179 : Ref sig .tc := ⟨.hbm, 182, rfl⟩
abbrev main_v180 : Ref sig .tc := ⟨.hbm, 183, rfl⟩

abbrev nD : Nat := 1
abbrev τ : Topo := Topo.v7x

variable {F : FTy → Type} [FloatOps F]

class Facts₀ : Prop where
  slices_S32768x768_S0x768_0_0 : S32768x768.Slices ![0, 0] S0x768
  slices_S20x768x768_S1x768x768_0_0_0 : S20x768x768.Slices ![0, 0, 0] S1x768x768
  shapeCasts_S1x768x768_S768x768 : S1x768x768.ShapeCasts S768x768
  transposes_S768x768_S768x768_1_0 : S768x768.Transposes [1, 0] S768x768
  slices_S20x768_S1x768_0_0 : S20x768.Slices ![0, 0] S1x768
  shapeCasts_S1x768_S768 : S1x768.ShapeCasts S768
  bcast_S768_S1x768_1 : S768.BroadcastsInDim S1x768 (![1] : Fin 1 → Fin S1x768.rank)
  bcast_S1x768_S32768x768_0_1 : S1x768.BroadcastsInDim S32768x768 (![0, 1] : Fin 2 → Fin S32768x768.rank)
  slices_S20x768x768_S1x768x768_1_0_0 : S20x768x768.Slices ![1, 0, 0] S1x768x768
  slices_S20x768_S1x768_1_0 : S20x768.Slices ![1, 0] S1x768
  slices_S20x768x768_S1x768x768_2_0_0 : S20x768x768.Slices ![2, 0, 0] S1x768x768
  slices_S20x768_S1x768_2_0 : S20x768.Slices ![2, 0] S1x768
  slices_S20x768x768_S1x768x768_3_0_0 : S20x768x768.Slices ![3, 0, 0] S1x768x768
  slices_S20x768_S1x768_3_0 : S20x768.Slices ![3, 0] S1x768
  slices_S20x768x768_S1x768x768_4_0_0 : S20x768x768.Slices ![4, 0, 0] S1x768x768
  slices_S20x768_S1x768_4_0 : S20x768.Slices ![4, 0] S1x768
  slices_S20x768x768_S1x768x768_5_0_0 : S20x768x768.Slices ![5, 0, 0] S1x768x768
  slices_S20x768_S1x768_5_0 : S20x768.Slices ![5, 0] S1x768
  slices_S20x768x768_S1x768x768_6_0_0 : S20x768x768.Slices ![6, 0, 0] S1x768x768
  slices_S20x768_S1x768_6_0 : S20x768.Slices ![6, 0] S1x768
  slices_S20x768x768_S1x768x768_7_0_0 : S20x768x768.Slices ![7, 0, 0] S1x768x768
  slices_S20x768_S1x768_7_0 : S20x768.Slices ![7, 0] S1x768
  slices_S20x768x768_S1x768x768_8_0_0 : S20x768x768.Slices ![8, 0, 0] S1x768x768
  slices_S20x768_S1x768_8_0 : S20x768.Slices ![8, 0] S1x768
  slices_S20x768x768_S1x768x768_9_0_0 : S20x768x768.Slices ![9, 0, 0] S1x768x768
  slices_S20x768_S1x768_9_0 : S20x768.Slices ![9, 0] S1x768
  slices_S20x768x768_S1x768x768_10_0_0 : S20x768x768.Slices ![10, 0, 0] S1x768x768
  slices_S20x768_S1x768_10_0 : S20x768.Slices ![10, 0] S1x768
  slices_S20x768x768_S1x768x768_11_0_0 : S20x768x768.Slices ![11, 0, 0] S1x768x768
  slices_S20x768_S1x768_11_0 : S20x768.Slices ![11, 0] S1x768
  slices_S20x768x768_S1x768x768_12_0_0 : S20x768x768.Slices ![12, 0, 0] S1x768x768
  slices_S20x768_S1x768_12_0 : S20x768.Slices ![12, 0] S1x768
  slices_S20x768x768_S1x768x768_13_0_0 : S20x768x768.Slices ![13, 0, 0] S1x768x768
  slices_S20x768_S1x768_13_0 : S20x768.Slices ![13, 0] S1x768
  slices_S20x768x768_S1x768x768_14_0_0 : S20x768x768.Slices ![14, 0, 0] S1x768x768
  slices_S20x768_S1x768_14_0 : S20x768.Slices ![14, 0] S1x768
  slices_S20x768x768_S1x768x768_15_0_0 : S20x768x768.Slices ![15, 0, 0] S1x768x768
  slices_S20x768_S1x768_15_0 : S20x768.Slices ![15, 0] S1x768
  slices_S20x768x768_S1x768x768_16_0_0 : S20x768x768.Slices ![16, 0, 0] S1x768x768
  slices_S20x768_S1x768_16_0 : S20x768.Slices ![16, 0] S1x768
  slices_S20x768x768_S1x768x768_17_0_0 : S20x768x768.Slices ![17, 0, 0] S1x768x768
  slices_S20x768_S1x768_17_0 : S20x768.Slices ![17, 0] S1x768
  slices_S20x768x768_S1x768x768_18_0_0 : S20x768x768.Slices ![18, 0, 0] S1x768x768
  slices_S20x768_S1x768_18_0 : S20x768.Slices ![18, 0] S1x768
  slices_S20x768x768_S1x768x768_19_0_0 : S20x768x768.Slices ![19, 0, 0] S1x768x768
  slices_S20x768_S1x768_19_0 : S20x768.Slices ![19, 0] S1x768
  dot_S32768x768_S768x768_S32768x768_1_0_0_1_n_n_wf : DotDims.WF S32768x768 S768x768 S32768x768 [1] [0] [0] [1] [] []

variable [Facts₀]

def dot_S32768x768_S768x768_S32768x768_1_0_0_1_n_n : DotDims S32768x768 S768x768 S32768x768 where
  lhsContracting := [1]
  rhsContracting := [0]
  lhsNonContracting := [0]
  rhsNonContracting := [1]
  lhsBatch := []
  rhsBatch := []
  wf := dot_S32768x768_S768x768_S32768x768_1_0_0_1_n_n_wf

class Facts : Prop extends Facts₀ where

variable [Facts]
-- ==== Proof.BBodyShared.lean ====
import proofs.«123963_g79869211837047_cont_9to1_m_368_32_alg».proof.Proof.Gen.Kernel.Frame
import proofs.«123963_g79869211837047_cont_9to1_m_368_32_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three branch conditions of the body, as functions of the grid coordinate

The grid has 26 points. The first ten build the combined weight matrix and bias row in the two
scratch buffers (two layers per point); the last sixteen apply them to one block of tokens each. -/

/-- The first conditional: the coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second conditional: the coordinate is strictly between 0 and 10. -/
abbrev cond0_1 (i : grid0.Coords) : Prop := (Scalar.cmpi .ne (Scalar.extui (Scalar.andi (Scalar.cmpi .sgt (BitVec.ofNat 32 (i 0).val) 0#32) (Scalar.cmpi .slt (BitVec.ofNat 32 (i 0).val) 10#32))) 0#32) = 1#1
/-- It holds at points 1 to 9. -/
theorem hcond0_1 : ∀ t : Fin cfg0.N, cond0_1 (grid0.coords t) ↔ (1 ≤ t.val ∧ t.val < 10) :=
  (by decide +kernel : ∀ t : Fin grid0.N, cond0_1 (grid0.coords t) ↔ (1 ≤ t.val ∧ t.val < 10))

/-- The third conditional: the coordinate is at least 10. -/
abbrev cond0_2 (i : grid0.Coords) : Prop := k0_cond3 i = 1#1
/-- It holds from point 10 on. -/
theorem hcond0_2 : ∀ t : Fin cfg0.N, cond0_2 (grid0.coords t) ↔ 10 ≤ t.val :=
  (by decide +kernel : ∀ t : Fin grid0.N, cond0_2 (grid0.coords t) ↔ 10 ≤ t.val)

/-! ## Where the windows are idle

The four input windows are live everywhere. The output window is idle while the scratch is being
built (nothing is stored into it and its block is not written back), and live once blocks of the
result are produced. -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- At the first point the output window is idle, -/
theorem idleAt0_4_A : ∀ t : Fin cfg0.N, cond0_0 (grid0.coords t) → ¬cond0_1 (grid0.coords t) → ¬cond0_2 (grid0.coords t) → cfg0.idle 4 (grid0.coords t) = true := by decide +kernel
/-- and its block is not written back. -/
theorem noFlush0_4_A : ∀ t : Fin cfg0.N, cond0_0 (grid0.coords t) → ¬cond0_1 (grid0.coords t) → ¬cond0_2 (grid0.coords t) → (cfg0.win 4).flush t = false := by decide +kernel
/-- The same at points 1 to 9. -/
theorem idleAt0_4_B : ∀ t : Fin cfg0.N, ¬cond0_0 (grid0.coords t) → cond0_1 (grid0.coords t) → ¬cond0_2 (grid0.coords t) → cfg0.idle 4 (grid0.coords t) = true := by decide +kernel
theorem noFlush0_4_B : ∀ t : Fin cfg0.N, ¬cond0_0 (grid0.coords t) → cond0_1 (grid0.coords t) → ¬cond0_2 (grid0.coords t) → (cfg0.win 4).flush t = false := by decide +kernel
/-- From point 10 on the output window is live. -/
theorem liveAt0_4_C : ∀ t : Fin cfg0.N, ¬cond0_0 (grid0.coords t) → ¬cond0_1 (grid0.coords t) → cond0_2 (grid0.coords t) → cfg0.idle 4 (grid0.coords t) = false := by decide +kernel

/-! ## The memrefs the body is called with -/

/-- One staging buffer of the output window, as a view: what the window holds is read through it. -/
abbrev VO0_4 : View sig .tc .vmem S2048x768 .f32 := (Memref.whole cc0_stg4_0 : Memref sig .tc .vmem S2048x768 .f32).view
/-- Each window's current staging memref at point `t`, with its wholeness. -/
abbrev ms0_0 (t : Fin cfg0.N) : Memref sig .tc .vmem S2x768x768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x768x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x1x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x768 .f32 := win0_4.stage (cfg0.slots t 4)
abbrev hs0_4 (t : Fin cfg0.N) : (ms0_4 t).IsWhole := hstage0_4 ((cfg0.slots t 4).cast nbuf0_4)
/-- The two scratch buffers: the running matrix product and the running bias row. -/
abbrev scM0_0 : Memref sig .tc .vmem S768x768 .f32 := Memref.whole cc0_scratch0
abbrev scM0_1 : Memref sig .tc .vmem S1x768 .f32 := Memref.whole cc0_scratch1
/-- The same as views. -/
abbrev VS0_0 : View sig .tc .vmem S768x768 .f32 := scM0_0.view
abbrev VS0_1 : View sig .tc .vmem S1x768 .f32 := scM0_1.view

/-- What the launch hands the region besides the windows: the two scratch buffers, each owned at some
    contents, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Body

end
-- ==== Proof.BBodyRunA.lean ====
import proofs.«123963_g79869211837047_cont_9to1_m_368_32_alg».proof.Proof.BBodyShared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- THE FIRST POINT. Only the first conditional is taken. It stores the first layer's weight
    (high half plus low half) into the matrix scratch and the first bias into the row scratch, then
    folds the second layer in: the matrix scratch is read back, multiplied on the left by the second
    weight and stored again; the row scratch likewise. Whatever the two scratch buffers held before is
    never used (the only loads that precede the first stores are dead), so they are taken at anything.
    The four inputs are handed back as they were, the output buffer — idle here — untouched, and each
    scratch with the list of pieces the stores wrote (found by the run, last store first). -/
noncomputable def kernelRun0_A (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : cond0_0 i) (hc1 : ¬cond0_1 i) (hc2 : ¬cond0_2 i)
    (x0 : Vec F S2x768x768 .bf16) (x1 : Vec F S2x768x768 .bf16) (x2 : Vec F S2x1x768 .f32) (x3 : Vec F S2048x768 .f32) :
    Σ' (L4 : List (View.Piece (Elt F) S2048x768 .f32)) (LS0 : List (View.Piece (Elt F) S768x768 .f32)), { LS1 : List (View.Piece (Elt F) S1x768 .f32) //
      ∀ (xi4 : Vec F S2048x768 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨[], ?_, ?_, fun xi4 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.Kernel.Body

end
-- ==== Proof.BBodyRunB.lean ====
import proofs.«123963_g79869211837047_cont_9to1_m_368_32_alg».proof.Proof.BBodyRunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- POINTS 1 TO 9. Only the second conditional is taken: two more layers are folded into the scratch.
    The matrix scratch is read as the point before left it (`xs0`), multiplied on the left by this
    point's first weight and stored; read back, multiplied by the second weight and stored again. The
    row scratch (`xs1` on entry) goes the same way with the two biases added. Inputs handed back as
    they were, the idle output untouched, each scratch with its list of pieces. -/
noncomputable def kernelRun0_B (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : ¬cond0_0 i) (hc1 : cond0_1 i) (hc2 : ¬cond0_2 i)
    (x0 : Vec F S2x768x768 .bf16) (x1 : Vec F S2x768x768 .bf16) (x2 : Vec F S2x1x768 .f32) (x3 : Vec F S2048x768 .f32) (xs0 : Vec F S768x768 .f32) (xs1 : Vec F S1x768 .f32) :
    Σ' (L4 : List (View.Piece (Elt F) S2048x768 .f32)) (LS0 : List (View.Piece (Elt F) S768x768 .f32)), { LS1 : List (View.Piece (Elt F) S1x768 .f32) //
      ∀ (xi4 : Vec F S2048x768 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨[], ?_, ?_, fun xi4 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg6.eq_unread hfs0; obtain rfl := harg7.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.Kernel.Body

end
-- ==== Proof.BBodyRunC.lean ====
import proofs.«123963_g79869211837047_cont_9to1_m_368_32_alg».proof.Proof.BBodyRunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- POINTS 10 TO 25. Only the third conditional is taken: one block of tokens is multiplied by the
    transpose of the matrix scratch and the row scratch is added to every row; the result is stored
    over the whole output block. Neither scratch is stored into: both are handed back holding exactly
    what they held on entry (`xs0`, `xs1`). The output buffer is taken at anything (its one load is
    dead) and returned with the single piece the store wrote. -/
noncomputable def kernelRun0_C (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : ¬cond0_0 i) (hc1 : ¬cond0_1 i) (hc2 : cond0_2 i)
    (x0 : Vec F S2x768x768 .bf16) (x1 : Vec F S2x768x768 .bf16) (x2 : Vec F S2x1x768 .f32) (x3 : Vec F S2048x768 .f32) (xs0 : Vec F S768x768 .f32) (xs1 : Vec F S1x768 .f32) :
    { L4 : List (View.Piece (Elt F) S2048x768 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs0 ∗ owns (c : Thread nD τ) arg7 fullShare xs1) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hfs0; obtain rfl := harg7.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]
    · iexists _; isplitr; · ipureintro; exact harg6.read_unread _
      iexact HS0
    iexists _; isplitr; · ipureintro; exact harg7.read_unread _
    iexact HS1

end Cert.Kernel.Body

end
-- ==== Proof.BBodyOuts.lean ====
import proofs.«123963_g79869211837047_cont_9to1_m_368_32_alg».proof.Proof.BBodyRunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

theorem caseA0 (t : Fin cfg0.N) (h : t.val = 0) : cond0_0 (grid0.coords t) := (hcond0_0 t).mpr h
theorem caseA1 (t : Fin cfg0.N) (h : t.val = 0) : ¬cond0_1 (grid0.coords t) := fun hc => by have := (hcond0_1 t).mp hc; omega
theorem caseA2 (t : Fin cfg0.N) (h : t.val = 0) : ¬cond0_2 (grid0.coords t) := fun hc => by have := (hcond0_2 t).mp hc; omega
theorem caseB0 (t : Fin cfg0.N) (h1 : 1 ≤ t.val) (h2 : t.val < 10) : ¬cond0_0 (grid0.coords t) := fun hc => by have := (hcond0_0 t).mp hc; omega
theorem caseB1 (t : Fin cfg0.N) (h1 : 1 ≤ t.val) (h2 : t.val < 10) : cond0_1 (grid0.coords t) := (hcond0_1 t).mpr ⟨h1, h2⟩
theorem caseB2 (t : Fin cfg0.N) (h1 : 1 ≤ t.val) (h2 : t.val < 10) : ¬cond0_2 (grid0.coords t) := fun hc => by have := (hcond0_2 t).mp hc; omega
theorem caseC0 (t : Fin cfg0.N) (h : 10 ≤ t.val) : ¬cond0_0 (grid0.coords t) := fun hc => by have := (hcond0_0 t).mp hc; omega
theorem caseC1 (t : Fin cfg0.N) (h : 10 ≤ t.val) : ¬cond0_1 (grid0.coords t) := fun hc => by have := (hcond0_1 t).mp hc; omega
theorem caseC2 (t : Fin cfg0.N) (h : 10 ≤ t.val) : cond0_2 (grid0.coords t) := (hcond0_2 t).mpr h

/-! ## What each case leaves -/

/-- The first point stores nothing into the output block (the window is idle there): a placeholder nothing
    consults. -/
def out0_A_4 (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : cond0_0 i) (hc1 : ¬cond0_1 i) (hc2 : ¬cond0_2 i)
    (x0 : Vec F S2x768x768 .bf16) (x1 : Vec F S2x768x768 .bf16) (x2 : Vec F S2x1x768 .f32) (x3 : Vec F S2048x768 .f32) : Vec F S2048x768 .f32 :=
  VO0_4.read (Elt F) (VO0_4.writes (Elt F) VO0_4.junk (kernelRun0_A c i arg1 harg1 arg2 harg2 arg3 harg3 arg4 harg4 arg5 harg5 arg6 harg6 arg7 harg7 hc0 hc1 hc2 x0 x1 x2 x3).1)

/-- The first point's stores into the matrix scratch are whole-buffer stores, so they cover it. -/
theorem scover0_A_0 (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : cond0_0 i) (hc1 : ¬cond0_1 i) (hc2 : ¬cond0_2 i)
    (x0 : Vec F S2x768x768 .bf16) (x1 : Vec F S2x768x768 .bf16) (x2 : Vec F S2x1x768 .f32) (x3 : Vec F S2048x768 .f32) (y : S768x768.Idx) :
    ∃ pc ∈ (kernelRun0_A c i arg1 harg1 arg2 harg2 arg3 harg3 arg4 harg4 arg5 harg5 arg6 harg6 arg7 harg7 hc0 hc1 hc2 x0 x1 x2 x3).2.1, y ∈ pc.1.set :=
  View.cover_of_tiledL (kernelRun0_A c i arg1 harg1 arg2 harg2 arg3 harg3 arg4 harg4 arg5 harg5 arg6 harg6 arg7 harg7 hc0 hc1 hc2 x0 x1 x2 x3).2.1 S768x768.size (by sl_kernel_rfl) y

/-- The matrix scratch after the first point: the product of the first two layers' weights. -/
def sout0_A_0 (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : cond0_0 i) (hc1 : ¬cond0_1 i) (hc2 : ¬cond0_2 i)
    (x0 : Vec F S2x768x768 .bf16) (x1 : Vec F S2x768x768 .bf16) (x2 : Vec F S2x1x768 .f32) (x3 : Vec F S2048x768 .f32) : Vec F S768x768 .f32 :=
  VS0_0.read (Elt F) (VS0_0.writes (Elt F) VS0_0.junk (kernelRun0_A c i arg1 harg1 arg2 harg2 arg3 harg3 arg4 harg4 arg5 harg5 arg6 harg6 arg7 harg7 hc0 hc1 hc2 x0 x1 x2 x3).2.1)

/-- Likewise the row scratch is covered, -/
theorem scover0_A_1 (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : cond0_0 i) (hc1 : ¬cond0_1 i) (hc2 : ¬cond0_2 i)
    (x0 : Vec F S2x768x768 .bf16) (x1 : Vec F S2x768x768 .bf16) (x2 : Vec F S2x1x768 .f32) (x3 : Vec F S2048x768 .f32) (y : S1x768.Idx) :
    ∃ pc ∈ (kernelRun0_A c i arg1 harg1 arg2 harg2 arg3 harg3 arg4 harg4 arg5 harg5 arg6 harg6 arg7 harg7 hc0 hc1 hc2 x0 x1 x2 x3).2.2.1, y ∈ pc.1.set :=
  View.cover_of_tiledL (kernelRun0_A c i arg1 harg1 arg2 harg2 arg3 harg3 arg4 harg4 arg5 harg5 arg6 harg6 arg7 harg7 hc0 hc1 hc2 x0 x1 x2 x3).2.2.1 S1x768.size (by sl_kernel_rfl) y

/-- and holds the first bias pushed through the second layer, plus the second bias. -/
def sout0_A_1 (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : cond0_0 i) (hc1 : ¬cond0_1 i) (hc2 : ¬cond0_2 i)
    (x0 : Vec F S2x768x768 .bf16) (x1 : Vec F S2x768x768 .bf16) (x2 : Vec F S2x1x768 .f32) (x3 : Vec F S2048x768 .f32) : Vec F S1x768 .f32 :=
  VS0_1.read (Elt F) (VS0_1.writes (Elt F) VS0_1.junk (kernelRun0_A c i arg1 harg1 arg2 harg2 arg3 harg3 arg4 harg4 arg5 harg5 arg6 harg6 arg7 harg7 hc0 hc1 hc2 x0 x1 x2 x3).2.2.1)

/-- Points 1 to 9 store nothing into the output block either. -/
def out0_B_4 (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : ¬cond0_0 i) (hc1 : cond0_1 i) (hc2 : ¬cond0_2 i)
    (x0 : Vec F S2x768x768 .bf16) (x1 : Vec F S2x768x768 .bf16) (x2 : Vec F S2x1x768 .f32) (x3 : Vec F S2048x768 .f32) (xs0 : Vec F S768x768 .f32) (xs1 : Vec F S1x768 .f32) : Vec F S2048x768 .f32 :=
  VO0_4.read (Elt F) (VO0_4.writes (Elt F) VO0_4.junk (kernelRun0_B c i arg1 harg1 arg2 harg2 arg3 harg3 arg4 harg4 arg5 harg5 arg6 harg6 arg7 harg7 hc0 hc1 hc2 x0 x1 x2 x3 xs0 xs1).1)

theorem scover0_B_0 (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : ¬cond0_0 i) (hc1 : cond0_1 i) (hc2 : ¬cond0_2 i)
    (x0 : Vec F S2x768x768 .bf16) (x1 : Vec F S2x768x768 .bf16) (x2 : Vec F S2x1x768 .f32) (x3 : Vec F S2048x768 .f32) (xs0 : Vec F S768x768 .f32) (xs1 : Vec F S1x768 .f32) (y : S768x768.Idx) :
    ∃ pc ∈ (kernelRun0_B c i arg1 harg1 arg2 harg2 arg3 harg3 arg4 harg4 arg5 harg5 arg6 harg6 arg7 harg7 hc0 hc1 hc2 x0 x1 x2 x3 xs0 xs1).2.1, y ∈ pc.1.set :=
  View.cover_of_tiledL (kernelRun0_B c i arg1 harg1 arg2 harg2 arg3 harg3 arg4 harg4 arg5 harg5 arg6 harg6 arg7 harg7 hc0 hc1 hc2 x0 x1 x2 x3 xs0 xs1).2.1 S768x768.size (by sl_kernel_rfl) y

/-- The matrix scratch after one of points 1 to 9: this point's two weights applied on the left of what
    the point before left (`xs0`). -/
def sout0_B_0 (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : ¬cond0_0 i) (hc1 : cond0_1 i) (hc2 : ¬cond0_2 i)
    (x0 : Vec F S2x768x768 .bf16) (x1 : Vec F S2x768x768 .bf16) (x2 : Vec F S2x1x768 .f32) (x3 : Vec F S2048x768 .f32) (xs0 : Vec F S768x768 .f32) (xs1 : Vec F S1x768 .f32) : Vec F S768x768 .f32 :=
  VS0_0.read (Elt F) (VS0_0.writes (Elt F) VS0_0.junk (kernelRun0_B c i arg1 harg1 arg2 harg2 arg3 harg3 arg4 harg4 arg5 harg5 arg6 harg6 arg7 harg7 hc0 hc1 hc2 x0 x1 x2 x3 xs0 xs1).2.1)

theorem scover0_B_1 (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : ¬cond0_0 i) (hc1 : cond0_1 i) (hc2 : ¬cond0_2 i)
    (x0 : Vec F S2x768x768 .bf16) (x1 : Vec F S2x768x768 .bf16) (x2 : Vec F S2x1x768 .f32) (x3 : Vec F S2048x768 .f32) (xs0 : Vec F S768x768 .f32) (xs1 : Vec F S1x768 .f32) (y : S1x768.Idx) :
    ∃ pc ∈ (kernelRun0_B c i arg1 harg1 arg2 harg2 arg3 harg3 arg4 harg4 arg5 harg5 arg6 harg6 arg7 harg7 hc0 hc1 hc2 x0 x1 x2 x3 xs0 xs1).2.2.1, y ∈ pc.1.set :=
  View.cover_of_tiledL (kernelRun0_B c i arg1 harg1 arg2 harg2 arg3 harg3 arg4 harg4 arg5 harg5 arg6 harg6 arg7 harg7 hc0 hc1 hc2 x0 x1 x2 x3 xs0 xs1).2.2.1 S1x768.size (by sl_kernel_rfl) y

/-- The row scratch after one of points 1 to 9: `xs1` pushed through this point's two layers. -/
def sout0_B_1 (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : ¬cond0_0 i) (hc1 : cond0_1 i) (hc2 : ¬cond0_2 i)
    (x0 : Vec F S2x768x768 .bf16) (x1 : Vec F S2x768x768 .bf16) (x2 : Vec F S2x1x768 .f32) (x3 : Vec F S2048x768 .f32) (xs0 : Vec F S768x768 .f32) (xs1 : Vec F S1x768 .f32) : Vec F S1x768 .f32 :=
  VS0_1.read (Elt F) (VS0_1.writes (Elt F) VS0_1.junk (kernelRun0_B c i arg1 harg1 arg2 harg2 arg3 harg3 arg4 harg4 arg5 harg5 arg6 harg6 arg7 harg7 hc0 hc1 hc2 x0 x1 x2 x3 xs0 xs1).2.2.1)

/-- From point 10 on the one store into the output block is of the whole block, so it covers it. -/
theorem cover0_C_4 (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : ¬cond0_0 i) (hc1 : ¬cond0_1 i) (hc2 : cond0_2 i)
    (x0 : Vec F S2x768x768 .bf16) (x1 : Vec F S2x768x768 .bf16) (x2 : Vec F S2x1x768 .f32) (x3 : Vec F S2048x768 .f32) (xs0 : Vec F S768x768 .f32) (xs1 : Vec F S1x768 .f32) (y : S2048x768.Idx) :
    ∃ pc ∈ (kernelRun0_C c i arg1 harg1 arg2 harg2 arg3 harg3 arg4 harg4 arg5 harg5 arg6 harg6 arg7 harg7 hc0 hc1 hc2 x0 x1 x2 x3 xs0 xs1).1, y ∈ pc.1.set :=
  View.cover_of_tiledL (kernelRun0_C c i arg1 harg1 arg2 harg2 arg3 harg3 arg4 harg4 arg5 harg5 arg6 harg6 arg7 harg7 hc0 hc1 hc2 x0 x1 x2 x3 xs0 xs1).1 S2048x768.size (by sl_kernel_rfl) y

/-- The output block at such a point: the token block times the transposed matrix scratch, plus the row
    scratch on every row. -/
def out0_C_4 (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : ¬cond0_0 i) (hc1 : ¬cond0_1 i) (hc2 : cond0_2 i)
    (x0 : Vec F S2x768x768 .bf16) (x1 : Vec F S2x768x768 .bf16) (x2 : Vec F S2x1x768 .f32) (x3 : Vec F S2048x768 .f32) (xs0 : Vec F S768x768 .f32) (xs1 : Vec F S1x768 .f32) : Vec F S2048x768 .f32 :=
  VO0_4.read (Elt F) (VO0_4.writes (Elt F) VO0_4.junk (kernelRun0_C c i arg1 harg1 arg2 harg2 arg3 harg3 arg4 harg4 arg5 harg5 arg6 harg6 arg7 harg7 hc0 hc1 hc2 x0 x1 x2 x3 xs0 xs1).1)

/-! ## What the output block and the two scratch buffers hold after each point -/

/-- After point `n`: (the output window's staging buffer, the matrix scratch, the row scratch).
    Point 0 starts the two scratch buffers; points 1 to 9 update them from what the point before left; from
    point 10 on they are carried over unchanged and the output block is computed from them. -/
def outsAt0 (c : Dev nD) : (n : ℕ) → n < cfg0.N → Vec F S2048x768 .f32 × Vec F S768x768 .f32 × Vec F S1x768 .f32
  | 0, hn =>
    (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) (caseA0 ⟨0, hn⟩ rfl) (caseA1 ⟨0, hn⟩ rfl) (caseA2 ⟨0, hn⟩ rfl) (iblk m c 0 ⟨0, hn⟩) (iblk m c 1 ⟨0, hn⟩) (iblk m c 2 ⟨0, hn⟩) (iblk m c 3 ⟨0, hn⟩),
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) (caseA0 ⟨0, hn⟩ rfl) (caseA1 ⟨0, hn⟩ rfl) (caseA2 ⟨0, hn⟩ rfl) (iblk m c 0 ⟨0, hn⟩) (iblk m c 1 ⟨0, hn⟩) (iblk m c 2 ⟨0, hn⟩) (iblk m c 3 ⟨0, hn⟩),
     sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) (caseA0 ⟨0, hn⟩ rfl) (caseA1 ⟨0, hn⟩ rfl) (caseA2 ⟨0, hn⟩ rfl) (iblk m c 0 ⟨0, hn⟩) (iblk m c 1 ⟨0, hn⟩) (iblk m c 2 ⟨0, hn⟩) (iblk m c 3 ⟨0, hn⟩))
  | n + 1, hn =>
    if hb : n + 1 < 10 then
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (caseB0 ⟨n + 1, hn⟩ (Nat.succ_pos n) hb) (caseB1 ⟨n + 1, hn⟩ (Nat.succ_pos n) hb) (caseB2 ⟨n + 1, hn⟩ (Nat.succ_pos n) hb) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (caseB0 ⟨n + 1, hn⟩ (Nat.succ_pos n) hb) (caseB1 ⟨n + 1, hn⟩ (Nat.succ_pos n) hb) (caseB2 ⟨n + 1, hn⟩ (Nat.succ_pos n) hb) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (caseB0 ⟨n + 1, hn⟩ (Nat.succ_pos n) hb) (caseB1 ⟨n + 1, hn⟩ (Nat.succ_pos n) hb) (caseB2 ⟨n + 1, hn⟩ (Nat.succ_pos n) hb) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)
    else
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (caseC0 ⟨n + 1, hn⟩ (Nat.le_of_not_lt hb)) (caseC1 ⟨n + 1, hn⟩ (Nat.le_of_not_lt hb)) (caseC2 ⟨n + 1, hn⟩ (Nat.le_of_not_lt hb)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2,
       (outsAt0 c n (Nat.lt_of_succ_lt hn)).2.1,
       (outsAt0 c n (Nat.lt_of_succ_lt hn)).2.2)

/-- The point before `t` (point 0 for `t = 0`, where it is not consulted). -/
abbrev prev0 (c : Dev nD) (t : Fin cfg0.N) : Vec F S2048x768 .f32 × Vec F S768x768 .f32 × Vec F S1x768 .f32 :=
  outsAt0 m c (t.val - 1) (Nat.lt_of_le_of_lt (Nat.sub_le _ _) t.isLt)

/-- `outsAt0` at the first point. -/
theorem outsAt0_A (c : Dev nD) (t : Fin cfg0.N) (hz : t.val = 0) :
    outsAt0 m c t.val t.isLt =
      (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseA0 t hz) (caseA1 t hz) (caseA2 t hz) (iblk m c 0 t) (iblk m c 1 t) (iblk m c 2 t) (iblk m c 3 t),
       sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseA0 t hz) (caseA1 t hz) (caseA2 t hz) (iblk m c 0 t) (iblk m c 1 t) (iblk m c 2 t) (iblk m c 3 t),
       sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseA0 t hz) (caseA1 t hz) (caseA2 t hz) (iblk m c 0 t) (iblk m c 1 t) (iblk m c 2 t) (iblk m c 3 t)) := by
  obtain ⟨n, hn⟩ := t
  cases n with
  | zero => exact rfl
  | succ n => exact absurd hz (Nat.succ_ne_zero n)

/-- `outsAt0` at points 1 to 9: the scratch updated from what the point before left. -/
theorem outsAt0_B (c : Dev nD) (t : Fin cfg0.N) (h1 : 1 ≤ t.val) (h2 : t.val < 10) :
    outsAt0 m c t.val t.isLt =
      (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseB0 t h1 h2) (caseB1 t h1 h2) (caseB2 t h1 h2) (iblk m c 0 t) (iblk m c 1 t) (iblk m c 2 t) (iblk m c 3 t) (prev0 m c t).2.1 (prev0 m c t).2.2,
       sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseB0 t h1 h2) (caseB1 t h1 h2) (caseB2 t h1 h2) (iblk m c 0 t) (iblk m c 1 t) (iblk m c 2 t) (iblk m c 3 t) (prev0 m c t).2.1 (prev0 m c t).2.2,
       sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseB0 t h1 h2) (caseB1 t h1 h2) (caseB2 t h1 h2) (iblk m c 0 t) (iblk m c 1 t) (iblk m c 2 t) (iblk m c 3 t) (prev0 m c t).2.1 (prev0 m c t).2.2) := by
  obtain ⟨n, hn⟩ := t
  cases n with
  | zero => exact (Nat.not_succ_le_zero 0 h1).elim
  | succ n => exact (dif_pos h2).trans rfl

/-- `outsAt0` from point 10 on: the output block from the scratch the point before left, the scratch carried over. -/
theorem outsAt0_C (c : Dev nD) (t : Fin cfg0.N) (h : 10 ≤ t.val) :
    outsAt0 m c t.val t.isLt =
      (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseC0 t h) (caseC1 t h) (caseC2 t h) (iblk m c 0 t) (iblk m c 1 t) (iblk m c 2 t) (iblk m c 3 t) (prev0 m c t).2.1 (prev0 m c t).2.2,
       (prev0 m c t).2.1,
       (prev0 m c t).2.2) := by
  obtain ⟨n, hn⟩ := t
  cases n with
  | zero => exact (Nat.not_succ_le_zero 9 h).elim
  | succ n => exact (dif_neg (Nat.not_lt.mpr h)).trans rfl

end Cert.Kernel.Body

end
-- ==== Proof.BBodyFrame.lean ====
import proofs.«123963_g79869211837047_cont_9to1_m_368_32_alg».proof.Proof.BBodyOuts

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between points -/

/-- Before point `n`: at the start the two scratch buffers hold anything; afterwards each holds what the
    point before left in it. The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The arrays as the region finds them; after the body at point `t` each input's buffer at its block and
    the output's at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`: the invariant, the (empty) debt, each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' buffers hold their blocks; the point's position says which of the
    three conditionals is taken, and that case's run applies. At the first point the invariant hands over the
    scratch buffers at anything; later it hands them over at what the point before left, and takes them back
    at this point's contents — rebuilt from the stored pieces where the case stores, unchanged where it does
    not. The output buffer is handed back untouched while the window is idle and at the stored block after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  by_cases hz : t.val = 0
  · -- the first point
    rw [Dat.leavesExact_idle (dats m 0 c) 4 t (idleAt0_4_A t (caseA0 t hz) (caseA1 t hz) (caseA2 t hz)) (noFlush0_4_A t (caseA0 t hz) (caseA1 t hz) (caseA2 t hz))]
    rw [outsAt0_A m c t hz]
    unfold sout0_A_0 sout0_A_1; (try dsimp only)
    rw [PhiS_castSucc m c t, PhiS_zero m c _ _ hz, PhiA0_eq]
    iintro ⟨⟨⟨HS0, HS1⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ _ _ (caseA0 t hz) (caseA1 t hz) (caseA2 t hz) (iblk m c 0 t) (iblk m c 1 t) (iblk m c 2 t) (iblk m c 3 t)).2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _)
        · unfold owns; iexists _; isplitr
          swap; · iexact HS1
          ipureintro; exact View.read_writes_of_cover _ _ _ _ _ (scover0_A_1 c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · have h1 : 1 ≤ t.val := Nat.one_le_iff_ne_zero.mpr hz
    by_cases h2 : t.val < 10
    · -- points 1 to 9
      rw [Dat.leavesExact_idle (dats m 0 c) 4 t (idleAt0_4_B t (caseB0 t h1 h2) (caseB1 t h1 h2) (caseB2 t h1 h2)) (noFlush0_4_B t (caseB0 t h1 h2) (caseB1 t h1 h2) (caseB2 t h1 h2))]
      rw [outsAt0_B m c t h1 h2]
      unfold sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ (caseB0 t h1 h2) (caseB1 t h1 h2) (caseB2 t h1 h2) (iblk m c 0 t) (iblk m c 1 t) (iblk m c 2 t) (iblk m c 3 t) _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · -- points 10 to 25
      have h3 : 10 ≤ t.val := Nat.le_of_not_lt h2
      rw [show (dats m 0 c).leavesExact 4 t = owns (c : Thread nD τ) (ms0_4 t) fullShare ((dats m 0 c).after 4 t) from by
        unfold Dat.leavesExact; rw [liveAt0_4_C t (caseC0 t h3) (caseC1 t h3) (caseC2 t h3)], after0_4]
      rw [outsAt0_C m c t h3]
      unfold out0_C_4; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ (caseC0 t h3) (caseC1 t h3) (caseC2 t h3) (iblk m c 0 t) (iblk m c 1 t) (iblk m c 2 t) (iblk m c 3 t) _ _).2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's form back: what the scratch buffers hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- In particular after the last point. -/
theorem hout (c : Dev nD) : (dats m 0 c).Φ (Fin.last cfg0.N) ⊢ Pipeline.ΦA spec0 c :=
  Phi_out m c _ (by rw [Fin.val_last]; have : cfg0.N = 26 := N_0; omega)

/-! ## The run and the frame -/

set_option backward.isDefEq.respectTransparency.types false in
/-- From any memory with zero counters every weakly fair execution of the program terminates, and in every
    final state each array of the pipeline holds what the proof data computes and every other unscoped buffer
    is as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The three argument arrays are unchanged by the program. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KBodyShared.lean ====
import proofs.«123963_g79869211837047_cont_9to1_m_368_32_alg».proof.Proof.Gen.KernelIdeal.Frame
import proofs.«123963_g79869211837047_cont_9to1_m_368_32_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three branch conditions of the body, as functions of the grid coordinate

The grid has 26 points. The first ten build the combined weight matrix and bias row in the two
scratch buffers (two layers per point); the last sixteen apply them to one block of tokens each. -/

/-- The first conditional: the coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second conditional: the coordinate is strictly between 0 and 10. -/
abbrev cond0_1 (i : grid0.Coords) : Prop := (Scalar.cmpi .ne (Scalar.extui (Scalar.andi (Scalar.cmpi .sgt (BitVec.ofNat 32 (i 0).val) 0#32) (Scalar.cmpi .slt (BitVec.ofNat 32 (i 0).val) 10#32))) 0#32) = 1#1
/-- It holds at points 1 to 9. -/
theorem hcond0_1 : ∀ t : Fin cfg0.N, cond0_1 (grid0.coords t) ↔ (1 ≤ t.val ∧ t.val < 10) :=
  (by decide +kernel : ∀ t : Fin grid0.N, cond0_1 (grid0.coords t) ↔ (1 ≤ t.val ∧ t.val < 10))

/-- The third conditional: the coordinate is at least 10. -/
abbrev cond0_2 (i : grid0.Coords) : Prop := k0_cond3 i = 1#1
/-- It holds from point 10 on. -/
theorem hcond0_2 : ∀ t : Fin cfg0.N, cond0_2 (grid0.coords t) ↔ 10 ≤ t.val :=
  (by decide +kernel : ∀ t : Fin grid0.N, cond0_2 (grid0.coords t) ↔ 10 ≤ t.val)

/-! ## Where the windows are idle

The four input windows are live everywhere. The output window is idle while the scratch is being
built (nothing is stored into it and its block is not written back), and live once blocks of the
result are produced. -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- At the first point the output window is idle, -/
theorem idleAt0_4_A : ∀ t : Fin cfg0.N, cond0_0 (grid0.coords t) → ¬cond0_1 (grid0.coords t) → ¬cond0_2 (grid0.coords t) → cfg0.idle 4 (grid0.coords t) = true := by decide +kernel
/-- and its block is not written back. -/
theorem noFlush0_4_A : ∀ t : Fin cfg0.N, cond0_0 (grid0.coords t) → ¬cond0_1 (grid0.coords t) → ¬cond0_2 (grid0.coords t) → (cfg0.win 4).flush t = false := by decide +kernel
/-- The same at points 1 to 9. -/
theorem idleAt0_4_B : ∀ t : Fin cfg0.N, ¬cond0_0 (grid0.coords t) → cond0_1 (grid0.coords t) → ¬cond0_2 (grid0.coords t) → cfg0.idle 4 (grid0.coords t) = true := by decide +kernel
theorem noFlush0_4_B : ∀ t : Fin cfg0.N, ¬cond0_0 (grid0.coords t) → cond0_1 (grid0.coords t) → ¬cond0_2 (grid0.coords t) → (cfg0.win 4).flush t = false := by decide +kernel
/-- From point 10 on the output window is live. -/
theorem liveAt0_4_C : ∀ t : Fin cfg0.N, ¬cond0_0 (grid0.coords t) → ¬cond0_1 (grid0.coords t) → cond0_2 (grid0.coords t) → cfg0.idle 4 (grid0.coords t) = false := by decide +kernel

/-! ## The memrefs the body is called with -/

/-- One staging buffer of the output window, as a view: what the window holds is read through it. -/
abbrev VO0_4 : View sig .tc .vmem S2048x768 .f32 := (Memref.whole cc0_stg4_0 : Memref sig .tc .vmem S2048x768 .f32).view
/-- Each window's current staging memref at point `t`, with its wholeness. -/
abbrev ms0_0 (t : Fin cfg0.N) : Memref sig .tc .vmem S2x768x768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x768x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x1x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x768 .f32 := win0_4.stage (cfg0.slots t 4)
abbrev hs0_4 (t : Fin cfg0.N) : (ms0_4 t).IsWhole := hstage0_4 ((cfg0.slots t 4).cast nbuf0_4)
/-- The two scratch buffers: the running matrix product and the running bias row. -/
abbrev scM0_0 : Memref sig .tc .vmem S768x768 .f32 := Memref.whole cc0_scratch0
abbrev scM0_1 : Memref sig .tc .vmem S1x768 .f32 := Memref.whole cc0_scratch1
/-- The same as views. -/
abbrev VS0_0 : View sig .tc .vmem S768x768 .f32 := scM0_0.view
abbrev VS0_1 : View sig .tc .vmem S1x768 .f32 := scM0_1.view

/-- What the launch hands the region besides the windows: the two scratch buffers, each owned at some
    contents, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Body

end
-- ==== Proof.KBodyRunA.lean ====
import proofs.«123963_g79869211837047_cont_9to1_m_368_32_alg».proof.Proof.KBodyShared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- THE FIRST POINT. Only the first conditional is taken. It stores the first layer's weight
    (high half plus low half) into the matrix scratch and the first bias into the row scratch, then
    folds the second layer in: the matrix scratch is read back, multiplied on the left by the second
    weight and stored again; the row scratch likewise. Whatever the two scratch buffers held before is
    never used (the only loads that precede the first stores are dead), so they are taken at anything.
    The four inputs are handed back as they were, the output buffer — idle here — untouched, and each
    scratch with the list of pieces the stores wrote (found by the run, last store first). -/
noncomputable def kernelRun0_A (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : cond0_0 i) (hc1 : ¬cond0_1 i) (hc2 : ¬cond0_2 i)
    (x0 : Vec F S2x768x768 .bf16) (x1 : Vec F S2x768x768 .bf16) (x2 : Vec F S2x1x768 .f32) (x3 : Vec F S2048x768 .f32) :
    Σ' (L4 : List (View.Piece (Elt F) S2048x768 .f32)) (LS0 : List (View.Piece (Elt F) S768x768 .f32)), { LS1 : List (View.Piece (Elt F) S1x768 .f32) //
      ∀ (xi4 : Vec F S2048x768 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨[], ?_, ?_, fun xi4 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.KernelIdeal.Body

end
-- ==== Proof.KBodyRunB.lean ====
import proofs.«123963_g79869211837047_cont_9to1_m_368_32_alg».proof.Proof.KBodyRunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- POINTS 1 TO 9. Only the second conditional is taken: two more layers are folded into the scratch.
    The matrix scratch is read as the point before left it (`xs0`), multiplied on the left by this
    point's first weight and stored; read back, multiplied by the second weight and stored again. The
    row scratch (`xs1` on entry) goes the same way with the two biases added. Inputs handed back as
    they were, the idle output untouched, each scratch with its list of pieces. -/
noncomputable def kernelRun0_B (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : ¬cond0_0 i) (hc1 : cond0_1 i) (hc2 : ¬cond0_2 i)
    (x0 : Vec F S2x768x768 .bf16) (x1 : Vec F S2x768x768 .bf16) (x2 : Vec F S2x1x768 .f32) (x3 : Vec F S2048x768 .f32) (xs0 : Vec F S768x768 .f32) (xs1 : Vec F S1x768 .f32) :
    Σ' (L4 : List (View.Piece (Elt F) S2048x768 .f32)) (LS0 : List (View.Piece (Elt F) S768x768 .f32)), { LS1 : List (View.Piece (Elt F) S1x768 .f32) //
      ∀ (xi4 : Vec F S2048x768 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨[], ?_, ?_, fun xi4 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg6.eq_unread hfs0; obtain rfl := harg7.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.KernelIdeal.Body

end
-- ==== Proof.KBodyRunC.lean ====
import proofs.«123963_g79869211837047_cont_9to1_m_368_32_alg».proof.Proof.KBodyRunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- POINTS 10 TO 25. Only the third conditional is taken: one block of tokens is multiplied by the
    transpose of the matrix scratch and the row scratch is added to every row; the result is stored
    over the whole output block. Neither scratch is stored into: both are handed back holding exactly
    what they held on entry (`xs0`, `xs1`). The output buffer is taken at anything (its one load is
    dead) and returned with the single piece the store wrote. -/
noncomputable def kernelRun0_C (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : ¬cond0_0 i) (hc1 : ¬cond0_1 i) (hc2 : cond0_2 i)
    (x0 : Vec F S2x768x768 .bf16) (x1 : Vec F S2x768x768 .bf16) (x2 : Vec F S2x1x768 .f32) (x3 : Vec F S2048x768 .f32) (xs0 : Vec F S768x768 .f32) (xs1 : Vec F S1x768 .f32) :
    { L4 : List (View.Piece (Elt F) S2048x768 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs0 ∗ owns (c : Thread nD τ) arg7 fullShare xs1) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hfs0; obtain rfl := harg7.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]
    · iexists _; isplitr; · ipureintro; exact harg6.read_unread _
      iexact HS0
    iexists _; isplitr; · ipureintro; exact harg7.read_unread _
    iexact HS1

end Cert.KernelIdeal.Body

end
-- ==== Proof.KBodyOuts.lean ====
import proofs.«123963_g79869211837047_cont_9to1_m_368_32_alg».proof.Proof.KBodyRunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

theorem caseA0 (t : Fin cfg0.N) (h : t.val = 0) : cond0_0 (grid0.coords t) := (hcond0_0 t).mpr h
theorem caseA1 (t : Fin cfg0.N) (h : t.val = 0) : ¬cond0_1 (grid0.coords t) := fun hc => by have := (hcond0_1 t).mp hc; omega
theorem caseA2 (t : Fin cfg0.N) (h : t.val = 0) : ¬cond0_2 (grid0.coords t) := fun hc => by have := (hcond0_2 t).mp hc; omega
theorem caseB0 (t : Fin cfg0.N) (h1 : 1 ≤ t.val) (h2 : t.val < 10) : ¬cond0_0 (grid0.coords t) := fun hc => by have := (hcond0_0 t).mp hc; omega
theorem caseB1 (t : Fin cfg0.N) (h1 : 1 ≤ t.val) (h2 : t.val < 10) : cond0_1 (grid0.coords t) := (hcond0_1 t).mpr ⟨h1, h2⟩
theorem caseB2 (t : Fin cfg0.N) (h1 : 1 ≤ t.val) (h2 : t.val < 10) : ¬cond0_2 (grid0.coords t) := fun hc => by have := (hcond0_2 t).mp hc; omega
theorem caseC0 (t : Fin cfg0.N) (h : 10 ≤ t.val) : ¬cond0_0 (grid0.coords t) := fun hc => by have := (hcond0_0 t).mp hc; omega
theorem caseC1 (t : Fin cfg0.N) (h : 10 ≤ t.val) : ¬cond0_1 (grid0.coords t) := fun hc => by have := (hcond0_1 t).mp hc; omega
theorem caseC2 (t : Fin cfg0.N) (h : 10 ≤ t.val) : cond0_2 (grid0.coords t) := (hcond0_2 t).mpr h

/-! ## What each case leaves -/

/-- The first point stores nothing into the output block (the window is idle there): a placeholder nothing
    consults. -/
def out0_A_4 (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : cond0_0 i) (hc1 : ¬cond0_1 i) (hc2 : ¬cond0_2 i)
    (x0 : Vec F S2x768x768 .bf16) (x1 : Vec F S2x768x768 .bf16) (x2 : Vec F S2x1x768 .f32) (x3 : Vec F S2048x768 .f32) : Vec F S2048x768 .f32 :=
  VO0_4.read (Elt F) (VO0_4.writes (Elt F) VO0_4.junk (kernelRun0_A c i arg1 harg1 arg2 harg2 arg3 harg3 arg4 harg4 arg5 harg5 arg6 harg6 arg7 harg7 hc0 hc1 hc2 x0 x1 x2 x3).1)

/-- The first point's stores into the matrix scratch are whole-buffer stores, so they cover it. -/
theorem scover0_A_0 (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : cond0_0 i) (hc1 : ¬cond0_1 i) (hc2 : ¬cond0_2 i)
    (x0 : Vec F S2x768x768 .bf16) (x1 : Vec F S2x768x768 .bf16) (x2 : Vec F S2x1x768 .f32) (x3 : Vec F S2048x768 .f32) (y : S768x768.Idx) :
    ∃ pc ∈ (kernelRun0_A c i arg1 harg1 arg2 harg2 arg3 harg3 arg4 harg4 arg5 harg5 arg6 harg6 arg7 harg7 hc0 hc1 hc2 x0 x1 x2 x3).2.1, y ∈ pc.1.set :=
  View.cover_of_tiledL (kernelRun0_A c i arg1 harg1 arg2 harg2 arg3 harg3 arg4 harg4 arg5 harg5 arg6 harg6 arg7 harg7 hc0 hc1 hc2 x0 x1 x2 x3).2.1 S768x768.size (by sl_kernel_rfl) y

/-- The matrix scratch after the first point: the product of the first two layers' weights. -/
def sout0_A_0 (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : cond0_0 i) (hc1 : ¬cond0_1 i) (hc2 : ¬cond0_2 i)
    (x0 : Vec F S2x768x768 .bf16) (x1 : Vec F S2x768x768 .bf16) (x2 : Vec F S2x1x768 .f32) (x3 : Vec F S2048x768 .f32) : Vec F S768x768 .f32 :=
  VS0_0.read (Elt F) (VS0_0.writes (Elt F) VS0_0.junk (kernelRun0_A c i arg1 harg1 arg2 harg2 arg3 harg3 arg4 harg4 arg5 harg5 arg6 harg6 arg7 harg7 hc0 hc1 hc2 x0 x1 x2 x3).2.1)

/-- Likewise the row scratch is covered, -/
theorem scover0_A_1 (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : cond0_0 i) (hc1 : ¬cond0_1 i) (hc2 : ¬cond0_2 i)
    (x0 : Vec F S2x768x768 .bf16) (x1 : Vec F S2x768x768 .bf16) (x2 : Vec F S2x1x768 .f32) (x3 : Vec F S2048x768 .f32) (y : S1x768.Idx) :
    ∃ pc ∈ (kernelRun0_A c i arg1 harg1 arg2 harg2 arg3 harg3 arg4 harg4 arg5 harg5 arg6 harg6 arg7 harg7 hc0 hc1 hc2 x0 x1 x2 x3).2.2.1, y ∈ pc.1.set :=
  View.cover_of_tiledL (kernelRun0_A c i arg1 harg1 arg2 harg2 arg3 harg3 arg4 harg4 arg5 harg5 arg6 harg6 arg7 harg7 hc0 hc1 hc2 x0 x1 x2 x3).2.2.1 S1x768.size (by sl_kernel_rfl) y

/-- and holds the first bias pushed through the second layer, plus the second bias. -/
def sout0_A_1 (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : cond0_0 i) (hc1 : ¬cond0_1 i) (hc2 : ¬cond0_2 i)
    (x0 : Vec F S2x768x768 .bf16) (x1 : Vec F S2x768x768 .bf16) (x2 : Vec F S2x1x768 .f32) (x3 : Vec F S2048x768 .f32) : Vec F S1x768 .f32 :=
  VS0_1.read (Elt F) (VS0_1.writes (Elt F) VS0_1.junk (kernelRun0_A c i arg1 harg1 arg2 harg2 arg3 harg3 arg4 harg4 arg5 harg5 arg6 harg6 arg7 harg7 hc0 hc1 hc2 x0 x1 x2 x3).2.2.1)

/-- Points 1 to 9 store nothing into the output block either. -/
def out0_B_4 (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : ¬cond0_0 i) (hc1 : cond0_1 i) (hc2 : ¬cond0_2 i)
    (x0 : Vec F S2x768x768 .bf16) (x1 : Vec F S2x768x768 .bf16) (x2 : Vec F S2x1x768 .f32) (x3 : Vec F S2048x768 .f32) (xs0 : Vec F S768x768 .f32) (xs1 : Vec F S1x768 .f32) : Vec F S2048x768 .f32 :=
  VO0_4.read (Elt F) (VO0_4.writes (Elt F) VO0_4.junk (kernelRun0_B c i arg1 harg1 arg2 harg2 arg3 harg3 arg4 harg4 arg5 harg5 arg6 harg6 arg7 harg7 hc0 hc1 hc2 x0 x1 x2 x3 xs0 xs1).1)

theorem scover0_B_0 (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : ¬cond0_0 i) (hc1 : cond0_1 i) (hc2 : ¬cond0_2 i)
    (x0 : Vec F S2x768x768 .bf16) (x1 : Vec F S2x768x768 .bf16) (x2 : Vec F S2x1x768 .f32) (x3 : Vec F S2048x768 .f32) (xs0 : Vec F S768x768 .f32) (xs1 : Vec F S1x768 .f32) (y : S768x768.Idx) :
    ∃ pc ∈ (kernelRun0_B c i arg1 harg1 arg2 harg2 arg3 harg3 arg4 harg4 arg5 harg5 arg6 harg6 arg7 harg7 hc0 hc1 hc2 x0 x1 x2 x3 xs0 xs1).2.1, y ∈ pc.1.set :=
  View.cover_of_tiledL (kernelRun0_B c i arg1 harg1 arg2 harg2 arg3 harg3 arg4 harg4 arg5 harg5 arg6 harg6 arg7 harg7 hc0 hc1 hc2 x0 x1 x2 x3 xs0 xs1).2.1 S768x768.size (by sl_kernel_rfl) y

/-- The matrix scratch after one of points 1 to 9: this point's two weights applied on the left of what
    the point before left (`xs0`). -/
def sout0_B_0 (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : ¬cond0_0 i) (hc1 : cond0_1 i) (hc2 : ¬cond0_2 i)
    (x0 : Vec F S2x768x768 .bf16) (x1 : Vec F S2x768x768 .bf16) (x2 : Vec F S2x1x768 .f32) (x3 : Vec F S2048x768 .f32) (xs0 : Vec F S768x768 .f32) (xs1 : Vec F S1x768 .f32) : Vec F S768x768 .f32 :=
  VS0_0.read (Elt F) (VS0_0.writes (Elt F) VS0_0.junk (kernelRun0_B c i arg1 harg1 arg2 harg2 arg3 harg3 arg4 harg4 arg5 harg5 arg6 harg6 arg7 harg7 hc0 hc1 hc2 x0 x1 x2 x3 xs0 xs1).2.1)

theorem scover0_B_1 (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : ¬cond0_0 i) (hc1 : cond0_1 i) (hc2 : ¬cond0_2 i)
    (x0 : Vec F S2x768x768 .bf16) (x1 : Vec F S2x768x768 .bf16) (x2 : Vec F S2x1x768 .f32) (x3 : Vec F S2048x768 .f32) (xs0 : Vec F S768x768 .f32) (xs1 : Vec F S1x768 .f32) (y : S1x768.Idx) :
    ∃ pc ∈ (kernelRun0_B c i arg1 harg1 arg2 harg2 arg3 harg3 arg4 harg4 arg5 harg5 arg6 harg6 arg7 harg7 hc0 hc1 hc2 x0 x1 x2 x3 xs0 xs1).2.2.1, y ∈ pc.1.set :=
  View.cover_of_tiledL (kernelRun0_B c i arg1 harg1 arg2 harg2 arg3 harg3 arg4 harg4 arg5 harg5 arg6 harg6 arg7 harg7 hc0 hc1 hc2 x0 x1 x2 x3 xs0 xs1).2.2.1 S1x768.size (by sl_kernel_rfl) y

/-- The row scratch after one of points 1 to 9: `xs1` pushed through this point's two layers. -/
def sout0_B_1 (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : ¬cond0_0 i) (hc1 : cond0_1 i) (hc2 : ¬cond0_2 i)
    (x0 : Vec F S2x768x768 .bf16) (x1 : Vec F S2x768x768 .bf16) (x2 : Vec F S2x1x768 .f32) (x3 : Vec F S2048x768 .f32) (xs0 : Vec F S768x768 .f32) (xs1 : Vec F S1x768 .f32) : Vec F S1x768 .f32 :=
  VS0_1.read (Elt F) (VS0_1.writes (Elt F) VS0_1.junk (kernelRun0_B c i arg1 harg1 arg2 harg2 arg3 harg3 arg4 harg4 arg5 harg5 arg6 harg6 arg7 harg7 hc0 hc1 hc2 x0 x1 x2 x3 xs0 xs1).2.2.1)

/-- From point 10 on the one store into the output block is of the whole block, so it covers it. -/
theorem cover0_C_4 (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : ¬cond0_0 i) (hc1 : ¬cond0_1 i) (hc2 : cond0_2 i)
    (x0 : Vec F S2x768x768 .bf16) (x1 : Vec F S2x768x768 .bf16) (x2 : Vec F S2x1x768 .f32) (x3 : Vec F S2048x768 .f32) (xs0 : Vec F S768x768 .f32) (xs1 : Vec F S1x768 .f32) (y : S2048x768.Idx) :
    ∃ pc ∈ (kernelRun0_C c i arg1 harg1 arg2 harg2 arg3 harg3 arg4 harg4 arg5 harg5 arg6 harg6 arg7 harg7 hc0 hc1 hc2 x0 x1 x2 x3 xs0 xs1).1, y ∈ pc.1.set :=
  View.cover_of_tiledL (kernelRun0_C c i arg1 harg1 arg2 harg2 arg3 harg3 arg4 harg4 arg5 harg5 arg6 harg6 arg7 harg7 hc0 hc1 hc2 x0 x1 x2 x3 xs0 xs1).1 S2048x768.size (by sl_kernel_rfl) y

/-- The output block at such a point: the token block times the transposed matrix scratch, plus the row
    scratch on every row. -/
def out0_C_4 (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : ¬cond0_0 i) (hc1 : ¬cond0_1 i) (hc2 : cond0_2 i)
    (x0 : Vec F S2x768x768 .bf16) (x1 : Vec F S2x768x768 .bf16) (x2 : Vec F S2x1x768 .f32) (x3 : Vec F S2048x768 .f32) (xs0 : Vec F S768x768 .f32) (xs1 : Vec F S1x768 .f32) : Vec F S2048x768 .f32 :=
  VO0_4.read (Elt F) (VO0_4.writes (Elt F) VO0_4.junk (kernelRun0_C c i arg1 harg1 arg2 harg2 arg3 harg3 arg4 harg4 arg5 harg5 arg6 harg6 arg7 harg7 hc0 hc1 hc2 x0 x1 x2 x3 xs0 xs1).1)

/-! ## What the output block and the two scratch buffers hold after each point -/

/-- After point `n`: (the output window's staging buffer, the matrix scratch, the row scratch).
    Point 0 starts the two scratch buffers; points 1 to 9 update them from what the point before left; from
    point 10 on they are carried over unchanged and the output block is computed from them. -/
def outsAt0 (c : Dev nD) : (n : ℕ) → n < cfg0.N → Vec F S2048x768 .f32 × Vec F S768x768 .f32 × Vec F S1x768 .f32
  | 0, hn =>
    (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) (caseA0 ⟨0, hn⟩ rfl) (caseA1 ⟨0, hn⟩ rfl) (caseA2 ⟨0, hn⟩ rfl) (iblk m c 0 ⟨0, hn⟩) (iblk m c 1 ⟨0, hn⟩) (iblk m c 2 ⟨0, hn⟩) (iblk m c 3 ⟨0, hn⟩),
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) (caseA0 ⟨0, hn⟩ rfl) (caseA1 ⟨0, hn⟩ rfl) (caseA2 ⟨0, hn⟩ rfl) (iblk m c 0 ⟨0, hn⟩) (iblk m c 1 ⟨0, hn⟩) (iblk m c 2 ⟨0, hn⟩) (iblk m c 3 ⟨0, hn⟩),
     sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) (caseA0 ⟨0, hn⟩ rfl) (caseA1 ⟨0, hn⟩ rfl) (caseA2 ⟨0, hn⟩ rfl) (iblk m c 0 ⟨0, hn⟩) (iblk m c 1 ⟨0, hn⟩) (iblk m c 2 ⟨0, hn⟩) (iblk m c 3 ⟨0, hn⟩))
  | n + 1, hn =>
    if hb : n + 1 < 10 then
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (caseB0 ⟨n + 1, hn⟩ (Nat.succ_pos n) hb) (caseB1 ⟨n + 1, hn⟩ (Nat.succ_pos n) hb) (caseB2 ⟨n + 1, hn⟩ (Nat.succ_pos n) hb) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (caseB0 ⟨n + 1, hn⟩ (Nat.succ_pos n) hb) (caseB1 ⟨n + 1, hn⟩ (Nat.succ_pos n) hb) (caseB2 ⟨n + 1, hn⟩ (Nat.succ_pos n) hb) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (caseB0 ⟨n + 1, hn⟩ (Nat.succ_pos n) hb) (caseB1 ⟨n + 1, hn⟩ (Nat.succ_pos n) hb) (caseB2 ⟨n + 1, hn⟩ (Nat.succ_pos n) hb) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)
    else
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (caseC0 ⟨n + 1, hn⟩ (Nat.le_of_not_lt hb)) (caseC1 ⟨n + 1, hn⟩ (Nat.le_of_not_lt hb)) (caseC2 ⟨n + 1, hn⟩ (Nat.le_of_not_lt hb)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2,
       (outsAt0 c n (Nat.lt_of_succ_lt hn)).2.1,
       (outsAt0 c n (Nat.lt_of_succ_lt hn)).2.2)

/-- The point before `t` (point 0 for `t = 0`, where it is not consulted). -/
abbrev prev0 (c : Dev nD) (t : Fin cfg0.N) : Vec F S2048x768 .f32 × Vec F S768x768 .f32 × Vec F S1x768 .f32 :=
  outsAt0 m c (t.val - 1) (Nat.lt_of_le_of_lt (Nat.sub_le _ _) t.isLt)

/-- `outsAt0` at the first point. -/
theorem outsAt0_A (c : Dev nD) (t : Fin cfg0.N) (hz : t.val = 0) :
    outsAt0 m c t.val t.isLt =
      (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseA0 t hz) (caseA1 t hz) (caseA2 t hz) (iblk m c 0 t) (iblk m c 1 t) (iblk m c 2 t) (iblk m c 3 t),
       sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseA0 t hz) (caseA1 t hz) (caseA2 t hz) (iblk m c 0 t) (iblk m c 1 t) (iblk m c 2 t) (iblk m c 3 t),
       sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseA0 t hz) (caseA1 t hz) (caseA2 t hz) (iblk m c 0 t) (iblk m c 1 t) (iblk m c 2 t) (iblk m c 3 t)) := by
  obtain ⟨n, hn⟩ := t
  cases n with
  | zero => exact rfl
  | succ n => exact absurd hz (Nat.succ_ne_zero n)

/-- `outsAt0` at points 1 to 9: the scratch updated from what the point before left. -/
theorem outsAt0_B (c : Dev nD) (t : Fin cfg0.N) (h1 : 1 ≤ t.val) (h2 : t.val < 10) :
    outsAt0 m c t.val t.isLt =
      (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseB0 t h1 h2) (caseB1 t h1 h2) (caseB2 t h1 h2) (iblk m c 0 t) (iblk m c 1 t) (iblk m c 2 t) (iblk m c 3 t) (prev0 m c t).2.1 (prev0 m c t).2.2,
       sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseB0 t h1 h2) (caseB1 t h1 h2) (caseB2 t h1 h2) (iblk m c 0 t) (iblk m c 1 t) (iblk m c 2 t) (iblk m c 3 t) (prev0 m c t).2.1 (prev0 m c t).2.2,
       sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseB0 t h1 h2) (caseB1 t h1 h2) (caseB2 t h1 h2) (iblk m c 0 t) (iblk m c 1 t) (iblk m c 2 t) (iblk m c 3 t) (prev0 m c t).2.1 (prev0 m c t).2.2) := by
  obtain ⟨n, hn⟩ := t
  cases n with
  | zero => exact (Nat.not_succ_le_zero 0 h1).elim
  | succ n => exact (dif_pos h2).trans rfl

/-- `outsAt0` from point 10 on: the output block from the scratch the point before left, the scratch carried over. -/
theorem outsAt0_C (c : Dev nD) (t : Fin cfg0.N) (h : 10 ≤ t.val) :
    outsAt0 m c t.val t.isLt =
      (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseC0 t h) (caseC1 t h) (caseC2 t h) (iblk m c 0 t) (iblk m c 1 t) (iblk m c 2 t) (iblk m c 3 t) (prev0 m c t).2.1 (prev0 m c t).2.2,
       (prev0 m c t).2.1,
       (prev0 m c t).2.2) := by
  obtain ⟨n, hn⟩ := t
  cases n with
  | zero => exact (Nat.not_succ_le_zero 9 h).elim
  | succ n => exact (dif_neg (Nat.not_lt.mpr h)).trans rfl

end Cert.KernelIdeal.Body

end
-- ==== Proof.KBodyFrame.lean ====
import proofs.«123963_g79869211837047_cont_9to1_m_368_32_alg».proof.Proof.KBodyOuts

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between points -/

/-- Before point `n`: at the start the two scratch buffers hold anything; afterwards each holds what the
    point before left in it. The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The arrays as the region finds them; after the body at point `t` each input's buffer at its block and
    the output's at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`: the invariant, the (empty) debt, each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' buffers hold their blocks; the point's position says which of the
    three conditionals is taken, and that case's run applies. At the first point the invariant hands over the
    scratch buffers at anything; later it hands them over at what the point before left, and takes them back
    at this point's contents — rebuilt from the stored pieces where the case stores, unchanged where it does
    not. The output buffer is handed back untouched while the window is idle and at the stored block after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  by_cases hz : t.val = 0
  · -- the first point
    rw [Dat.leavesExact_idle (dats m 0 c) 4 t (idleAt0_4_A t (caseA0 t hz) (caseA1 t hz) (caseA2 t hz)) (noFlush0_4_A t (caseA0 t hz) (caseA1 t hz) (caseA2 t hz))]
    rw [outsAt0_A m c t hz]
    unfold sout0_A_0 sout0_A_1; (try dsimp only)
    rw [PhiS_castSucc m c t, PhiS_zero m c _ _ hz, PhiA0_eq]
    iintro ⟨⟨⟨HS0, HS1⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ _ _ (caseA0 t hz) (caseA1 t hz) (caseA2 t hz) (iblk m c 0 t) (iblk m c 1 t) (iblk m c 2 t) (iblk m c 3 t)).2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _)
        · unfold owns; iexists _; isplitr
          swap; · iexact HS1
          ipureintro; exact View.read_writes_of_cover _ _ _ _ _ (scover0_A_1 c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · have h1 : 1 ≤ t.val := Nat.one_le_iff_ne_zero.mpr hz
    by_cases h2 : t.val < 10
    · -- points 1 to 9
      rw [Dat.leavesExact_idle (dats m 0 c) 4 t (idleAt0_4_B t (caseB0 t h1 h2) (caseB1 t h1 h2) (caseB2 t h1 h2)) (noFlush0_4_B t (caseB0 t h1 h2) (caseB1 t h1 h2) (caseB2 t h1 h2))]
      rw [outsAt0_B m c t h1 h2]
      unfold sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ (caseB0 t h1 h2) (caseB1 t h1 h2) (caseB2 t h1 h2) (iblk m c 0 t) (iblk m c 1 t) (iblk m c 2 t) (iblk m c 3 t) _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · -- points 10 to 25
      have h3 : 10 ≤ t.val := Nat.le_of_not_lt h2
      rw [show (dats m 0 c).leavesExact 4 t = owns (c : Thread nD τ) (ms0_4 t) fullShare ((dats m 0 c).after 4 t) from by
        unfold Dat.leavesExact; rw [liveAt0_4_C t (caseC0 t h3) (caseC1 t h3) (caseC2 t h3)], after0_4]
      rw [outsAt0_C m c t h3]
      unfold out0_C_4; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ (caseC0 t h3) (caseC1 t h3) (caseC2 t h3) (iblk m c 0 t) (iblk m c 1 t) (iblk m c 2 t) (iblk m c 3 t) _ _).2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's form back: what the scratch buffers hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- In particular after the last point. -/
theorem hout (c : Dev nD) : (dats m 0 c).Φ (Fin.last cfg0.N) ⊢ Pipeline.ΦA spec0 c :=
  Phi_out m c _ (by rw [Fin.val_last]; have : cfg0.N = 26 := N_0; omega)

/-! ## The run and the frame -/

set_option backward.isDefEq.respectTransparency.types false in
/-- From any memory with zero counters every weakly fair execution of the program terminates, and in every
    final state each array of the pipeline holds what the proof data computes and every other unscoped buffer
    is as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The three argument arrays are unchanged by the program. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.KernelPieces.lean ====
/-
  What each kind of grid point leaves in the two carried buffers and in the output block, as the body's arithmetic of
  the point's operand blocks and of what the point before left.

  The first point stores the sum of the two halves of the first matrix, reads it back, multiplies it on the left by the
  second matrix and stores the product; likewise the bias row.  A point of the middle stretch does two such
  multiplications, starting from what it finds.  A point of the last stretch stores into the output block the block of
  input rows against the rows of the matrix it finds, plus the row it finds.  In every case the last store of a buffer is
  a store of the whole buffer, so the buffer ends at that store's payload, and a whole read after a whole store reads the
  stored payload.
-/
import proofs.«123963_g79869211837047_cont_9to1_m_368_32_alg».proof.Proof.KBodyOuts
import Idealize.ShloMosaic.Lib.Pipeline.Value
import Idealize.ShloMosaic.Lib.Tactic
import Idealize.ShloMosaic.Lib.ValueIdx

set_option maxRecDepth 16384

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen Cert.KernelIdeal.Body

variable {F : FTy → Type} [FloatOps F]

theorem hz2 : (![0, 0] : Fin 2 → Nat) = fun _ => 0 := funext fun a => by fin_cases a <;> rfl

/-- The matrix buffer after the first point. -/
theorem soutA0_eq (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : cond0_0 i) (hc1 : ¬cond0_1 i) (hc2 : ¬cond0_2 i) (x0 : Vec F S2x768x768 .bf16) (x1 : Vec F S2x768x768 .bf16) (x2 : Vec F S2x1x768 .f32) (x3 : Vec F S2048x768 .f32) (hw0 : ∀ a, (![0, 0, 0] : Fin 3 → ℕ) a + S1x768x768.size a ≤ S2x768x768.size a) (hw1 : ∀ a, (![1, 0, 0] : Fin 3 → ℕ) a + S1x768x768.size a ≤ S2x768x768.size a) (hb0 : ∀ a, (![0, 0, 0] : Fin 3 → ℕ) a + S1x1x768.size a ≤ S2x1x768.size a) (hb1 : ∀ a, (![1, 0, 0] : Fin 3 → ℕ) a + S1x1x768.size a ≤ S2x1x768.size a) :
    sout0_A_0 c i arg1 harg1 arg2 harg2 arg3 harg3 arg4 harg4 arg5 harg5 arg6 harg6 arg7 harg7 hc0 hc1 hc2 x0 x1 x2 x3
      = k0_pay1 (k0_pay10 (View.ld x0 (Rect.unit (s := S2x768x768) ![1, 0, 0] S1x768x768.size hw1)) (View.ld x1 (Rect.unit (s := S2x768x768) ![1, 0, 0] S1x768x768.size hw1)) (k0_pay6 (View.ld x0 (Rect.unit (s := S2x768x768) ![0, 0, 0] S1x768x768.size hw0)) (View.ld x1 (Rect.unit (s := S2x768x768) ![0, 0, 0] S1x768x768.size hw0)))) := by
  unfold sout0_A_0
  rw [View.read_writes_eq_canon _ _ _ (scover0_A_0 c i arg1 harg1 arg2 harg2 arg3 harg3 arg4 harg4 arg5 harg5 arg6 harg6 arg7 harg7 hc0 hc1 hc2 x0 x1 x2 x3)]
  unfold kernelRun0_A
  dsimp only
  try sl_unfold_words
  rw [View.canon_cons_unit_zero hz2]
  simp only [View.readCov_unit_zero (S := S768x768) _ hz2, View.readAt_eq_ld, harg1.read_unread, harg2.read_unread]

/-- The row buffer after the first point. -/
theorem soutA1_eq (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : cond0_0 i) (hc1 : ¬cond0_1 i) (hc2 : ¬cond0_2 i) (x0 : Vec F S2x768x768 .bf16) (x1 : Vec F S2x768x768 .bf16) (x2 : Vec F S2x1x768 .f32) (x3 : Vec F S2048x768 .f32) (hw0 : ∀ a, (![0, 0, 0] : Fin 3 → ℕ) a + S1x768x768.size a ≤ S2x768x768.size a) (hw1 : ∀ a, (![1, 0, 0] : Fin 3 → ℕ) a + S1x768x768.size a ≤ S2x768x768.size a) (hb0 : ∀ a, (![0, 0, 0] : Fin 3 → ℕ) a + S1x1x768.size a ≤ S2x1x768.size a) (hb1 : ∀ a, (![1, 0, 0] : Fin 3 → ℕ) a + S1x1x768.size a ≤ S2x1x768.size a) :
    sout0_A_1 c i arg1 harg1 arg2 harg2 arg3 harg3 arg4 harg4 arg5 harg5 arg6 harg6 arg7 harg7 hc0 hc1 hc2 x0 x1 x2 x3
      = k0_pay2 (k0_pay8 (View.ld x0 (Rect.unit (s := S2x768x768) ![1, 0, 0] S1x768x768.size hw1))) (k0_pay9 (View.ld x2 (Rect.unit (s := S2x1x768) ![1, 0, 0] S1x1x768.size hb1))) (k0_pay7 (View.ld x2 (Rect.unit (s := S2x1x768) ![0, 0, 0] S1x1x768.size hb0))) := by
  unfold sout0_A_1
  rw [View.read_writes_eq_canon _ _ _ (scover0_A_1 c i arg1 harg1 arg2 harg2 arg3 harg3 arg4 harg4 arg5 harg5 arg6 harg6 arg7 harg7 hc0 hc1 hc2 x0 x1 x2 x3)]
  unfold kernelRun0_A
  dsimp only
  try sl_unfold_words
  rw [View.canon_cons_unit_zero hz2]
  simp only [View.readCov_unit_zero (S := S1x768) _ hz2, View.readAt_eq_ld, harg1.read_unread, harg2.read_unread, harg3.read_unread]

/-- The matrix buffer after a point of the middle stretch, from what the point before left (`xs0`). -/
theorem soutB0_eq (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : ¬cond0_0 i) (hc1 : cond0_1 i) (hc2 : ¬cond0_2 i) (x0 : Vec F S2x768x768 .bf16) (x1 : Vec F S2x768x768 .bf16) (x2 : Vec F S2x1x768 .f32) (x3 : Vec F S2048x768 .f32) (xs0 : Vec F S768x768 .f32) (xs1 : Vec F S1x768 .f32) (hw0 : ∀ a, (![0, 0, 0] : Fin 3 → ℕ) a + S1x768x768.size a ≤ S2x768x768.size a) (hw1 : ∀ a, (![1, 0, 0] : Fin 3 → ℕ) a + S1x768x768.size a ≤ S2x768x768.size a) (hb0 : ∀ a, (![0, 0, 0] : Fin 3 → ℕ) a + S1x1x768.size a ≤ S2x1x768.size a) (hb1 : ∀ a, (![1, 0, 0] : Fin 3 → ℕ) a + S1x1x768.size a ≤ S2x1x768.size a) :
    sout0_B_0 c i arg1 harg1 arg2 harg2 arg3 harg3 arg4 harg4 arg5 harg5 arg6 harg6 arg7 harg7 hc0 hc1 hc2 x0 x1 x2 x3 xs0 xs1
      = k0_pay3 (k0_pay14 (View.ld x0 (Rect.unit (s := S2x768x768) ![1, 0, 0] S1x768x768.size hw1))) (k0_pay15 (View.ld x1 (Rect.unit (s := S2x768x768) ![1, 0, 0] S1x768x768.size hw1))) (k0_pay12 (View.ld x0 (Rect.unit (s := S2x768x768) ![0, 0, 0] S1x768x768.size hw0)) (View.ld x1 (Rect.unit (s := S2x768x768) ![0, 0, 0] S1x768x768.size hw0)) xs0) := by
  unfold sout0_B_0
  rw [View.read_writes_eq_canon _ _ _ (scover0_B_0 c i arg1 harg1 arg2 harg2 arg3 harg3 arg4 harg4 arg5 harg5 arg6 harg6 arg7 harg7 hc0 hc1 hc2 x0 x1 x2 x3 xs0 xs1)]
  unfold kernelRun0_B
  dsimp only
  try sl_unfold_words
  rw [View.canon_cons_unit_zero hz2]
  simp only [View.readCov_unit_zero (S := S768x768) _ hz2, View.readAt_eq_ld, harg1.read_unread, harg2.read_unread, harg3.read_unread, harg6.read_unread, harg7.read_unread, View.ld_unit_zero (S := S768x768) hz2]

/-- The row buffer after a point of the middle stretch, from what the point before left (`xs1`). -/
theorem soutB1_eq (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : ¬cond0_0 i) (hc1 : cond0_1 i) (hc2 : ¬cond0_2 i) (x0 : Vec F S2x768x768 .bf16) (x1 : Vec F S2x768x768 .bf16) (x2 : Vec F S2x1x768 .f32) (x3 : Vec F S2048x768 .f32) (xs0 : Vec F S768x768 .f32) (xs1 : Vec F S1x768 .f32) (hw0 : ∀ a, (![0, 0, 0] : Fin 3 → ℕ) a + S1x768x768.size a ≤ S2x768x768.size a) (hw1 : ∀ a, (![1, 0, 0] : Fin 3 → ℕ) a + S1x768x768.size a ≤ S2x768x768.size a) (hb0 : ∀ a, (![0, 0, 0] : Fin 3 → ℕ) a + S1x1x768.size a ≤ S2x1x768.size a) (hb1 : ∀ a, (![1, 0, 0] : Fin 3 → ℕ) a + S1x1x768.size a ≤ S2x1x768.size a) :
    sout0_B_1 c i arg1 harg1 arg2 harg2 arg3 harg3 arg4 harg4 arg5 harg5 arg6 harg6 arg7 harg7 hc0 hc1 hc2 x0 x1 x2 x3 xs0 xs1
      = k0_pay4 (k0_pay14 (View.ld x0 (Rect.unit (s := S2x768x768) ![1, 0, 0] S1x768x768.size hw1))) (View.ld x2 (Rect.unit (s := S2x1x768) ![1, 0, 0] S1x1x768.size hb1)) (k0_pay13 (View.ld x0 (Rect.unit (s := S2x768x768) ![0, 0, 0] S1x768x768.size hw0)) (View.ld x2 (Rect.unit (s := S2x1x768) ![0, 0, 0] S1x1x768.size hb0)) xs1) := by
  unfold sout0_B_1
  rw [View.read_writes_eq_canon _ _ _ (scover0_B_1 c i arg1 harg1 arg2 harg2 arg3 harg3 arg4 harg4 arg5 harg5 arg6 harg6 arg7 harg7 hc0 hc1 hc2 x0 x1 x2 x3 xs0 xs1)]
  unfold kernelRun0_B
  dsimp only
  try sl_unfold_words
  rw [View.canon_cons_unit_zero hz2]
  simp only [View.readCov_unit_zero (S := S1x768) _ hz2, View.readAt_eq_ld, harg1.read_unread, harg2.read_unread, harg3.read_unread, harg6.read_unread, harg7.read_unread, View.ld_unit_zero (S := S1x768) hz2]

/-- The output block after a point of the last stretch, from the two buffers as the point before left them. -/
theorem outC4_eq (c : Dev nD) (i : grid0.Coords) (arg1 : Memref sig .tc .vmem S2x768x768 .bf16) (harg1 : arg1.IsWhole) (arg2 : Memref sig .tc .vmem S2x768x768 .bf16) (harg2 : arg2.IsWhole) (arg3 : Memref sig .tc .vmem S2x1x768 .f32) (harg3 : arg3.IsWhole) (arg4 : Memref sig .tc .vmem S2048x768 .f32) (harg4 : arg4.IsWhole) (arg5 : Memref sig .tc .vmem S2048x768 .f32) (harg5 : arg5.IsWhole) (arg6 : Memref sig .tc .vmem S768x768 .f32) (harg6 : arg6.IsWhole) (arg7 : Memref sig .tc .vmem S1x768 .f32) (harg7 : arg7.IsWhole) (hc0 : ¬cond0_0 i) (hc1 : ¬cond0_1 i) (hc2 : cond0_2 i) (x0 : Vec F S2x768x768 .bf16) (x1 : Vec F S2x768x768 .bf16) (x2 : Vec F S2x1x768 .f32) (x3 : Vec F S2048x768 .f32) (xs0 : Vec F S768x768 .f32) (xs1 : Vec F S1x768 .f32) :
    out0_C_4 c i arg1 harg1 arg2 harg2 arg3 harg3 arg4 harg4 arg5 harg5 arg6 harg6 arg7 harg7 hc0 hc1 hc2 x0 x1 x2 x3 xs0 xs1 = k0_pay5 x3 xs0 xs1 := by
  unfold out0_C_4
  rw [View.read_writes_eq_canon _ _ _ (cover0_C_4 c i arg1 harg1 arg2 harg2 arg3 harg3 arg4 harg4 arg5 harg5 arg6 harg6 arg7 harg7 hc0 hc1 hc2 x0 x1 x2 x3 xs0 xs1)]
  unfold kernelRun0_C
  dsimp only
  try sl_unfold_words
  rw [View.canon_unit_zero hz2]
  simp only [View.readAt_eq_ld, harg4.read_unread, harg6.read_unread, harg7.read_unread, View.ld_unit_zero (S := S2048x768) hz2, View.ld_unit_zero (S := S768x768) hz2, View.ld_unit_zero (S := S1x768) hz2]

/-! ## A slot of a two-slot block -/

/-- Slot `s` of a block of two matrices, read at (0, q, j), is the block at (s, q, j). -/
theorem ld_wslot_apply {Val : EltTy → Type} {e : EltTy} (x : S2x768x768.Idx → Val e) (s : Fin 2)
    (h : ∀ a, (![s.val, 0, 0] : Fin 3 → ℕ) a + S1x768x768.size a ≤ S2x768x768.size a) (u : Fin 1) (q j : Fin 768) :
    View.ld x (Rect.unit (s := S2x768x768) ![s.val, 0, 0] S1x768x768.size h) (Idealize.ShloMosaic.ValueIdx.ix3 u q j) = x (Idealize.ShloMosaic.ValueIdx.ix3 s q j) := by
  show x _ = x _
  congr 1
  funext a
  apply Fin.ext
  have hu : u.val = 0 := by omega
  match a with
  | ⟨0, _⟩ => show s.val + 1 * u.val = s.val; omega
  | ⟨1, _⟩ => show 0 + 1 * q.val = q.val; omega
  | ⟨2, _⟩ => show 0 + 1 * j.val = j.val; omega

/-- Slot `s` of a block of two rows, read at (0, 0, q), is the block at (s, 0, q). -/
theorem ld_bslot_apply {Val : EltTy → Type} {e : EltTy} (x : S2x1x768.Idx → Val e) (s : Fin 2)
    (h : ∀ a, (![s.val, 0, 0] : Fin 3 → ℕ) a + S1x1x768.size a ≤ S2x1x768.size a) (u v : Fin 1) (q : Fin 768) :
    View.ld x (Rect.unit (s := S2x1x768) ![s.val, 0, 0] S1x1x768.size h) (Idealize.ShloMosaic.ValueIdx.ix3 u v q) = x (Idealize.ShloMosaic.ValueIdx.ix3 s v q) := by
  show x _ = x _
  congr 1
  funext a
  apply Fin.ext
  have hu : u.val = 0 := by omega
  match a with
  | ⟨0, _⟩ => show s.val + 1 * u.val = s.val; omega
  | ⟨1, _⟩ => show 0 + 1 * v.val = v.val; omega
  | ⟨2, _⟩ => show 0 + 1 * q.val = q.val; omega

end Cert.KernelIdeal.Pieces

end
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.LibRowsDot.lean ====
/-
  Two matrices contracted along their rows' common axis, read at an index, at the ideal instance.

  For a rank-2 contraction [a, K] · [b, K] → [a, b] (the left operand's axis 1 against the right operand's axis 1, no
  batch axis: the product of the left matrix with the transpose of the right), the accumulate-into-zero matrix product
  and the host's dot_general are both, at the result index (p, q), the sum over k < K of lhs (p, k) · rhs (q, k): the
  contracted shape has one axis of extent K, so the sum over its indices is a sum over Fin K, and the operand indices
  the contraction names at (p, q) and k are (p, k) and (q, k). The operands may be of any float formats (on extended
  reals a change of format is the identity). The four coordinate facts about a given dimension record (hl0, hl1, hr0,
  hr1) are taken as hypotheses: for a literal record each is a computation.
-/
import Idealize.ShloMosaic.PureOps.Ideal.Laws
import Idealize.ShloMosaic.Lib.ValueIdx

noncomputable section

namespace Cert.Lib.RowsDot

open Idealize.ShloMosaic Idealize.ShloMosaic.ValueIdx

variable {a K b : Nat} (D : DotDims (⟨2, ![a, K]⟩ : Shape) (⟨2, ![b, K]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (i 1).val)
  (hr1 : ∀ (i : (⟨2, ![a, b]⟩ : Shape).Idx) (q : D.contr.Idx), (D.rhsIdx i q 1).val = (q ⟨0, by omega⟩).val)

include hr hs hl0 hl1 hr0 hr1

/-- The sum over the contracted shape's indices of the products of the operands at the contraction's indices is the
    sum over k < K of lhs (p, k) · rhs (q, k). -/
theorem sum_contr (lhs : (⟨2, ![a, K]⟩ : Shape).Idx → EReal) (rhs : (⟨2, ![b, K]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 q k) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 q k := funext fun ax => Fin.ext (by
    match ax with
    | ⟨0, _⟩ => exact hr0 _ _
    | ⟨1, _⟩ => exact (hr1 _ _).trans hk)
  rw [el, er]

/-- The matrix product accumulated into the zero splat, at (p, q), for operands of any float formats. -/
theorem matmul_zero_apply {φ₁ φ₂ : FTy} (prec : Option ContractPrecision) (lhs : FVec Ideal (⟨2, ![a, K]⟩ : Shape) φ₁)
    (rhs : FVec Ideal (⟨2, ![b, K]⟩ : Shape) φ₂) (p : Fin a) (q : Fin b) :
    matmul D prec lhs rhs (constant (⟨2, ![a, b]⟩ : Shape) .f32 0x00000000#32) (ix2 p q) = ∑ k : Fin K, lhs (ix2 p k) * rhs (ix2 q k) :=
  (Ideal.matmul_constant_zero_apply D prec lhs rhs (ix2 p q)).trans
    (sum_contr D hr hs hl0 hl1 hr0 hr1 (fun i => lhs i) (fun i => rhs i) p q)

/-- The host's dot_general, at (p, q), for operands of any float formats. -/
theorem dotGeneral_apply {φ₁ φ₂ : FTy} (prec : Option ContractPrecision) (lhs : FVec Ideal (⟨2, ![a, K]⟩ : Shape) φ₁)
    (rhs : FVec Ideal (⟨2, ![b, K]⟩ : Shape) φ₂) (p : Fin a) (q : Fin b) :
    Host.dotGeneral D prec lhs rhs (ix2 p q) = ∑ k : Fin K, lhs (ix2 p k) * rhs (ix2 q k) :=
  (Ideal.dotGeneral_apply D prec .single lhs rhs (ix2 p q)).trans
    (sum_contr D hr hs hl0 hl1 hr0 hr1 (fun i => lhs i) (fun i => rhs i) p q)

end Cert.Lib.RowsDot

end
-- ==== Proof.LibERealSums.lean ====
/-
  Finite sums over the extended reals: real-valued terms, and sums read block by block.

  Four general facts, none about a particular program.

  1. The inclusion of the reals in the extended reals commutes with finite sums.
  2. "Is a real number" (the value is the image of some real) is closed under +, *, finite sums, the logistic
     function, the cosine and the quotient by a nonzero real. These closure facts are what lets a law of the real field
     (distributivity) be used on extended reals, where it fails at the infinities.
  3. A sum over N = m * n consecutive indices is the sum over m blocks of the sums over the n indices of each block;
     this holds in every additive commutative monoid, the extended reals included, with no finiteness assumption.
  4. Moving a scalar out of a product with a matrix column: for reals s, v d, W d, b,
       sum_d (s + v d) * W d + b = sum_d v d * W d + (b + s * sum_d W d),
     stated on the images in the extended reals.
-/
import Idealize.ShloMosaic.PureOps.Ideal
import Mathlib.Data.EReal.Inv
import Mathlib.Logic.Equiv.Fin.Basic
import Mathlib.Algebra.BigOperators.Fin

noncomputable section

namespace Cert.Lib.ERealSums

open Idealize.ShloMosaic

/-! ## The coercion of a finite sum -/

/-- The image in the extended reals of a finite sum of reals is the sum of the images. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_sum {ι : Type*} [Fintype ι] (f : ι → ℝ) : ((∑ i, f i : ℝ) : EReal) = ∑ i, (f i : EReal) :=
  coe_finset_sum Finset.univ f

/-! ## Real-valued extended reals -/

/-- An extended real that is (the image of) a real number. -/
def IsReal (x : EReal) : Prop := ∃ y : ℝ, x = (y : EReal)

theorem isReal_coe (y : ℝ) : IsReal (y : EReal) := ⟨y, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

/-- A finite sum of real-valued terms is real-valued. -/
theorem isReal_finset_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The same over a whole finite type. -/
theorem isReal_sum {ι : Type*} [Fintype ι] (f : ι → EReal) (h : ∀ i, IsReal (f i)) : IsReal (∑ i, f i) :=
  isReal_finset_sum Finset.univ f fun i _ => h i

/-- The logistic function of a real is a real. -/
theorem IsReal.logistic {x : EReal} (hx : IsReal x) : IsReal (Ideal.logistic x) := by
  obtain ⟨a, rfl⟩ := hx
  exact ⟨_, Ideal.logistic_coe a⟩

/-- The cosine of a real is a real. -/
theorem IsReal.cos {x : EReal} (hx : IsReal x) : IsReal (Ideal.cos x) := by
  obtain ⟨a, rfl⟩ := hx
  exact ⟨_, Ideal.cos_coe a⟩

/-- The quotient of a real by a nonzero real is a real. -/
theorem IsReal.div_coe {x : EReal} (hx : IsReal x) {y : ℝ} (hy : y ≠ 0) : IsReal (Ideal.div x (y : EReal)) := by
  rw [Ideal.div_coe hy]
  exact hx.mul (isReal_coe _)

/-! ## A sum read block by block -/

/-- A sum over `N = m * n` indices is the sum over `m` blocks of the sum over the `n` indices of a block, when
    `g t p` is index `t * n + p`. Holds in any additive commutative monoid. -/
theorem sum_blocks {M : Type*} [AddCommMonoid M] {N : ℕ} (m n : ℕ) (h : m * n = N) (f : Fin N → M)
    (g : Fin m → Fin n → Fin N) (hg : ∀ t p, (g t p).val = t.val * n + p.val) :
    ∑ e : Fin N, f e = ∑ t : Fin m, ∑ p : Fin n, f (g t p) := by
  subst h
  rw [← Equiv.sum_comp finProdFinEquiv f, Fintype.sum_prod_type]
  refine Finset.sum_congr rfl fun t _ => Finset.sum_congr rfl fun p _ => congrArg f (Fin.ext ?_)
  rw [hg t p]
  show p.val + n * t.val = t.val * n + p.val
  rw [Nat.mul_comm, Nat.add_comm]

/-- The blocked sum with the two inner sums exchanged: a family `f e d` summed over all `e` and a lane `d` is the
    sum over blocks and lanes of the per-block partial sums. -/
theorem sum_blocks_comm {M : Type*} [AddCommMonoid M] {N L : ℕ} (m n : ℕ) (h : m * n = N) (f : Fin N → Fin L → M)
    (g : Fin m → Fin n → Fin N) (hg : ∀ t p, (g t p).val = t.val * n + p.val) :
    ∑ t : Fin m, ∑ d : Fin L, ∑ p : Fin n, f (g t p) d = ∑ e : Fin N, ∑ d : Fin L, f e d := by
  rw [sum_blocks m n h (fun e => ∑ d : Fin L, f e d) g hg]
  exact Finset.sum_congr rfl fun t _ => Finset.sum_comm

/-! ## A scalar moved from the row into the bias -/

/-- For reals: adding `s` to every entry of a row before the product with a matrix column is adding `s` times
    the column's sum to the bias. False at the infinities of the extended reals, hence stated for images of reals. -/
theorem sum_add_mul_coe {ι : Type*} [Fintype ι] (s : ℝ) (v W : ι → ℝ) (b : ℝ) :
    (∑ d, ((s : EReal) + (v d : EReal)) * (W d : EReal)) + (b : EReal)
      = (∑ d, (v d : EReal) * (W d : EReal)) + ((b : EReal) + (s : EReal) * ∑ d, (W d : EReal)) := by
  have hL : (∑ d, ((s : EReal) + (v d : EReal)) * (W d : EReal)) = ((∑ d, (s + v d) * W d : ℝ) : EReal) := by
    rw [coe_sum]
    exact Finset.sum_congr rfl fun d _ => by rw [EReal.coe_mul, EReal.coe_add]
  have hR : (∑ d, (v d : EReal) * (W d : EReal)) = ((∑ d, v d * W d : ℝ) : EReal) := by
    rw [coe_sum]
    exact Finset.sum_congr rfl fun d _ => by rw [EReal.coe_mul]
  rw [hL, hR, ← coe_sum, ← EReal.coe_mul, ← EReal.coe_add, ← EReal.coe_add, ← EReal.coe_add]
  congr 1
  simp only [add_mul, Finset.sum_add_distrib, ← Finset.mul_sum]
  ring

end Cert.Lib.ERealSums

end
-- ==== Proof.KernelPayloads.lean ====
/-
  The body's arithmetic, read at an index over the extended reals.

  On extended reals a change of float format is the identity, a matrix product accumulated into zero is a plain sum of
  products, and a cast that adds or drops a unit axis only renames the index.  The body's "three-pass" product
      a · m  +  ( a · (m - m)  +  c · m )
  is a · m when every entry of m is a real number (then m - m = 0) and the second matrix c is zero: the two
  correction terms are sums of zeros.
-/
import proofs.«123963_g79869211837047_cont_9to1_m_368_32_alg».proof.Proof.Gen.KernelIdeal.Skeleton
import proofs.«123963_g79869211837047_cont_9to1_m_368_32_alg».proof.Proof.LibPlainDot
import proofs.«123963_g79869211837047_cont_9to1_m_368_32_alg».proof.Proof.LibRowsDot
import proofs.«123963_g79869211837047_cont_9to1_m_368_32_alg».proof.Proof.LibERealSums
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen Cert.Lib.ERealSums

/-! ## The three matrix products -/

/-- The square product into zero, at (q, j): Σ_l a(q, l) · m(l, j). -/
theorem matNN_apply {φ₁ φ₂ : FTy} (a : FVec Ideal S768x768 φ₁) (m : FVec Ideal S768x768 φ₂) (q j : Fin 768) :
    matmul dot_S768x768_S768x768_S768x768_1_0_0_1_n_n none a m (constant S768x768 .f32 0x00000000#32) (ix2 q j)
      = ∑ l : Fin 768, a (ix2 q l) * m (ix2 l j) :=
  (Ideal.matmul_constant_zero_apply _ none a m (ix2 q j)).trans
    (Cert.Lib.PlainDot.sum_contr dot_S768x768_S768x768_S768x768_1_0_0_1_n_n rfl rfl (fun _ _ => rfl) (fun _ _ => rfl)
      (fun _ _ => rfl) (fun _ _ => rfl) (fun i => a i) (fun i => m i) q j)

/-- A row against the rows of a matrix, at (u, q): Σ_j r(u, j) · a(q, j). -/
theorem rowNT_apply {φ₁ φ₂ : FTy} (r : FVec Ideal S1x768 φ₁) (a : FVec Ideal S768x768 φ₂) (u : Fin 1) (q : Fin 768) :
    matmul dot_S1x768_S768x768_S1x768_1_1_0_0_n_n none r a (constant S1x768 .f32 0x00000000#32) (ix2 u q)
      = ∑ j : Fin 768, r (ix2 u j) * a (ix2 q j) :=
  Cert.Lib.RowsDot.matmul_zero_apply dot_S1x768_S768x768_S1x768_1_1_0_0_n_n rfl rfl (fun _ _ => rfl) (fun _ _ => rfl)
    (fun _ _ => rfl) (fun _ _ => rfl) none r a u q

/-- A block of rows against the rows of a matrix, at (p, q): Σ_j x(p, j) · a(q, j). -/
theorem bigNT_apply {φ₁ φ₂ : FTy} (x : FVec Ideal S2048x768 φ₁) (a : FVec Ideal S768x768 φ₂) (p : Fin 2048) (q : Fin 768) :
    matmul dot_S2048x768_S768x768_S2048x768_1_1_0_0_n_n none x a (constant S2048x768 .f32 0x00000000#32) (ix2 p q)
      = ∑ j : Fin 768, x (ix2 p j) * a (ix2 q j) :=
  Cert.Lib.RowsDot.matmul_zero_apply dot_S2048x768_S768x768_S2048x768_1_1_0_0_n_n rfl rfl (fun _ _ => rfl) (fun _ _ => rfl)
    (fun _ _ => rfl) (fun _ _ => rfl) none x a p q

/-! ## The three-pass product -/

/-- A real number minus itself is zero. -/
theorem sub_self_of_isReal {x : EReal} (h : IsReal x) : x - x = 0 := by
  obtain ⟨r, rfl⟩ := h
  rw [← EReal.coe_sub, sub_self, EReal.coe_zero]

/-- The three-pass product of `a` (with second half `c`) and `m`. -/
def threePass (a c : FVec Ideal S768x768 .bf16) (m : FVec Ideal S768x768 .f32) : FVec Ideal S768x768 .f32 :=
  addf (matmul dot_S768x768_S768x768_S768x768_1_0_0_1_n_n none a (truncf .bf16 m bitsLt_bf16_f32) (constant S768x768 .f32 0x00000000#32))
    (addf (matmul dot_S768x768_S768x768_S768x768_1_0_0_1_n_n none a (truncf .bf16 (subf m m) bitsLt_bf16_f32) (constant S768x768 .f32 0x00000000#32))
      (matmul dot_S768x768_S768x768_S768x768_1_0_0_1_n_n none c (truncf .bf16 m bitsLt_bf16_f32) (constant S768x768 .f32 0x00000000#32)))

/-- With `m` real-valued and `c` zero, the three-pass product at (q, j) is Σ_l a(q, l) · m(l, j). -/
theorem threePass_apply (a c : FVec Ideal S768x768 .bf16) (m : FVec Ideal S768x768 .f32)
    (hm : ∀ i, IsReal (m i)) (hc : ∀ i, c i = 0) (q j : Fin 768) :
    threePass a c m (ix2 q j) = ∑ l : Fin 768, a (ix2 q l) * m (ix2 l j) := by
  unfold threePass
  rw [addf_apply, addf_apply, matNN_apply, matNN_apply, matNN_apply]
  have h2 : ∑ l : Fin 768, a (ix2 q l) * (truncf .bf16 (subf m m) bitsLt_bf16_f32 : FVec Ideal S768x768 .bf16) (ix2 l j) = 0 :=
    Finset.sum_eq_zero fun l _ => by
      show a (ix2 q l) * (m (ix2 l j) - m (ix2 l j)) = 0
      rw [sub_self_of_isReal (hm _), mul_zero]
  have h3 : ∑ l : Fin 768, c (ix2 q l) * (truncf .bf16 m bitsLt_bf16_f32 : FVec Ideal S768x768 .bf16) (ix2 l j) = 0 :=
    Finset.sum_eq_zero fun l _ => by rw [hc, zero_mul]
  rw [h2, h3, add_zero, add_zero]
  rfl

/-! ## Unit axes -/

/-- One slot of a two-matrix block, as a matrix. -/
theorem slot_apply {φ : FTy} (v : FVec Ideal S1x768x768 φ) (h : S1x768x768.ShapeCasts S768x768) (q j : Fin 768) :
    shapeCast S768x768 v h (ix2 q j) = v (ix3 (0 : Fin 1) q j) :=
  shapeCast_1ab_ab_apply v h q j

/-- One slot of a two-row block, as a row. -/
theorem rowslot_apply {φ : FTy} (v : FVec Ideal S1x1x768 φ) (h : S1x1x768.ShapeCasts S1x768) (u : Fin 1) (q : Fin 768) :
    shapeCast S1x768 v h (ix2 u q) = v (ix3 (0 : Fin 1) u q) :=
  shapeCast_1ab_ab_apply v h u q

/-! ## The payloads -/

theorem pay1_eq (v41 : FVec Ideal S768x768 .f32) : k0_pay1 v41 = v41 := shapeCast_self _ _

theorem pay8_apply (v26 : Vec Ideal S1x768x768 .bf16) (q j : Fin 768) : k0_pay8 v26 (ix2 q j) = v26 (ix3 (0 : Fin 1) q j) :=
  slot_apply _ _ q j

theorem pay11_apply (v : Vec Ideal S1x768x768 .bf16) (q j : Fin 768) : k0_pay11 v (ix2 q j) = v (ix3 (0 : Fin 1) q j) :=
  slot_apply _ _ q j

theorem pay14_apply (v : Vec Ideal S1x768x768 .bf16) (q j : Fin 768) : k0_pay14 v (ix2 q j) = v (ix3 (0 : Fin 1) q j) :=
  slot_apply _ _ q j

theorem pay15_apply (v : Vec Ideal S1x768x768 .bf16) (q j : Fin 768) : k0_pay15 v (ix2 q j) = v (ix3 (0 : Fin 1) q j) :=
  slot_apply _ _ q j

theorem pay9_apply (v30 : Vec Ideal S1x1x768 .f32) (u : Fin 1) (q : Fin 768) : k0_pay9 v30 (ix2 u q) = v30 (ix3 (0 : Fin 1) u q) :=
  rowslot_apply _ _ u q

/-- The first point's initial product: the two halves of the first matrix added. -/
theorem pay6_apply (v11 v13 : Vec Ideal S1x768x768 .bf16) (q j : Fin 768) :
    k0_pay6 v11 v13 (ix2 q j) = v11 (ix3 (0 : Fin 1) q j) + v13 (ix3 (0 : Fin 1) q j) := by
  unfold k0_pay6
  rw [shapeCast_self]
  exact congrArg₂ (· + ·) (slot_apply (φ := .bf16) v11 _ q j) (slot_apply (φ := .bf16) v13 _ q j)

/-- The first point's initial bias row. -/
theorem pay7_apply (v21 : Vec Ideal S1x1x768 .f32) (u : Fin 1) (q : Fin 768) :
    k0_pay7 v21 (ix2 u q) = v21 (ix3 (0 : Fin 1) u q) := by
  unfold k0_pay7
  rw [shapeCast_self]
  exact rowslot_apply _ _ u q

theorem pay10_eq (v26 v28 : Vec Ideal S1x768x768 .bf16) (v32 : Vec Ideal S768x768 .f32) :
    k0_pay10 v26 v28 v32 = threePass (k0_pay8 v26) (shapeCast S768x768 v28 shapeCasts_S1x768x768_S768x768) v32 := rfl

theorem pay3_eq (v38 v40 : FVec Ideal S768x768 .bf16) (v43 : Vec Ideal S768x768 .f32) :
    k0_pay3 v38 v40 v43 = threePass v38 v40 v43 := shapeCast_self _ _

theorem pay12_eq (v11 v13 : Vec Ideal S1x768x768 .bf16) (v17 : Vec Ideal S768x768 .f32) :
    k0_pay12 v11 v13 v17 = threePass (k0_pay11 v11) (shapeCast S768x768 v13 shapeCasts_S1x768x768_S768x768) v17 := shapeCast_self _ _

/-- A bias-row step whose matrix is given as a matrix. -/
theorem pay2_apply (v27 : FVec Ideal S768x768 .bf16) (v31 : FVec Ideal S1x768 .f32) (v45 : Vec Ideal S1x768 .f32) (u : Fin 1) (q : Fin 768) :
    k0_pay2 v27 v31 v45 (ix2 u q) = (∑ j : Fin 768, v45 (ix2 u j) * v27 (ix2 q j)) + v31 (ix2 u q) := by
  unfold k0_pay2
  rw [shapeCast_self, addf_apply, rowNT_apply]
  rfl

theorem pay4_apply (v38 : FVec Ideal S768x768 .bf16) (v41 : Vec Ideal S1x1x768 .f32) (v56 : Vec Ideal S1x768 .f32) (u : Fin 1) (q : Fin 768) :
    k0_pay4 v38 v41 v56 (ix2 u q) = (∑ j : Fin 768, v56 (ix2 u j) * v38 (ix2 q j)) + v41 (ix3 (0 : Fin 1) u q) := by
  unfold k0_pay4
  rw [shapeCast_self, addf_apply, rowNT_apply, rowslot_apply]
  rfl

theorem pay13_apply (v11 : Vec Ideal S1x768x768 .bf16) (v15 : Vec Ideal S1x1x768 .f32) (v30 : Vec Ideal S1x768 .f32) (u : Fin 1) (q : Fin 768) :
    k0_pay13 v11 v15 v30 (ix2 u q) = (∑ j : Fin 768, v30 (ix2 u j) * v11 (ix3 (0 : Fin 1) q j)) + v15 (ix3 (0 : Fin 1) u q) := by
  unfold k0_pay13
  rw [shapeCast_self, addf_apply, rowNT_apply, rowslot_apply]
  refine congrArg (· + _) (Finset.sum_congr rfl fun j _ => ?_)
  show v30 (ix2 u j) * k0_pay11 v11 (ix2 q j) = _
  rw [pay11_apply]

/-- The output block: a block of input rows against the rows of the product, plus the bias row. -/
theorem pay5_apply (v11 : Vec Ideal S2048x768 .f32) (v12 : Vec Ideal S768x768 .f32) (v14 : Vec Ideal S1x768 .f32) (p : Fin 2048) (q : Fin 768) :
    k0_pay5 v11 v12 v14 (ix2 p q) = (∑ j : Fin 768, v11 (ix2 p j) * v12 (ix2 q j)) + v14 (ix2 (0 : Fin 1) q) := by
  unfold k0_pay5
  rw [addf_apply, bigNT_apply, broadcastTo_1b_ab_apply, shapeCast_a_1a_apply, shapeCast_1a_a_apply]

end Cert.KernelIdeal.Pay

end
-- ==== Proof.KernelBlocks.lean ====
/-
  The windows' blocks as entries of their arrays.

  At grid point t the two weight operands and the bias operand hand the body the pair of layers 2·min(t, 9) and
  2·min(t, 9) + 1, and the input operand hands it the 2048 rows from 2048·(t - 10) on (the first block while t ≤ 10):
  a block's coordinate is the block's index times the block's extent plus the coordinate inside the block.
-/
import proofs.«123963_g79869211837047_cont_9to1_m_368_32_alg».proof.Proof.Gen.KernelIdeal.Frame
import Idealize.ShloMosaic.Lib.Pipeline.Value

noncomputable section

namespace Cert.KernelIdeal.Blocks

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The block index of the three per-layer operands at point t is min(t, 9) on the layer axis, 0 on the others. -/
theorem index_w : ∀ t : Fin cfg0.N,
    (win0_0.index t 0 = min t.val 9 ∧ win0_0.index t 1 = 0 ∧ win0_0.index t 2 = 0)
    ∧ (win0_1.index t 0 = min t.val 9 ∧ win0_1.index t 1 = 0 ∧ win0_1.index t 2 = 0)
    ∧ (win0_2.index t 0 = min t.val 9 ∧ win0_2.index t 1 = 0 ∧ win0_2.index t 2 = 0) :=
  (by decide +kernel : ∀ t : Fin grid0.N, _)

/-- The block index of the input rows (and of the output rows) at point t is t - 10 on the row axis. -/
theorem index_x : ∀ t : Fin cfg0.N,
    (win0_3.index t 0 = t.val - 10 ∧ win0_3.index t 1 = 0) ∧ (win0_4.index t 0 = t.val - 10 ∧ win0_4.index t 1 = 0) :=
  (by decide +kernel : ∀ t : Fin grid0.N, _)

/-- The first weight operand's block at point t. -/
theorem iblk0_apply (c : Dev nD) (t : Fin cfg0.N) (x : S2x768x768.Idx) (k : S20x768x768.Idx)
    (hk0 : (k 0).val = 2 * min t.val 9 + (x 0).val) (hk1 : (k 1).val = (x 1).val) (hk2 : (k 2).val = (x 2).val) :
    (iblk m c 0 t : Vec F S2x768x768 .bf16) x = (V m c main_call0_v1 : S20x768x768.Idx → Elt F .bf16) k := by
  obtain ⟨⟨h0, h1, h2⟩, -, -⟩ := index_w t
  unfold iblk
  rw [View.read_apply]
  show V m c main_call0_v1 _ = V m c main_call0_v1 _
  congr 1
  funext a
  apply Fin.ext
  match a with
  | ⟨0, _⟩ => show win0_0.index t 0 * 2 + 1 * (x 0).val = (k 0).val; rw [h0, hk0]; omega
  | ⟨1, _⟩ => show win0_0.index t 1 * 768 + 1 * (x 1).val = (k 1).val; rw [h1, hk1]; omega
  | ⟨2, _⟩ => show win0_0.index t 2 * 768 + 1 * (x 2).val = (k 2).val; rw [h2, hk2]; omega

/-- The second weight operand's block at point t. -/
theorem iblk1_apply (c : Dev nD) (t : Fin cfg0.N) (x : S2x768x768.Idx) (k : S20x768x768.Idx)
    (hk0 : (k 0).val = 2 * min t.val 9 + (x 0).val) (hk1 : (k 1).val = (x 1).val) (hk2 : (k 2).val = (x 2).val) :
    (iblk m c 1 t : Vec F S2x768x768 .bf16) x = (V m c main_call0_v4 : S20x768x768.Idx → Elt F .bf16) k := by
  obtain ⟨-, ⟨h0, h1, h2⟩, -⟩ := index_w t
  unfold iblk
  rw [View.read_apply]
  show V m c main_call0_v4 _ = V m c main_call0_v4 _
  congr 1
  funext a
  apply Fin.ext
  match a with
  | ⟨0, _⟩ => show win0_1.index t 0 * 2 + 1 * (x 0).val = (k 0).val; rw [h0, hk0]; omega
  | ⟨1, _⟩ => show win0_1.index t 1 * 768 + 1 * (x 1).val = (k 1).val; rw [h1, hk1]; omega
  | ⟨2, _⟩ => show win0_1.index t 2 * 768 + 1 * (x 2).val = (k 2).val; rw [h2, hk2]; omega

/-- The bias operand's block at point t. -/
theorem iblk2_apply (c : Dev nD) (t : Fin cfg0.N) (x : S2x1x768.Idx) (k : S20x1x768.Idx)
    (hk0 : (k 0).val = 2 * min t.val 9 + (x 0).val) (hk1 : (k 1).val = (x 1).val) (hk2 : (k 2).val = (x 2).val) :
    (iblk m c 2 t : Vec F S2x1x768 .f32) x = (V m c main_call0_v0 : S20x1x768.Idx → Elt F .f32) k := by
  obtain ⟨-, -, ⟨h0, h1, h2⟩⟩ := index_w t
  unfold iblk
  rw [View.read_apply]
  show V m c main_call0_v0 _ = V m c main_call0_v0 _
  congr 1
  funext a
  apply Fin.ext
  match a with
  | ⟨0, _⟩ => show win0_2.index t 0 * 2 + 1 * (x 0).val = (k 0).val; rw [h0, hk0]; omega
  | ⟨1, _⟩ => show win0_2.index t 1 * 1 + 1 * (x 1).val = (k 1).val; rw [h1, hk1]; omega
  | ⟨2, _⟩ => show win0_2.index t 2 * 768 + 1 * (x 2).val = (k 2).val; rw [h2, hk2]; omega

/-- The input operand's block at point t. -/
theorem iblk3_apply (c : Dev nD) (t : Fin cfg0.N) (x : S2048x768.Idx) (k : S32768x768.Idx)
    (hk0 : (k 0).val = 2048 * (t.val - 10) + (x 0).val) (hk1 : (k 1).val = (x 1).val) :
    (iblk m c 3 t : Vec F S2048x768 .f32) x = (V m c main_arg0 : S32768x768.Idx → Elt F .f32) k := by
  obtain ⟨⟨h0, h1⟩, -⟩ := index_x t
  unfold iblk
  rw [View.read_apply]
  show V m c main_arg0 _ = V m c main_arg0 _
  congr 1
  funext a
  apply Fin.ext
  match a with
  | ⟨0, _⟩ => show win0_3.index t 0 * 2048 + 1 * (x 0).val = (k 0).val; rw [h0, hk0]; omega
  | ⟨1, _⟩ => show win0_3.index t 1 * 768 + 1 * (x 1).val = (k 1).val; rw [h1, hk1]; omega

end Cert.KernelIdeal.Blocks

end
-- ==== Proof.KernelEntry.lean ====
/-
  What the region finds in its operands' arrays, over the extended reals.

  Before the region the host code reshapes the bias table [20,768] to [20,1,768], rounds the weights to half width and
  back, subtracts and rounds again.  On extended reals the roundings are the identity: the first weight operand is the
  weight table itself, the second is W - W entry by entry (zero wherever W is a real number), and the bias operand at
  (k, 0, q) is the bias table at (k, q).
-/
import proofs.«123963_g79869211837047_cont_9to1_m_368_32_alg».proof.Proof.Gen.KernelIdeal.Frame
import Idealize.ShloMosaic.Lib.StableHlo.Run
import Idealize.ShloMosaic.Lib.ValueLayout
import Idealize.ShloMosaic.Lib.Pipeline.Value

noncomputable section

namespace Cert.KernelIdeal.Entry

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The first weight operand is the weight table. -/
theorem V_hi (c : Dev nD) :
    (Gen.V m c main_call0_v1 : S20x768x768.Idx → EReal) = (m ((c : Thread nD τ).loc main_arg1) : S20x768x768.Idx → EReal) := by
  dsimp only [Gen.V, Gen.hostOps0]
  after_results
  rfl

/-- The second weight operand is W - W. -/
theorem V_lo (c : Dev nD) :
    (Gen.V m c main_call0_v4 : S20x768x768.Idx → EReal)
      = (fun (W : S20x768x768.Idx → EReal) (i : S20x768x768.Idx) => W i - W i) (m ((c : Thread nD τ).loc main_arg1)) := by
  dsimp only [Gen.V, Gen.hostOps0]
  after_results
  rfl

/-- The bias operand is the bias table with a unit axis inserted. -/
theorem V_bias (c : Dev nD) :
    (Gen.V m c main_call0_v0 : S20x1x768.Idx → EReal)
      = shapeCast S20x1x768 (m ((c : Thread nD τ).loc main_arg2) : S20x768.Idx → EReal) shapeCasts_S20x768_S20x1x768 := by
  dsimp only [Gen.V, Gen.hostOps0]
  after_results
  rfl

omit m in
/-- A [20,768] table with a unit axis inserted in the middle reads, at (k, 0, q), the table at (k, q). -/
theorem addUnitMid_apply (x : (⟨2, ![20, 768]⟩ : Shape).Idx → EReal) (h : (⟨2, ![20, 768]⟩ : Shape).ShapeCasts ⟨3, ![20, 1, 768]⟩)
    (k : Fin 20) (u : Fin 1) (q : Fin 768) : shapeCast ⟨3, ![20, 1, 768]⟩ x h (ix3 k u q) = x (ix2 k q) :=
  shapeCast_apply x h _ _ (by
    have hu : u.val = 0 := by omega
    rw [Shape.rowMajor_val_three, Shape.rowMajor_val_two]
    show k.val * 768 + q.val = (k.val * 1 + u.val) * 768 + q.val
    rw [hu]; omega)

/-- The bias operand at (k, 0, q) is the bias table at (k, q). -/
theorem V_bias_apply (c : Dev nD) (k : Fin 20) (u : Fin 1) (q : Fin 768) :
    (Gen.V m c main_call0_v0 : S20x1x768.Idx → EReal) (ix3 k u q) = (m ((c : Thread nD τ).loc main_arg2) : S20x768.Idx → EReal) (ix2 k q) := by
  rw [V_bias]
  exact addUnitMid_apply _ _ k u q

end Cert.KernelIdeal.Entry

end
-- ==== Proof.LibAffineChain.lean ====
/-
  A chain of affine layers and its collapse to one affine map.

  For an input `x` (rows `p`, columns `j`), matrices `W k` and bias rows `b k`, layer `k` sends `h` to
  `h · (W k)ᵀ + b k`:   (layer h)(p, q) = Σ_j h(p, j) · W k (q, j) + b k (q).
  `layers k` is the input after the first `k` layers.

  The same map is one affine map: with the running product `prodM k = W k · W (k-1) ⋯ W 0` and the running
  bias row `biasR k = biasR (k-1) · (W k)ᵀ + b k` (from `biasR 0 = b 0`),
      layers (k+1) (p, q) = Σ_j x(p, j) · prodM k (q, j) + biasR k (q).
  This is associativity of the matrix product and distributivity over the bias; both are laws of the real field
  and fail at the infinities of the extended reals, so the statement is for real-valued entries.
-/
import proofs.«123963_g79869211837047_cont_9to1_m_368_32_alg».proof.Proof.LibERealSums

noncomputable section

namespace Cert.AffineChain

open Cert.Lib.ERealSums

variable {P J : Type} [Fintype J]

/-- The input after the first `k` layers. -/
def layers (x : P → J → EReal) (W : ℕ → J → J → EReal) (b : ℕ → J → EReal) : ℕ → P → J → EReal
  | 0 => x
  | k + 1 => fun p q => (∑ j, layers x W b k p j * W k q j) + b k q

/-- The running product `W k · W (k-1) ⋯ W 0`. -/
def prodM (W : ℕ → J → J → EReal) : ℕ → J → J → EReal
  | 0 => W 0
  | k + 1 => fun q j => ∑ l, W (k + 1) q l * prodM W k l j

/-- The running bias row: `b 0`, then `r ↦ r · (W (k+1))ᵀ + b (k+1)`. -/
def biasR (W : ℕ → J → J → EReal) (b : ℕ → J → EReal) : ℕ → J → EReal
  | 0 => b 0
  | k + 1 => fun q => (∑ j, biasR W b k j * W (k + 1) q j) + b (k + 1) q

theorem layers_zero (x : P → J → EReal) (W : ℕ → J → J → EReal) (b : ℕ → J → EReal) : layers x W b 0 = x := rfl

theorem layers_succ (x : P → J → EReal) (W : ℕ → J → J → EReal) (b : ℕ → J → EReal) (k : ℕ) (p : P) (q : J) :
    layers x W b (k + 1) p q = (∑ j, layers x W b k p j * W k q j) + b k q := rfl

theorem prodM_zero (W : ℕ → J → J → EReal) : prodM W 0 = W 0 := rfl

theorem prodM_succ (W : ℕ → J → J → EReal) (k : ℕ) (q j : J) :
    prodM W (k + 1) q j = ∑ l, W (k + 1) q l * prodM W k l j := rfl

theorem biasR_zero (W : ℕ → J → J → EReal) (b : ℕ → J → EReal) : biasR W b 0 = b 0 := rfl

theorem biasR_succ (W : ℕ → J → J → EReal) (b : ℕ → J → EReal) (k : ℕ) (q : J) :
    biasR W b (k + 1) q = (∑ j, biasR W b k j * W (k + 1) q j) + b (k + 1) q := rfl

/-- The running product of real matrices is real. -/
theorem prodM_isReal (W : ℕ → J → J → EReal) (hW : ∀ k q j, IsReal (W k q j)) :
    ∀ k q j, IsReal (prodM W k q j)
  | 0, q, j => hW 0 q j
  | k + 1, q, j => isReal_sum _ fun l => (hW (k + 1) q l).mul (prodM_isReal W hW k l j)

/-- The running bias row of real data is real. -/
theorem biasR_isReal (W : ℕ → J → J → EReal) (b : ℕ → J → EReal) (hW : ∀ k q j, IsReal (W k q j))
    (hb : ∀ k q, IsReal (b k q)) : ∀ k q, IsReal (biasR W b k q)
  | 0, q => hb 0 q
  | k + 1, q => (isReal_sum _ fun j => (biasR_isReal W b hW hb k j).mul (hW (k + 1) q j)).add (hb (k + 1) q)

end Cert.AffineChain

end
-- ==== Proof.ChainArgs.lean ====
/-
  The three argument arrays as coordinate functions.

  The input array [32768, 768] as rows and columns, the weight table [20, 768, 768] as a family of matrices indexed by
  the layer number (zero beyond the 20 layers), the bias table [20, 768] as a family of rows.
-/
import proofs.«123963_g79869211837047_cont_9to1_m_368_32_alg».proof.Proof.LibAffineChain
import Idealize.ShloMosaic.Lib.ValueIdx

noncomputable section

namespace Cert.AffineChain

open Idealize.ShloMosaic Idealize.ShloMosaic.ValueIdx

/-- The input array by row and column. -/
def xOf (X : (⟨2, ![32768, 768]⟩ : Shape).Idx → EReal) : Fin 32768 → Fin 768 → EReal := fun p j => X (ix2 p j)

/-- Layer `k`'s matrix, read off the weight table. -/
def wOf (Wa : (⟨3, ![20, 768, 768]⟩ : Shape).Idx → EReal) : ℕ → Fin 768 → Fin 768 → EReal :=
  fun k q j => if h : k < 20 then Wa (ix3 ⟨k, h⟩ q j) else 0

/-- Layer `k`'s bias row, read off the bias table. -/
def bOf (Ba : (⟨2, ![20, 768]⟩ : Shape).Idx → EReal) : ℕ → Fin 768 → EReal :=
  fun k q => if h : k < 20 then Ba (ix2 ⟨k, h⟩ q) else 0

theorem wOf_lt (Wa : (⟨3, ![20, 768, 768]⟩ : Shape).Idx → EReal) {k : ℕ} (h : k < 20) (q j : Fin 768) :
    wOf Wa k q j = Wa (ix3 ⟨k, h⟩ q j) := dif_pos h

theorem bOf_lt (Ba : (⟨2, ![20, 768]⟩ : Shape).Idx → EReal) {k : ℕ} (h : k < 20) (q : Fin 768) :
    bOf Ba k q = Ba (ix2 ⟨k, h⟩ q) := dif_pos h

open Cert.Lib.ERealSums

theorem xOf_isReal {X : (⟨2, ![32768, 768]⟩ : Shape).Idx → EReal} (h : ∀ i, IsReal (X i)) (p : Fin 32768) (j : Fin 768) :
    IsReal (xOf X p j) := h _

theorem wOf_isReal {Wa : (⟨3, ![20, 768, 768]⟩ : Shape).Idx → EReal} (h : ∀ i, IsReal (Wa i)) (k : ℕ) (q j : Fin 768) :
    IsReal (wOf Wa k q j) := by
  unfold wOf; split
  · exact h _
  · exact isReal_zero

theorem bOf_isReal {Ba : (⟨2, ![20, 768]⟩ : Shape).Idx → EReal} (h : ∀ i, IsReal (Ba i)) (k : ℕ) (q : Fin 768) :
    IsReal (bOf Ba k q) := by
  unfold bOf; split
  · exact h _
  · exact isReal_zero

end Cert.AffineChain

end
-- ==== Proof.KernelValue.lean ====
/-
  What the two carried buffers and the output block hold after each grid point, over the extended reals.

  Write W k, b k for layer k's matrix and bias row, M k = W k ⋯ W 0 for the running product and r k for the running bias
  row.  After point n the matrix buffer holds M (2n+1) and the row buffer r (2n+1) while n < 10, and M 19, r 19 from
  point 9 on; at a point n ≥ 10 the output block holds, at (p, q),  Σ_j x(2048 (n-10) + p, j) · M 19 (q, j) + r 19 (q).
  By induction on the point.  The second weight operand is W - W = 0 for real W, and every M k is real, so each
  three-pass product is the plain product; a point of the first ten applies two layers, the first point starting from
  M 0 = W 0 and r 0 = b 0.
-/
import proofs.«123963_g79869211837047_cont_9to1_m_368_32_alg».proof.Proof.KBodyOuts
import proofs.«123963_g79869211837047_cont_9to1_m_368_32_alg».proof.Proof.KernelPieces
import proofs.«123963_g79869211837047_cont_9to1_m_368_32_alg».proof.Proof.KernelPayloads
import proofs.«123963_g79869211837047_cont_9to1_m_368_32_alg».proof.Proof.KernelBlocks
import proofs.«123963_g79869211837047_cont_9to1_m_368_32_alg».proof.Proof.KernelEntry
import proofs.«123963_g79869211837047_cont_9to1_m_368_32_alg».proof.Proof.ChainArgs

set_option maxRecDepth 16384

noncomputable section

namespace Cert.KernelIdeal.Carried

open Idealize.ShloMosaic Idealize.ShloMosaic.TcCoe Idealize.ShloMosaic.ValueIdx Idealize.SL.Sem
open Cert.KernelIdeal Cert.KernelIdeal.Gen Cert.KernelIdeal.Body Cert.KernelIdeal.Pieces Cert.KernelIdeal.Pay
open Cert.KernelIdeal.Blocks Cert.KernelIdeal.Entry Cert.AffineChain Cert.Lib.ERealSums

variable (m : (ℓ : Loc nD τ sig) → Buf (Elt Ideal) ℓ) (c : Dev nD)

/-! ## The slots' side conditions -/

theorem hw0 : ∀ a, (![0, 0, 0] : Fin 3 → ℕ) a + S1x768x768.size a ≤ S2x768x768.size a := by decide
theorem hw1 : ∀ a, (![1, 0, 0] : Fin 3 → ℕ) a + S1x768x768.size a ≤ S2x768x768.size a := by decide
theorem hb0 : ∀ a, (![0, 0, 0] : Fin 3 → ℕ) a + S1x1x768.size a ≤ S2x1x768.size a := by decide
theorem hb1 : ∀ a, (![1, 0, 0] : Fin 3 → ℕ) a + S1x1x768.size a ≤ S2x1x768.size a := by decide

/-! ## The three arguments as layer families -/

/-- Layer k's matrix. -/
abbrev Wn : ℕ → Fin 768 → Fin 768 → EReal := wOf (m ((c : Thread nD τ).loc main_arg1))
/-- Layer k's bias row. -/
abbrev bn : ℕ → Fin 768 → EReal := bOf (m ((c : Thread nD τ).loc main_arg2))
/-- The input by row and column. -/
abbrev xn : Fin 32768 → Fin 768 → EReal := xOf (m ((c : Thread nD τ).loc main_arg0))

theorem isReal_mat (f : S768x768.Idx → EReal) (g : Fin 768 → Fin 768 → EReal)
    (h : ∀ q j, f (ix2 q j) = g q j) (hg : ∀ q j, IsReal (g q j)) : ∀ i, IsReal (f i) := fun i => by
  obtain ⟨q, j, rfl⟩ : ∃ (q : Fin 768) (j : Fin 768), i = ix2 q j := ⟨i 0, i 1, eq_ix2 i⟩
  rw [h]; exact hg _ _

/-! ## The operand blocks in terms of the layers -/

theorem cfgN : cfg0.N = 26 := N_0

/-- The first weight operand's block at point t, slot s, is layer 2·min(t, 9) + s's matrix. -/
theorem blk_hi (t : Fin cfg0.N) (s : Fin 2) (k : ℕ) (hk : k = 2 * min t.val 9 + s.val) (q j : Fin 768) :
    (iblk m c 0 t : Vec Ideal S2x768x768 .bf16) (ix3 s q j) = Wn m c k q j := by
  subst hk
  have h9 : min t.val 9 ≤ 9 := Nat.min_le_right _ _
  have hlt : 2 * min t.val 9 + s.val < 20 := by have := s.isLt; omega
  exact (iblk0_apply m c t (ix3 s q j) (ix3 ⟨2 * min t.val 9 + s.val, hlt⟩ q j) rfl rfl rfl).trans
    ((congrFun (V_hi m c) _).trans (wOf_lt _ hlt q j).symm)

/-- The second weight operand's block is zero when the weights are real. -/
theorem blk_lo (hW : ∀ i, IsReal ((m ((c : Thread nD τ).loc main_arg1) : S20x768x768.Idx → EReal) i))
    (t : Fin cfg0.N) (s : Fin 2) (q j : Fin 768) :
    (iblk m c 1 t : Vec Ideal S2x768x768 .bf16) (ix3 s q j) = (0 : EReal) := by
  have h9 : min t.val 9 ≤ 9 := Nat.min_le_right _ _
  have hlt : 2 * min t.val 9 + s.val < 20 := by have := s.isLt; omega
  exact (iblk1_apply m c t (ix3 s q j) (ix3 ⟨2 * min t.val 9 + s.val, hlt⟩ q j) rfl rfl rfl).trans
    ((congrFun (V_lo m c) _).trans (sub_self_of_isReal (hW _)))

/-- The bias operand's block at point t, slot s, is layer 2·min(t, 9) + s's bias row. -/
theorem blk_bias (t : Fin cfg0.N) (s : Fin 2) (k : ℕ) (hk : k = 2 * min t.val 9 + s.val) (u : Fin 1) (q : Fin 768) :
    (iblk m c 2 t : Vec Ideal S2x1x768 .f32) (ix3 s u q) = bn m c k q := by
  subst hk
  have h9 : min t.val 9 ≤ 9 := Nat.min_le_right _ _
  have hlt : 2 * min t.val 9 + s.val < 20 := by have := s.isLt; omega
  exact (iblk2_apply m c t (ix3 s u q) (ix3 ⟨2 * min t.val 9 + s.val, hlt⟩ u q) rfl rfl rfl).trans
    ((V_bias_apply m c ⟨2 * min t.val 9 + s.val, hlt⟩ u q).trans (bOf_lt _ hlt q).symm)

/-- The input operand's block at a point t ≥ 10 is rows 2048 (t - 10) … of the input. -/
theorem blk_x (t : Fin cfg0.N) (p : Fin 2048) (P : Fin 32768) (hP : P.val = 2048 * (t.val - 10) + p.val) (j : Fin 768) :
    (iblk m c 3 t : Vec Ideal S2048x768 .f32) (ix2 p j) = xn m c P j :=
  (iblk3_apply m c t (ix2 p j) (ix2 P j) hP rfl).trans (congrFun (V_main_arg0 m c) _)

/-! ## Each kind of point, as the body's arithmetic of the blocks -/

/-- Components of a triple known by an equation. -/
theorem fst_of_eq3 {A B C : Type} {o : A × B × C} {a : A} {b : B} {c : C} (h : o = (a, b, c)) : o.1 = a := by subst h; rfl
theorem snd_fst_of_eq3 {A B C : Type} {o : A × B × C} {a : A} {b : B} {c : C} (h : o = (a, b, c)) : o.2.1 = b := by subst h; rfl
theorem snd_snd_of_eq3 {A B C : Type} {o : A × B × C} {a : A} {b : B} {c : C} (h : o = (a, b, c)) : o.2.2 = c := by subst h; rfl

/-- The four operand blocks at point t, at their literal shapes. -/
abbrev blk0 (t : Fin cfg0.N) : Vec Ideal S2x768x768 .bf16 := iblk m c 0 t
abbrev blk1 (t : Fin cfg0.N) : Vec Ideal S2x768x768 .bf16 := iblk m c 1 t
abbrev blk2 (t : Fin cfg0.N) : Vec Ideal S2x1x768 .f32 := iblk m c 2 t
abbrev blk3 (t : Fin cfg0.N) : Vec Ideal S2048x768 .f32 := iblk m c 3 t

theorem matA (t : Fin cfg0.N) (hz : t.val = 0) :
    (outsAt0 m c t.val t.isLt).2.1
      = k0_pay1 (k0_pay10 (View.ld (blk0 m c t) (Rect.unit (s := S2x768x768) ![1, 0, 0] S1x768x768.size hw1)) (View.ld (blk1 m c t) (Rect.unit (s := S2x768x768) ![1, 0, 0] S1x768x768.size hw1)) (k0_pay6 (View.ld (blk0 m c t) (Rect.unit (s := S2x768x768) ![0, 0, 0] S1x768x768.size hw0)) (View.ld (blk1 m c t) (Rect.unit (s := S2x768x768) ![0, 0, 0] S1x768x768.size hw0)))) :=
  (snd_fst_of_eq3 (outsAt0_A m c t hz)).trans
    (soutA0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseA0 t hz) (caseA1 t hz) (caseA2 t hz) (blk0 m c t) (blk1 m c t) (blk2 m c t) (blk3 m c t) hw0 hw1 hb0 hb1)

theorem rowA (t : Fin cfg0.N) (hz : t.val = 0) :
    (outsAt0 m c t.val t.isLt).2.2
      = k0_pay2 (k0_pay8 (View.ld (blk0 m c t) (Rect.unit (s := S2x768x768) ![1, 0, 0] S1x768x768.size hw1))) (k0_pay9 (View.ld (blk2 m c t) (Rect.unit (s := S2x1x768) ![1, 0, 0] S1x1x768.size hb1))) (k0_pay7 (View.ld (blk2 m c t) (Rect.unit (s := S2x1x768) ![0, 0, 0] S1x1x768.size hb0))) :=
  (snd_snd_of_eq3 (outsAt0_A m c t hz)).trans
    (soutA1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseA0 t hz) (caseA1 t hz) (caseA2 t hz) (blk0 m c t) (blk1 m c t) (blk2 m c t) (blk3 m c t) hw0 hw1 hb0 hb1)

theorem matB (t : Fin cfg0.N) (h1 : 1 ≤ t.val) (h2 : t.val < 10) :
    (outsAt0 m c t.val t.isLt).2.1
      = k0_pay3 (k0_pay14 (View.ld (blk0 m c t) (Rect.unit (s := S2x768x768) ![1, 0, 0] S1x768x768.size hw1))) (k0_pay15 (View.ld (blk1 m c t) (Rect.unit (s := S2x768x768) ![1, 0, 0] S1x768x768.size hw1))) (k0_pay12 (View.ld (blk0 m c t) (Rect.unit (s := S2x768x768) ![0, 0, 0] S1x768x768.size hw0)) (View.ld (blk1 m c t) (Rect.unit (s := S2x768x768) ![0, 0, 0] S1x768x768.size hw0)) (prev0 m c t).2.1) :=
  (snd_fst_of_eq3 (outsAt0_B m c t h1 h2)).trans
    (soutB0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseB0 t h1 h2) (caseB1 t h1 h2) (caseB2 t h1 h2) (blk0 m c t) (blk1 m c t) (blk2 m c t) (blk3 m c t) (prev0 m c t).2.1 (prev0 m c t).2.2 hw0 hw1 hb0 hb1)

theorem rowB (t : Fin cfg0.N) (h1 : 1 ≤ t.val) (h2 : t.val < 10) :
    (outsAt0 m c t.val t.isLt).2.2
      = k0_pay4 (k0_pay14 (View.ld (blk0 m c t) (Rect.unit (s := S2x768x768) ![1, 0, 0] S1x768x768.size hw1))) (View.ld (blk2 m c t) (Rect.unit (s := S2x1x768) ![1, 0, 0] S1x1x768.size hb1)) (k0_pay13 (View.ld (blk0 m c t) (Rect.unit (s := S2x768x768) ![0, 0, 0] S1x768x768.size hw0)) (View.ld (blk2 m c t) (Rect.unit (s := S2x1x768) ![0, 0, 0] S1x1x768.size hb0)) (prev0 m c t).2.2) :=
  (snd_snd_of_eq3 (outsAt0_B m c t h1 h2)).trans
    (soutB1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseB0 t h1 h2) (caseB1 t h1 h2) (caseB2 t h1 h2) (blk0 m c t) (blk1 m c t) (blk2 m c t) (blk3 m c t) (prev0 m c t).2.1 (prev0 m c t).2.2 hw0 hw1 hb0 hb1)

theorem outC (t : Fin cfg0.N) (h : 10 ≤ t.val) :
    (outsAt0 m c t.val t.isLt).1 = k0_pay5 (blk3 m c t) (prev0 m c t).2.1 (prev0 m c t).2.2 :=
  (fst_of_eq3 (outsAt0_C m c t h)).trans
    (outC4_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseC0 t h) (caseC1 t h) (caseC2 t h) (blk0 m c t) (blk1 m c t) (blk2 m c t) (blk3 m c t) (prev0 m c t).2.1 (prev0 m c t).2.2)

theorem keepC (t : Fin cfg0.N) (h : 10 ≤ t.val) :
    (outsAt0 m c t.val t.isLt).2 = (prev0 m c t).2 :=
  congrArg (fun o => o.2) (outsAt0_C m c t h)

end Cert.KernelIdeal.Carried

end
-- ==== Proof.KernelSteps.lean ====
/-
  The arithmetic of one grid point, over the extended reals.

  The kernel carries two buffers across its grid: a 768 × 768 matrix and a row of 768 entries. Each of the first ten
  points is handed two consecutive layers (slot 0 and slot 1 of a block of two matrices, given in two halves x0 + x1, and
  of a block of two bias rows) and folds them into what it carries; each later point applies what is carried to a block
  of input rows. With the layers' matrices W k and bias rows b k, the running product
      prodM k = W k · W (k-1) ⋯ W 0
  and the running row  biasR k = biasR (k-1) · (W k)ᵀ + b k :

    first point      the matrix becomes  W 1 · (W 0 + 0) = prodM 1,  the row  b 0 · (W 1)ᵀ + b 1 = biasR 1;
    a middle point   finds prodM k and biasR k, is handed layers k + 1 and k + 2, and leaves
                     W (k+2) · (W (k+1) · prodM k) = prodM (k+2)  and
                     (biasR k · (W (k+1))ᵀ + b (k+1)) · (W (k+2))ᵀ + b (k+2) = biasR (k+2);
    a late point     writes  (input rows) · Mᵀ + r  for the matrix M and the row r it finds.

  The matrix products are "three-pass" products a · m + (a · (m - m) + c · m): the second half c of every matrix is
  zero here and every m that occurs is real-valued (a running product of real matrices), so each is the plain product.
  Everything is stated over variables: the operand blocks are arbitrary arrays whose entries are given by hypotheses.
-/
import proofs.«123963_g79869211837047_cont_9to1_m_368_32_alg».proof.Proof.KernelPayloads
import proofs.«123963_g79869211837047_cont_9to1_m_368_32_alg».proof.Proof.KernelPieces
import proofs.«123963_g79869211837047_cont_9to1_m_368_32_alg».proof.Proof.LibAffineChain

noncomputable section

namespace Cert.KernelIdeal.Steps

open Idealize.ShloMosaic Idealize.ShloMosaic.ValueIdx Cert.KernelIdeal Cert.KernelIdeal.Gen
open Cert.Lib.ERealSums Cert.AffineChain Cert.KernelIdeal.Pay Cert.KernelIdeal.Pieces

/-- Every index of a rank-2 array is the pair of its coordinates. -/
theorem idx2_cases {n0 n1 : ℕ} (i : (⟨2, ![n0, n1]⟩ : Shape).Idx) : ∃ (a : Fin n0) (b : Fin n1), i = ix2 a b :=
  ⟨i 0, i 1, eq_ix2 i⟩

section Slots
variable (hw0 : ∀ a, (![0, 0, 0] : Fin 3 → ℕ) a + S1x768x768.size a ≤ S2x768x768.size a)
  (hw1 : ∀ a, (![1, 0, 0] : Fin 3 → ℕ) a + S1x768x768.size a ≤ S2x768x768.size a)
  (hb0 : ∀ a, (![0, 0, 0] : Fin 3 → ℕ) a + S1x1x768.size a ≤ S2x1x768.size a)
  (hb1 : ∀ a, (![1, 0, 0] : Fin 3 → ℕ) a + S1x1x768.size a ≤ S2x1x768.size a)

/-- Slot 0 of a block of two matrices, at (0, q, j), is the block at (0, q, j). -/
theorem W0_apply {e : EltTy} (x : Vec Ideal S2x768x768 e) (u : Fin 1) (q j : Fin 768) :
    View.ld x (Rect.unit (s := S2x768x768) ![0, 0, 0] S1x768x768.size hw0) (ix3 u q j) = x (ix3 (0 : Fin 2) q j) :=
  ld_wslot_apply x 0 hw0 u q j

/-- Slot 1 of a block of two matrices, at (0, q, j), is the block at (1, q, j). -/
theorem W1_apply {e : EltTy} (x : Vec Ideal S2x768x768 e) (u : Fin 1) (q j : Fin 768) :
    View.ld x (Rect.unit (s := S2x768x768) ![1, 0, 0] S1x768x768.size hw1) (ix3 u q j) = x (ix3 (1 : Fin 2) q j) :=
  ld_wslot_apply x 1 hw1 u q j

/-- Slot 0 of a block of two rows. -/
theorem B0_apply {e : EltTy} (x : Vec Ideal S2x1x768 e) (u v : Fin 1) (q : Fin 768) :
    View.ld x (Rect.unit (s := S2x1x768) ![0, 0, 0] S1x1x768.size hb0) (ix3 u v q) = x (ix3 (0 : Fin 2) v q) :=
  ld_bslot_apply x 0 hb0 u v q

/-- Slot 1 of a block of two rows. -/
theorem B1_apply {e : EltTy} (x : Vec Ideal S2x1x768 e) (u v : Fin 1) (q : Fin 768) :
    View.ld x (Rect.unit (s := S2x1x768) ![1, 0, 0] S1x1x768.size hb1) (ix3 u v q) = x (ix3 (1 : Fin 2) v q) :=
  ld_bslot_apply x 1 hb1 u v q

include hw0 hw1 hb0 hb1

/-- The first point's matrix: slot 1 times the sum of slot 0's two halves, W 1 · (W 0 + 0) = prodM 1. The sum is
    real-valued and the second half of slot 1 is zero, so the three-pass product is the plain one. -/
theorem stepA_mat (x0 x1 : Vec Ideal S2x768x768 .bf16) (W : ℕ → Fin 768 → Fin 768 → EReal)
    (hWr : ∀ k q j, IsReal (W k q j))
    (h0 : ∀ (s : Fin 2) (q j : Fin 768), x0 (ix3 s q j) = W s.val q j)
    (h1 : ∀ (s : Fin 2) (q j : Fin 768), x1 (ix3 s q j) = (0 : EReal)) (q j : Fin 768) :
    k0_pay1 (k0_pay10 (View.ld x0 (Rect.unit (s := S2x768x768) ![1, 0, 0] S1x768x768.size hw1))
        (View.ld x1 (Rect.unit (s := S2x768x768) ![1, 0, 0] S1x768x768.size hw1))
        (k0_pay6 (View.ld x0 (Rect.unit (s := S2x768x768) ![0, 0, 0] S1x768x768.size hw0))
          (View.ld x1 (Rect.unit (s := S2x768x768) ![0, 0, 0] S1x768x768.size hw0)))) (ix2 q j)
      = prodM W 1 q j := by
  have e6 : ∀ l j' : Fin 768, k0_pay6 (View.ld x0 (Rect.unit (s := S2x768x768) ![0, 0, 0] S1x768x768.size hw0))
      (View.ld x1 (Rect.unit (s := S2x768x768) ![0, 0, 0] S1x768x768.size hw0)) (ix2 l j') = W 0 l j' := fun l j' => by
    rw [pay6_apply, W0_apply hw0, W0_apply hw0, h0, h1, add_zero]; rfl
  have e8 : ∀ q' l : Fin 768, k0_pay8 (View.ld x0 (Rect.unit (s := S2x768x768) ![1, 0, 0] S1x768x768.size hw1)) (ix2 q' l)
      = W 1 q' l := fun q' l => by
    rw [pay8_apply, W1_apply hw1, h0]; rfl
  rw [pay1_eq, pay10_eq, threePass_apply]
  · show _ = ∑ l, W (0 + 1) q l * prodM W 0 l j
    exact Finset.sum_congr rfl fun l _ => by rw [e8, e6]; rfl
  · intro i
    obtain ⟨l, j', rfl⟩ := idx2_cases i
    rw [e6]; exact hWr _ _ _
  · intro i
    obtain ⟨l, j', rfl⟩ := idx2_cases i
    rw [slot_apply, W1_apply hw1]; exact h1 _ _ _

/-- The first point's row: bias row 0 against the rows of matrix 1, plus bias row 1: biasR 1. -/
theorem stepA_row (x0 : Vec Ideal S2x768x768 .bf16) (x2 : Vec Ideal S2x1x768 .f32)
    (W : ℕ → Fin 768 → Fin 768 → EReal) (b : ℕ → Fin 768 → EReal)
    (h0 : ∀ (s : Fin 2) (q j : Fin 768), x0 (ix3 s q j) = W s.val q j)
    (h2 : ∀ (s : Fin 2) (u : Fin 1) (q : Fin 768), x2 (ix3 s u q) = b s.val q) (u : Fin 1) (q : Fin 768) :
    k0_pay2 (k0_pay8 (View.ld x0 (Rect.unit (s := S2x768x768) ![1, 0, 0] S1x768x768.size hw1)))
        (k0_pay9 (View.ld x2 (Rect.unit (s := S2x1x768) ![1, 0, 0] S1x1x768.size hb1)))
        (k0_pay7 (View.ld x2 (Rect.unit (s := S2x1x768) ![0, 0, 0] S1x1x768.size hb0))) (ix2 u q)
      = biasR W b 1 q := by
  rw [pay2_apply, pay9_apply, B1_apply hb1, h2]
  show _ = (∑ j, biasR W b 0 j * W (0 + 1) q j) + b (0 + 1) q
  refine congrArg (· + _) (Finset.sum_congr rfl fun j _ => ?_)
  rw [pay7_apply, B0_apply hb0, h2, pay8_apply, W1_apply hw1, h0]; rfl

/-- A middle point's matrix: from prodM k and layers k + 1, k + 2, two products, W (k+2) · (W (k+1) · prodM k). Both right
    factors are running products of real matrices, hence real-valued, and both second halves are zero. -/
theorem stepB_mat (x0 x1 : Vec Ideal S2x768x768 .bf16) (xs0 : Vec Ideal S768x768 .f32)
    (W : ℕ → Fin 768 → Fin 768 → EReal) (hWr : ∀ k q j, IsReal (W k q j)) (k : ℕ)
    (h0 : ∀ (s : Fin 2) (q j : Fin 768), x0 (ix3 s q j) = W (k + 1 + s.val) q j)
    (h1 : ∀ (s : Fin 2) (q j : Fin 768), x1 (ix3 s q j) = (0 : EReal))
    (hs : ∀ q j : Fin 768, xs0 (ix2 q j) = prodM W k q j) (q j : Fin 768) :
    k0_pay3 (k0_pay14 (View.ld x0 (Rect.unit (s := S2x768x768) ![1, 0, 0] S1x768x768.size hw1)))
        (k0_pay15 (View.ld x1 (Rect.unit (s := S2x768x768) ![1, 0, 0] S1x768x768.size hw1)))
        (k0_pay12 (View.ld x0 (Rect.unit (s := S2x768x768) ![0, 0, 0] S1x768x768.size hw0))
          (View.ld x1 (Rect.unit (s := S2x768x768) ![0, 0, 0] S1x768x768.size hw0)) xs0) (ix2 q j)
      = prodM W (k + 2) q j := by
  -- the first of the two products: matrix k + 1 times the product found
  have e12 : ∀ l j' : Fin 768, k0_pay12 (View.ld x0 (Rect.unit (s := S2x768x768) ![0, 0, 0] S1x768x768.size hw0))
      (View.ld x1 (Rect.unit (s := S2x768x768) ![0, 0, 0] S1x768x768.size hw0)) xs0 (ix2 l j') = prodM W (k + 1) l j' := fun l j' => by
    rw [pay12_eq, threePass_apply]
    · show _ = ∑ l', W (k + 1) l l' * prodM W k l' j'
      exact Finset.sum_congr rfl fun l' _ => by rw [pay11_apply, W0_apply hw0, h0, hs]; rfl
    · intro i
      obtain ⟨a, a', rfl⟩ := idx2_cases i
      rw [hs]; exact prodM_isReal W hWr k a a'
    · intro i
      obtain ⟨a, a', rfl⟩ := idx2_cases i
      rw [slot_apply, W0_apply hw0]; exact h1 _ _ _
  rw [pay3_eq, threePass_apply]
  · show _ = ∑ l, W (k + 1 + 1) q l * prodM W (k + 1) l j
    exact Finset.sum_congr rfl fun l _ => by rw [pay14_apply, W1_apply hw1, h0, e12]; rfl
  · intro i
    obtain ⟨a, a', rfl⟩ := idx2_cases i
    rw [e12]; exact prodM_isReal W hWr (k + 1) a a'
  · intro i
    obtain ⟨a, a', rfl⟩ := idx2_cases i
    rw [pay15_apply, W1_apply hw1]; exact h1 _ _ _

/-- A middle point's row: from biasR k, two row steps, through layer k + 1 and then layer k + 2. -/
theorem stepB_row (x0 : Vec Ideal S2x768x768 .bf16) (x2 : Vec Ideal S2x1x768 .f32) (xs1 : Vec Ideal S1x768 .f32)
    (W : ℕ → Fin 768 → Fin 768 → EReal) (b : ℕ → Fin 768 → EReal) (k : ℕ)
    (h0 : ∀ (s : Fin 2) (q j : Fin 768), x0 (ix3 s q j) = W (k + 1 + s.val) q j)
    (h2 : ∀ (s : Fin 2) (u : Fin 1) (q : Fin 768), x2 (ix3 s u q) = b (k + 1 + s.val) q)
    (hs : ∀ (u : Fin 1) (q : Fin 768), xs1 (ix2 u q) = biasR W b k q) (u : Fin 1) (q : Fin 768) :
    k0_pay4 (k0_pay14 (View.ld x0 (Rect.unit (s := S2x768x768) ![1, 0, 0] S1x768x768.size hw1)))
        (View.ld x2 (Rect.unit (s := S2x1x768) ![1, 0, 0] S1x1x768.size hb1))
        (k0_pay13 (View.ld x0 (Rect.unit (s := S2x768x768) ![0, 0, 0] S1x768x768.size hw0))
          (View.ld x2 (Rect.unit (s := S2x1x768) ![0, 0, 0] S1x1x768.size hb0)) xs1) (ix2 u q)
      = biasR W b (k + 2) q := by
  -- the first of the two row steps: the row found against matrix k + 1, plus bias row k + 1
  have e13 : ∀ (u' : Fin 1) (j : Fin 768), k0_pay13 (View.ld x0 (Rect.unit (s := S2x768x768) ![0, 0, 0] S1x768x768.size hw0))
      (View.ld x2 (Rect.unit (s := S2x1x768) ![0, 0, 0] S1x1x768.size hb0)) xs1 (ix2 u' j) = biasR W b (k + 1) j := fun u' j => by
    rw [pay13_apply, B0_apply hb0, h2]
    show _ = (∑ j', biasR W b k j' * W (k + 1) j j') + b (k + 1) j
    refine congrArg (· + _) (Finset.sum_congr rfl fun j' _ => ?_)
    rw [hs, W0_apply hw0, h0]; rfl
  rw [pay4_apply, B1_apply hb1, h2]
  show _ = (∑ j, biasR W b (k + 1) j * W (k + 1 + 1) q j) + b (k + 1 + 1) q
  refine congrArg (· + _) (Finset.sum_congr rfl fun j _ => ?_)
  rw [e13, pay14_apply, W1_apply hw1, h0]; rfl

end Slots

/-- A late point's output block at (p, q): input row p against row q of the matrix found, plus entry q of the row found. -/
theorem stepC_out (x3 : Vec Ideal S2048x768 .f32) (xs0 : Vec Ideal S768x768 .f32) (xs1 : Vec Ideal S1x768 .f32)
    (xr : Fin 2048 → Fin 768 → EReal) (M : Fin 768 → Fin 768 → EReal) (r : Fin 768 → EReal)
    (h3 : ∀ (p : Fin 2048) (j : Fin 768), x3 (ix2 p j) = xr p j) (hs0 : ∀ q j : Fin 768, xs0 (ix2 q j) = M q j)
    (hs1 : ∀ (u : Fin 1) (q : Fin 768), xs1 (ix2 u q) = r q) (p : Fin 2048) (q : Fin 768) :
    k0_pay5 x3 xs0 xs1 (ix2 p q) = (∑ j, xr p j * M q j) + r q := by
  rw [pay5_apply, hs1]
  exact congrArg (· + _) (Finset.sum_congr rfl fun j _ => by rw [h3, hs0])

end Cert.KernelIdeal.Steps

end
-- ==== Proof.KernelInduct.lean ====
/-
  The induction over the grid.

  After point n the matrix buffer holds the running product up to layer 2n+1 and the row buffer the running bias row up
  to that layer, for n < 10; from point 9 on both are those of layer 19.  The first point starts from layer 0 and applies
  layer 1; a point of the middle stretch applies layers 2n and 2n+1 to what the point before left; a later point leaves
  both buffers as they are and writes, into its output block, the block of input rows against the rows of the product,
  plus the bias row.
-/
import proofs.«123963_g79869211837047_cont_9to1_m_368_32_alg».proof.Proof.KernelValue
import proofs.«123963_g79869211837047_cont_9to1_m_368_32_alg».proof.Proof.KernelSteps

set_option maxRecDepth 16384

noncomputable section

namespace Cert.KernelIdeal.Carried

open Idealize.ShloMosaic Idealize.ShloMosaic.TcCoe Idealize.ShloMosaic.ValueIdx Idealize.SL.Sem
open Cert.KernelIdeal Cert.KernelIdeal.Gen Cert.KernelIdeal.Body Cert.KernelIdeal.Steps
open Cert.AffineChain Cert.Lib.ERealSums

variable (m : (ℓ : Loc nD τ sig) → Buf (Elt Ideal) ℓ) (c : Dev nD)

theorem Wn_real (hW : ∀ i, IsReal ((m ((c : Thread nD τ).loc main_arg1) : S20x768x768.Idx → EReal) i)) (k : ℕ) (q j : Fin 768) : IsReal (Wn m c k q j) := wOf_isReal hW k q j

/-- The last layer folded into the two buffers after point n. -/
def lastLayer (n : ℕ) : ℕ := if n < 10 then 2 * n + 1 else 19

theorem lastLayer_lt {n : ℕ} (h : n < 10) : lastLayer n = 2 * n + 1 := if_pos h
theorem lastLayer_ge {n : ℕ} (h : 9 ≤ n) : lastLayer n = 19 := by
  unfold lastLayer; split <;> omega

set_option maxHeartbeats 2000000 in
/-- What the two buffers hold after point n. -/
theorem carried (hW : ∀ i, IsReal ((m ((c : Thread nD τ).loc main_arg1) : S20x768x768.Idx → EReal) i)) (n : ℕ) (hn : n < cfg0.N) :
    (∀ (q j : Fin 768), (outsAt0 m c n hn).2.1 (ix2 q j) = prodM (Wn m c) (lastLayer n) q j)
    ∧ (∀ (u : Fin 1) (q : Fin 768), (outsAt0 m c n hn).2.2 (ix2 u q) = biasR (Wn m c) (bn m c) (lastLayer n) q) := by
  induction n with
  | zero =>
    refine ⟨fun q j => ?_, fun u q => ?_⟩
    · exact (congrFun (matA m c ⟨0, hn⟩ rfl) (ix2 q j)).trans
        (stepA_mat hw0 hw1 hb0 hb1 (blk0 m c ⟨0, hn⟩) (blk1 m c ⟨0, hn⟩) (Wn m c) (Wn_real m c hW)
          (fun s q j => blk_hi m c ⟨0, hn⟩ s s.val (by show s.val = 2 * min 0 9 + s.val; simp) q j)
          (fun s q j => blk_lo m c hW ⟨0, hn⟩ s q j) q j)
    · exact (congrFun (rowA m c ⟨0, hn⟩ rfl) (ix2 u q)).trans
        (stepA_row hw0 hw1 hb0 hb1 (blk0 m c ⟨0, hn⟩) (blk2 m c ⟨0, hn⟩) (Wn m c) (bn m c)
          (fun s q j => blk_hi m c ⟨0, hn⟩ s s.val (by show s.val = 2 * min 0 9 + s.val; simp) q j)
          (fun s u q => blk_bias m c ⟨0, hn⟩ s s.val (by show s.val = 2 * min 0 9 + s.val; simp) u q) u q)
  | succ n ih =>
    have hn' : n < cfg0.N := Nat.lt_of_succ_lt hn
    obtain ⟨ihM, ihR⟩ := ih hn'
    have hp : prev0 m c ⟨n + 1, hn⟩ = outsAt0 m c n hn' := rfl
    by_cases hb : n + 1 < 10
    · have hl : lastLayer n = 2 * n + 1 := lastLayer_lt (by omega)
      have hl' : lastLayer (n + 1) = 2 * n + 1 + 2 := by rw [lastLayer_lt hb]; omega
      rw [hl] at ihM ihR
      rw [hl']
      have hmin : min (n + 1) 9 = n + 1 := Nat.min_eq_left (by omega)
      have hk : ∀ s : Fin 2, 2 * n + 1 + 1 + s.val = 2 * min (⟨n + 1, hn⟩ : Fin cfg0.N).val 9 + s.val := fun s => by
        show 2 * n + 1 + 1 + s.val = 2 * min (n + 1) 9 + s.val
        rw [hmin]; omega
      refine ⟨fun q j => ?_, fun u q => ?_⟩
      · exact (congrFun (matB m c ⟨n + 1, hn⟩ (Nat.succ_pos n) hb) (ix2 q j)).trans
          (stepB_mat hw0 hw1 hb0 hb1 (blk0 m c ⟨n + 1, hn⟩) (blk1 m c ⟨n + 1, hn⟩) (prev0 m c ⟨n + 1, hn⟩).2.1 (Wn m c) (Wn_real m c hW)
            (2 * n + 1) (fun s q j => blk_hi m c ⟨n + 1, hn⟩ s _ (hk s) q j) (fun s q j => blk_lo m c hW ⟨n + 1, hn⟩ s q j)
            (fun q j => by rw [hp]; exact ihM q j) q j)
      · exact (congrFun (rowB m c ⟨n + 1, hn⟩ (Nat.succ_pos n) hb) (ix2 u q)).trans
          (stepB_row hw0 hw1 hb0 hb1 (blk0 m c ⟨n + 1, hn⟩) (blk2 m c ⟨n + 1, hn⟩) (prev0 m c ⟨n + 1, hn⟩).2.2 (Wn m c) (bn m c)
            (2 * n + 1) (fun s q j => blk_hi m c ⟨n + 1, hn⟩ s _ (hk s) q j) (fun s u q => blk_bias m c ⟨n + 1, hn⟩ s _ (hk s) u q)
            (fun u q => by rw [hp]; exact ihR u q) u q)
    · have hl : lastLayer n = 19 := lastLayer_ge (by omega)
      have hl' : lastLayer (n + 1) = 19 := lastLayer_ge (by omega)
      rw [hl] at ihM ihR
      rw [hl']
      have hk := keepC m c ⟨n + 1, hn⟩ (by show 10 ≤ n + 1; omega)
      rw [hp] at hk
      refine ⟨fun q j => ?_, fun u q => ?_⟩
      · exact (congrFun (congrArg (fun o => o.1) hk) (ix2 q j)).trans (ihM q j)
      · exact (congrFun (congrArg (fun o => o.2) hk) (ix2 u q)).trans (ihR u q)

/-- The output block after a point t ≥ 10. -/
theorem out_apply (hW : ∀ i, IsReal ((m ((c : Thread nD τ).loc main_arg1) : S20x768x768.Idx → EReal) i)) (t : Fin cfg0.N) (h : 10 ≤ t.val) (p : Fin 2048) (P : Fin 32768) (hP : P.val = 2048 * (t.val - 10) + p.val)
    (q : Fin 768) :
    (outsAt0 m c t.val t.isLt).1 (ix2 p q)
      = (∑ j, xn m c P j * prodM (Wn m c) 19 q j) + biasR (Wn m c) (bn m c) 19 q := by
  have hN : cfg0.N = 26 := N_0
  have ht := t.isLt
  have hlt : t.val - 1 < cfg0.N := by omega
  obtain ⟨cM, cR⟩ := carried m c hW (t.val - 1) hlt
  rw [lastLayer_ge (by omega)] at cM cR
  have hx : ∀ p' : Fin 2048, 2048 * (t.val - 10) + p'.val < 32768 := fun p' => by have := p'.isLt; omega
  have e := (congrFun (outC m c t h) (ix2 p q)).trans
    (stepC_out (blk3 m c t) (prev0 m c t).2.1 (prev0 m c t).2.2
      (fun p' j => xn m c ⟨2048 * (t.val - 10) + p'.val, hx p'⟩ j) (prodM (Wn m c) 19) (biasR (Wn m c) (bn m c) 19)
      (fun p' j => blk_x m c t p' ⟨2048 * (t.val - 10) + p'.val, hx p'⟩ rfl j) (fun q j => cM q j) (fun u q => cR u q) p q)
  rw [e]
  have hPe : P = ⟨2048 * (t.val - 10) + p.val, hx p⟩ := Fin.ext hP
  rw [hPe]

end Cert.KernelIdeal.Carried

end
-- ==== Proof.KernelFinal.lean ====
/-
  The kernel's result array, assembled from the blocks its grid points write back.

  The result array has 32768 rows of 768 entries and is written in sixteen blocks of 2048 rows. The grid has 26 points:
  at points 0 to 9 the output operand is idle and nothing is written back; at point t = 10, …, 25 the body's output block
  is written back to rows 2048·(t - 10) … 2048·(t - 10) + 2047. Those sixteen row ranges are disjoint and fill the
  array: row r lies in the block of point 10 + r / 2048 and in no other. So if one function G of the array's indices
  agrees, on each of these blocks, with what the body leaves at that point — entry (y₀, y₁) of the block of point t
  being G at (2048·(t - 10) + y₀, y₁) — then the array ends holding G everywhere, and the three argument arrays are as
  they were.
-/
import proofs.«123963_g79869211837047_cont_9to1_m_368_32_alg».proof.Proof.KBodyFrame
import proofs.«123963_g79869211837047_cont_9to1_m_368_32_alg».proof.Proof.KernelBlocks
import Idealize.ShloMosaic.Lib.Pipeline.Value

noncomputable section

namespace Cert.KernelIdeal.Final

open Idealize.ShloMosaic Idealize.ShloMosaic.TcCoe Idealize.SL.Sem
open Idealize.ShloMosaic.Pipeline (Dat)
open Cert.KernelIdeal Cert.KernelIdeal.Gen Cert.KernelIdeal.Body Cert.KernelIdeal.Blocks

variable {F : FTy → Type} [FloatOps F]
variable (m : (ℓ : Loc nD τ sig) → Buf (Elt F) ℓ) (ρ : Dev nD → PrngReg)

/-- The output block is written back exactly at the points from 10 on: there its block index t - 10 differs from
    the next point's (or the point is the last), while at the points before it stays 0. -/
theorem flush4_iff : ∀ t : Fin cfg0.N, (cfg0.win 4).flush t = true ↔ 10 ≤ t.val :=
  (by decide +kernel : ∀ t : Fin grid0.N, _)

/-- An index of the array is in the block of point t exactly when, on each axis, its coordinate is within one block
    extent above the block index times the extent. -/
theorem mem_blk4 (t : Fin cfg0.N) (i : S32768x768.Idx) :
    i ∈ ((cfg0.win 4).blk t).view.set ↔ ∀ a : Fin 2, win0_4.index t a * S2048x768.size a ≤ (i a).val
      ∧ (i a).val < win0_4.index t a * S2048x768.size a + S2048x768.size a := by
  show i ∈ ((View.whole main_v0).slice (win0_4.rect t)).set ↔ _
  rw [View.set_slice_whole, Rect.mem_set_unit]
  exact Iff.rfl

section
variable (c : Dev nD) (G : S32768x768.Idx → Elt F .f32)
  (hG : ∀ (t : Fin cfg0.N), 10 ≤ t.val → ∀ (y : S2048x768.Idx) (k : S32768x768.Idx),
    (k 0).val = 2048 * (t.val - 10) + (y 0).val → (k 1).val = (y 1).val → (outsAt0 m c t.val t.isLt).1 y = G k)
include hG

/-- What a point from 10 on writes back is its block of G: entry y of the block sits in the array at
    (block index · 2048 + y₀, 0 · 768 + y₁), the block index being t - 10, and there G is what the body left at y. -/
theorem flushed_eq (t : Fin cfg0.N) (hf : (cfg0.win 4).flush t = true) :
    (dats m 0 c).flushed 4 t = ((cfg0.win 4).blk t).view.read (Elt F) G := by
  have h10 : 10 ≤ t.val := (flush4_iff t).mp hf
  obtain ⟨-, h0, h1⟩ := index_x t
  show (cfg0.win 4).cut (grid0.coords t) ((dats m 0 c).after 4 t) = _
  rw [after0_4]
  funext y
  rw [View.read_apply]
  refine hG t h10 _ _ ?_ ?_
  · show win0_4.index t 0 * 2048 + 1 * (y 0).val = 2048 * (t.val - 10) + (y 0).val
    rw [h0]; omega
  · show win0_4.index t 1 * 768 + 1 * (y 1).val = (y 1).val
    rw [h1]; omega

/-- The array after the last point is G: every index (r, q) is in the block of point 10 + r / 2048, whose block
    index on the rows is r / 2048 — and (r / 2048)·2048 ≤ r < (r / 2048)·2048 + 2048 — and on the columns is 0. -/
theorem final_of : (dats m 0 c).arrAt 4 cfg0.N = G :=
  (dats m 0 c).arrAt_eq_of_cover 4 G (flushed_eq m c G hG) fun (i : S32768x768.Idx) => by
    have hi0 : (i 0).val < 32768 := (i 0).isLt
    have hi1 : (i 1).val < 768 := (i 1).isLt
    have hN : cfg0.N = 26 := N_0
    have hlt : 10 + (i 0).val / 2048 < cfg0.N := by omega
    obtain ⟨-, h0, h1⟩ := index_x ⟨10 + (i 0).val / 2048, hlt⟩
    have h0' : win0_4.index ⟨10 + (i 0).val / 2048, hlt⟩ 0 = (i 0).val / 2048 := by
      rw [h0]; show 10 + (i 0).val / 2048 - 10 = _; omega
    refine ⟨⟨10 + (i 0).val / 2048, hlt⟩, (flush4_iff _).mpr (Nat.le_add_right _ _), ?_⟩
    rw [mem_blk4]
    intro a
    match a with
    | ⟨0, _⟩ =>
      show win0_4.index ⟨10 + (i 0).val / 2048, hlt⟩ 0 * 2048 ≤ (i 0).val
        ∧ (i 0).val < win0_4.index ⟨10 + (i 0).val / 2048, hlt⟩ 0 * 2048 + 2048
      rw [h0']; omega
    | ⟨1, _⟩ =>
      show win0_4.index ⟨10 + (i 0).val / 2048, hlt⟩ 1 * 768 ≤ (i 1).val
        ∧ (i 1).val < win0_4.index ⟨10 + (i 0).val / 2048, hlt⟩ 1 * 768 + 768
      rw [h1]; omega

end

/-- The run, read: every execution of the kernel's program from a memory m ends with the result array at G and the
    three arguments unchanged, for any G that agrees with the body's output block at every point from 10 on. The result
    array is the pipeline's fifth array, read after the last point; the input array is its fourth, never written back;
    the weight and bias tables are not among the pipeline's arrays and keep what they held. -/
theorem run_of (G : (c : Dev nD) → S32768x768.Idx → Elt F .f32)
    (hG : ∀ (c : Dev nD) (t : Fin cfg0.N), 10 ≤ t.val → ∀ (y : S2048x768.Idx) (k : S32768x768.Idx),
      (k 0).val = 2048 * (t.val - 10) + (y 0).val → (k 1).val = (y 1).val → (outsAt0 m c t.val t.isLt).1 y = G c k) :
    θ_run defs (onTc (τ := τ) (main (F := F))) ⟨m, fun _ => 0, ρ⟩ (fun r => ∀ c : Dev nD,
      r.2.mem ((c.tc : Thread nD τ).loc main_v0) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 4).trans (final_of m c (G c) (hG c)),
      ((h c).1 3).trans (((dats m 0 c).arrAt_in 3 rfl _).trans ((A_eq m c 3).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Final

end
-- ==== Proof.KernelRun.lean ====
/-
  The idealized kernel's run, read: for real-valued inputs the result array is the one affine map of the input,
  x · (W₁₉ ⋯ W₀)ᵀ + r₁₉, entry by entry, and the three argument arrays are unchanged.

  Each of the last sixteen grid points writes back one block of 2048 rows; the blocks tile the result array, and the
  block written at point t holds, at (p, q), Σ_j x(2048 (t - 10) + p, j) · M₁₉(q, j) + r₁₉(q).
-/
import proofs.«123963_g79869211837047_cont_9to1_m_368_32_alg».proof.Proof.KernelInduct
import proofs.«123963_g79869211837047_cont_9to1_m_368_32_alg».proof.Proof.KernelFinal
import proofs.«123963_g79869211837047_cont_9to1_m_368_32_alg».proof.Proof.ChainArgs

noncomputable section

namespace Cert.KernelIdeal.Carried

open Idealize.ShloMosaic Idealize.ShloMosaic.TcCoe Idealize.ShloMosaic.ValueIdx Idealize.SL.Sem
open Cert.KernelIdeal Cert.KernelIdeal.Gen Cert.AffineChain Cert.Lib.ERealSums

/-- The result array of the collapsed chain: at (p, q), Σ_j x(p, j) · M₁₉(q, j) + r₁₉(q). -/
def result (X : S32768x768.Idx → EReal) (Wa : S20x768x768.Idx → EReal) (Ba : S20x768.Idx → EReal) : S32768x768.Idx → EReal :=
  fun i => (∑ j, xOf X (i 0) j * prodM (wOf Wa) 19 (i 1) j) + biasR (wOf Wa) (bOf Ba) 19 (i 1)

theorem kernel_run (m : (ℓ : Loc nD τ sig) → Buf (Elt Ideal) ℓ) (ρ : Dev nD → PrngReg)
    (hX : ∀ (c : Dev nD) i, IsReal ((m ((c.tc : Thread nD τ).loc main_arg0) : S32768x768.Idx → EReal) i))
    (hW : ∀ (c : Dev nD) i, IsReal ((m ((c.tc : Thread nD τ).loc main_arg1) : S20x768x768.Idx → EReal) i))
    (hB : ∀ (c : Dev nD) i, IsReal ((m ((c.tc : Thread nD τ).loc main_arg2) : S20x768.Idx → EReal) i)) :
    θ_run (defs (F := Ideal)) (onTc (τ := τ) (main (F := Ideal))) ⟨m, fun _ => 0, ρ⟩ fun r => ∀ c : Dev nD,
      r.2.mem ((c.tc : Thread nD τ).loc main_v0)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.KernelIdeal.Final.run_of m ρ
    (fun c => result (m ((c.tc : Thread nD τ).loc main_arg0)) (m ((c.tc : Thread nD τ).loc main_arg1)) (m ((c.tc : Thread nD τ).loc main_arg2)))
    (fun c t h y k hk0 hk1 => by
      obtain ⟨p, q, rfl⟩ : ∃ (p : Fin 2048) (q : Fin 768), y = ix2 p q := ⟨y 0, y 1, eq_ix2 y⟩
      obtain ⟨P, q', rfl⟩ : ∃ (P : Fin 32768) (q' : Fin 768), k = ix2 P q' := ⟨k 0, k 1, eq_ix2 k⟩
      obtain rfl : q' = q := Fin.ext hk1
      exact out_apply m c (hW c) t h p P hk0 q')

end Cert.KernelIdeal.Carried

end
-- ==== Proof.RefLayer.lean ====
/-
  One affine layer of the reference computation, read at an index.

  Each of the twenty layers takes the current activation h (32768 rows, 768 columns), cuts matrix k out of the weight
  table and row k out of the bias table, and forms   h · (matrix k)ᵀ + (row k, repeated on every row).
  Read at row p and column q this is
      Σ_j h(p, j) · W(k, q, j) + B(k, q):
  the cut of the weight table at offset (k, 0, 0) with its unit axis dropped is the matrix (q, j) ↦ W(k, q, j), its
  transpose is (j, q) ↦ W(k, q, j), and the product contracts the activation's columns against the transposed
  matrix's rows; the cut of the bias table at offset (k, 0), unit axis dropped, is q ↦ B(k, q), and the two stretches
  copy it to every row. The layer number k is a variable and the two range conditions of the cuts are hypotheses, so
  the one statement serves every layer.
-/
import proofs.«123963_g79869211837047_cont_9to1_m_368_32_alg».proof.Proof.Gen.ReferenceIdeal.Run
import proofs.«123963_g79869211837047_cont_9to1_m_368_32_alg».proof.Proof.LibPlainDot
import Idealize.ShloMosaic.Lib.Pipeline.Value

noncomputable section

namespace Cert.RefChain

open Cert.ReferenceIdeal Cert.ReferenceIdeal.Gen Idealize.ShloMosaic Idealize.ShloMosaic.ValueIdx

/-- The matrix operand of layer k: block k of the weight table, its unit axis dropped, transposed. -/
def wT (k : ℕ) (hs : S20x768x768.Slices ![k, 0, 0] S1x768x768) (Wa : FVec Ideal S20x768x768 .f32) :
    FVec Ideal S768x768 .f32 :=
  transpose S768x768 [1, 0] (shapeCast _ (extractStridedSlice S1x768x768 ![k, 0, 0] Wa hs)
    shapeCasts_S1x768x768_S768x768) transposes_S768x768_S768x768_1_0

/-- The transposed block at (j, q) is the weight table at (k, q, j). -/
theorem wT_apply (k : ℕ) (hk : k < 20) (hs : S20x768x768.Slices ![k, 0, 0] S1x768x768)
    (Wa : FVec Ideal S20x768x768 .f32) (j q : Fin 768) :
    wT k hs Wa (ix2 j q) = Wa (ix3 ⟨k, hk⟩ q j) := by
  unfold wT
  -- the transpose reads (q, j)
  refine (transpose_apply [1, 0] _ _ (ix2 j q) (ix2 q j) ?_).trans ?_
  · intro b
    match b with
    | ⟨0, _⟩ => rfl
    | ⟨1, _⟩ => rfl
  -- dropping the unit axis reads (0, q, j)
  refine (shapeCast_dropUnit_apply ![768, 768] _ _ (ix2 q j)).trans ?_
  -- and the cut shifts the leading coordinate by k
  refine extractStridedSlice_apply ![k, 0, 0] Wa hs _ (ix3 ⟨k, hk⟩ q j) ?_
  intro a
  match a with
  | ⟨0, _⟩ => rfl
  | ⟨1, _⟩ => exact (Nat.zero_add _).symm
  | ⟨2, _⟩ => exact (Nat.zero_add _).symm

/-- The bias operand of layer k: row k of the bias table, its unit axis dropped, copied to every row. -/
def bB (k : ℕ) (hs' : S20x768.Slices ![k, 0] S1x768) (Ba : FVec Ideal S20x768 .f32) :
    FVec Ideal S32768x768 .f32 :=
  broadcastInDim S32768x768 ![0, 1] bcast_S1x768_S32768x768_0_1 (broadcastInDim S1x768 ![1] bcast_S768_S1x768_1
    (shapeCast _ (extractStridedSlice S1x768 ![k, 0] Ba hs') shapeCasts_S1x768_S768))

/-- The stretched row at (p, q) is the bias table at (k, q), whatever the row p. -/
theorem bB_apply (k : ℕ) (hk : k < 20) (hs' : S20x768.Slices ![k, 0] S1x768)
    (Ba : FVec Ideal S20x768 .f32) (p : Fin 32768) (q : Fin 768) :
    bB k hs' Ba (ix2 p q) = Ba (ix2 ⟨k, hk⟩ q) := by
  unfold bB
  -- the stretch over the rows reads (0, q) of the one-row array
  refine (broadcastInDim_apply ![0, 1] _ _ (ix2 p q) (ix2 ⟨0, Nat.one_pos⟩ q) ?_).trans ?_
  · intro a
    match a with
    | ⟨0, _⟩ => rfl
    | ⟨1, _⟩ => rfl
  -- the new leading unit axis reads q of the row
  refine (broadcastInDim_apply ![1] _ _ (ix2 ⟨0, Nat.one_pos⟩ q) (ix1 q) ?_).trans ?_
  · intro a
    match a with
    | ⟨0, _⟩ => rfl
  -- dropping the unit axis reads (0, q)
  refine (shapeCast_dropUnit_apply ![768] _ _ (ix1 q)).trans ?_
  -- and the cut shifts the leading coordinate by k
  refine extractStridedSlice_apply ![k, 0] Ba hs' _ (ix2 ⟨k, hk⟩ q) ?_
  intro a
  match a with
  | ⟨0, _⟩ => rfl
  | ⟨1, _⟩ => exact (Nat.zero_add _).symm

/-- One layer, as the program writes it: the nine operations from the current activation to the next. -/
def layerTerm (k : ℕ) (hs : S20x768x768.Slices ![k, 0, 0] S1x768x768) (hs' : S20x768.Slices ![k, 0] S1x768)
    (h : FVec Ideal S32768x768 .f32) (Wa : FVec Ideal S20x768x768 .f32) (Ba : FVec Ideal S20x768 .f32) :
    FVec Ideal S32768x768 .f32 :=
  addf (Host.dotGeneral dot_S32768x768_S768x768_S32768x768_1_0_0_1_n_n none h
      (transpose S768x768 [1, 0] (shapeCast _ (extractStridedSlice S1x768x768 ![k, 0, 0] Wa hs)
        shapeCasts_S1x768x768_S768x768) transposes_S768x768_S768x768_1_0))
    (broadcastInDim S32768x768 ![0, 1] bcast_S1x768_S32768x768_0_1 (broadcastInDim S1x768 ![1] bcast_S768_S1x768_1
      (shapeCast _ (extractStridedSlice S1x768 ![k, 0] Ba hs') shapeCasts_S1x768_S768)))

/-- The layer at (p, q): the activation's row p against row q of matrix k, plus entry q of bias row k. -/
theorem layerTerm_apply (k : ℕ) (hk : k < 20) (hs : S20x768x768.Slices ![k, 0, 0] S1x768x768)
    (hs' : S20x768.Slices ![k, 0] S1x768) (h : FVec Ideal S32768x768 .f32) (Wa : FVec Ideal S20x768x768 .f32)
    (Ba : FVec Ideal S20x768 .f32) (p : Fin 32768) (q : Fin 768) :
    layerTerm k hs hs' h Wa Ba (ix2 p q)
      = (∑ j : Fin 768, h (ix2 p j) * Wa (ix3 ⟨k, hk⟩ q j)) + Ba (ix2 ⟨k, hk⟩ q) := by
  show addf (Host.dotGeneral dot_S32768x768_S768x768_S32768x768_1_0_0_1_n_n none h (wT k hs Wa)) (bB k hs' Ba)
    (ix2 p q) = _
  rw [addf_apply, bB_apply k hk,
    Cert.Lib.PlainDot.dotGeneral_apply dot_S32768x768_S768x768_S32768x768_1_0_0_1_n_n rfl rfl
      (fun _ _ => rfl) (fun _ _ => rfl) (fun _ _ => rfl) (fun _ _ => rfl) none h (wT k hs Wa) p q]
  congr 1
  exact Finset.sum_congr rfl fun j _ => by rw [wT_apply k hk]

end Cert.RefChain

end
-- ==== Proof.RefChain.lean ====
/-
  The reference computation is the chain of twenty affine layers.

  The program starts from the input array and applies the layer of RefLayer.lean twenty times, layer k cutting matrix k
  and bias row k out of the two tables. `chain n` is the activation after the first n layers, written with the
  program's own operations; at n = 20 it is, operation for operation, the term the program's run ends with. Read at
  row p and column q, `chain n` is `layers n p q` of AffineChain.lean for the input, the matrices and the bias rows
  read off the three arrays: by induction on n, each step being the layer read at an index.
-/
import proofs.«123963_g79869211837047_cont_9to1_m_368_32_alg».proof.Proof.RefLayer
import proofs.«123963_g79869211837047_cont_9to1_m_368_32_alg».proof.Proof.ChainArgs

noncomputable section

namespace Cert.RefChain

open Cert.ReferenceIdeal Cert.ReferenceIdeal.Gen Idealize.ShloMosaic Idealize.ShloMosaic.ValueIdx Cert.AffineChain

/-- For k < 20, one matrix at offset (k, 0, 0) lies inside the table of twenty: k + 1 ≤ 20 and 0 + 768 ≤ 768. -/
theorem slicesW (k : ℕ) (hk : k < 20) : S20x768x768.Slices ![k, 0, 0] S1x768x768 :=
  ⟨rfl, fun a => by
    match a with
    | ⟨0, _⟩ => show k + 1 ≤ 20; omega
    | ⟨1, _⟩ => show 0 + 768 ≤ 768; omega
    | ⟨2, _⟩ => show 0 + 768 ≤ 768; omega⟩

/-- For k < 20, one row at offset (k, 0) lies inside the table of twenty rows. -/
theorem slicesB (k : ℕ) (hk : k < 20) : S20x768.Slices ![k, 0] S1x768 :=
  ⟨rfl, fun a => by
    match a with
    | ⟨0, _⟩ => show k + 1 ≤ 20; omega
    | ⟨1, _⟩ => show 0 + 768 ≤ 768; omega⟩

/-- The activation after the first n layers (n ≤ 20), in the program's operations. -/
def chain (X : FVec Ideal S32768x768 .f32) (Wa : FVec Ideal S20x768x768 .f32) (Ba : FVec Ideal S20x768 .f32) :
    (n : ℕ) → n ≤ 20 → FVec Ideal S32768x768 .f32
  | 0, _ => X
  | k + 1, h => layerTerm k (slicesW k h) (slicesB k h) (chain X Wa Ba k (Nat.le_of_succ_le h)) Wa Ba

/-- After n layers, row p and column q hold `layers n p q`: nothing to do at n = 0; at n = k + 1 the layer read at
    (p, q) is Σ_j (activation after k layers)(p, j) · W(k, q, j) + B(k, q), the induction hypothesis rewrites the
    activation under the sum, and k < 20 picks the table entries in `wOf` and `bOf`. -/
theorem chain_apply (X : FVec Ideal S32768x768 .f32) (Wa : FVec Ideal S20x768x768 .f32) (Ba : FVec Ideal S20x768 .f32) :
    ∀ (n : ℕ) (hn : n ≤ 20) (p : Fin 32768) (q : Fin 768),
      chain X Wa Ba n hn (ix2 p q) = layers (xOf X) (wOf Wa) (bOf Ba) n p q
  | 0, _, _, _ => rfl
  | k + 1, hn, p, q => by
    rw [chain, layerTerm_apply k hn, layers_succ, bOf_lt Ba hn]
    congr 1
    exact Finset.sum_congr rfl fun j _ => by rw [chain_apply X Wa Ba k _ p j, wOf_lt Wa hn]

/-- The result array at (p, q) is the twentieth iterate. -/
theorem result_apply (X : FVec Ideal S32768x768 .f32) (Wa : FVec Ideal S20x768x768 .f32) (Ba : FVec Ideal S20x768 .f32)
    (p : Fin 32768) (q : Fin 768) :
    chain X Wa Ba 20 (le_refl 20) (ix2 p q) = layers (xOf X) (wOf Wa) (bOf Ba) 20 p q :=
  chain_apply X Wa Ba 20 _ p q

/-- The result array as a function of the index: every index is the pair of its two coordinates. -/
theorem chain_eq (X : FVec Ideal S32768x768 .f32) (Wa : FVec Ideal S20x768x768 .f32) (Ba : FVec Ideal S20x768 .f32) :
    chain X Wa Ba 20 (le_refl 20) = fun i => layers (xOf X) (wOf Wa) (bOf Ba) 20 (i 0) (i 1) :=
  funext fun i => (congrArg _ (eq_ix2 i)).trans (chain_apply X Wa Ba 20 _ (i 0) (i 1))

open Idealize.ShloMosaic.TcCoe Idealize.SL.Sem Idealize.ShloMosaic.StableHlo

set_option maxRecDepth 8192 in
/-- The term the program's run leaves in its result buffer is `chain 20` of the three arguments' contents: the run's
    term is the twenty layers nested, two stretches of it under a name, and unfolding both sides gives the same
    operations on the same operands. -/
theorem val4_eq_chain (V0 : Valuation τ sig (Elt Ideal)) :
    Cert.ReferenceIdeal.Value.val4 V0 (no_index (Proc.devRef .tc main_v180))
      = chain (V0 (Proc.devRef .tc main_arg0)) (V0 (Proc.devRef .tc main_arg1)) (V0 (Proc.devRef .tc main_arg2))
          20 (le_refl 20) :=
  Cert.ReferenceIdeal.Value.val4_main_v180 V0

set_option maxRecDepth 8192 in
/-- Every execution of the reference program from a memory m ends with the result buffer holding, at each index
    (p, q), the twentieth iterate of the affine chain on m's three argument arrays, and with the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v180)
          = (fun i => layers (xOf (m ((c.tc : Thread nD τ).loc main_arg0))) (wOf (m ((c.tc : Thread nD τ).loc main_arg1)))
              (bOf (m ((c.tc : Thread nD τ).loc main_arg2))) 20 (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (chain_eq (m ((c.tc : Thread nD τ).loc main_arg0))
      (m ((c.tc : Thread nD τ).loc main_arg1)) (m ((c.tc : Thread nD τ).loc main_arg2))), (h c).2⟩)
    (Cert.ReferenceIdeal.Value.run (F := Ideal) m ρ)

end Cert.RefChain

end
-- ==== Proof.LibAffineCollapse.lean ====
/-
  The collapse of a chain of affine layers, for real-valued data.

  Over the reals the chain  h ↦ h · (W k)ᵀ + b k  applied k+1 times to x is  x · (prodM k)ᵀ + biasR k:
  one step further,
     Σ_l (Σ_j x(p,j) M(l,j) + r(l)) · W'(q,l) + b'(q)
       = Σ_j x(p,j) · (Σ_l W'(q,l) M(l,j)) + (Σ_l r(l) W'(q,l) + b'(q)),
  by distributivity and the exchange of the two finite sums.  On the extended reals the same holds when every
  entry is (the image of) a real: the three recursions commute with the inclusion of the reals.
-/
import proofs.«123963_g79869211837047_cont_9to1_m_368_32_alg».proof.Proof.LibAffineChain

noncomputable section

namespace Cert.AffineChain

open Cert.Lib.ERealSums

variable {P J : Type} [Fintype J]

/-! ## Over the reals -/

/-- The chain over the reals. -/
def layersR (x : P → J → ℝ) (W : ℕ → J → J → ℝ) (b : ℕ → J → ℝ) : ℕ → P → J → ℝ
  | 0 => x
  | k + 1 => fun p q => (∑ j, layersR x W b k p j * W k q j) + b k q

/-- The running product over the reals. -/
def prodMR (W : ℕ → J → J → ℝ) : ℕ → J → J → ℝ
  | 0 => W 0
  | k + 1 => fun q j => ∑ l, W (k + 1) q l * prodMR W k l j

/-- The running bias row over the reals. -/
def biasRR (W : ℕ → J → J → ℝ) (b : ℕ → J → ℝ) : ℕ → J → ℝ
  | 0 => b 0
  | k + 1 => fun q => (∑ j, biasRR W b k j * W (k + 1) q j) + b (k + 1) q

/-- The chain is one affine map, over the reals. -/
theorem collapseR (x : P → J → ℝ) (W : ℕ → J → J → ℝ) (b : ℕ → J → ℝ) :
    ∀ (k : ℕ) (p : P) (q : J), layersR x W b (k + 1) p q = (∑ j, x p j * prodMR W k q j) + biasRR W b k q
  | 0, p, q => rfl
  | k + 1, p, q => by
    show (∑ l, layersR x W b (k + 1) p l * W (k + 1) q l) + b (k + 1) q
      = (∑ j, x p j * ∑ l, W (k + 1) q l * prodMR W k l j) + ((∑ l, biasRR W b k l * W (k + 1) q l) + b (k + 1) q)
    have ih : ∀ l, layersR x W b (k + 1) p l = (∑ j, x p j * prodMR W k l j) + biasRR W b k l :=
      fun l => collapseR x W b k p l
    simp only [ih, add_mul, Finset.sum_add_distrib, Finset.sum_mul, Finset.mul_sum]
    rw [Finset.sum_comm, add_assoc]
    congr 1
    refine Finset.sum_congr rfl fun j _ => Finset.sum_congr rfl fun l _ => ?_
    ring

/-! ## The inclusion of the reals commutes with the three recursions -/

theorem layers_coe (x : P → J → ℝ) (W : ℕ → J → J → ℝ) (b : ℕ → J → ℝ) :
    ∀ (k : ℕ) (p : P) (q : J),
      layers (fun p j => (x p j : EReal)) (fun k q j => (W k q j : EReal)) (fun k q => (b k q : EReal)) k p q
        = (layersR x W b k p q : EReal)
  | 0, _, _ => rfl
  | k + 1, p, q => by
    rw [layers_succ]
    simp only [layers_coe x W b k]
    show _ = (((∑ j, layersR x W b k p j * W k q j) + b k q : ℝ) : EReal)
    rw [EReal.coe_add, coe_sum]
    simp only [EReal.coe_mul]

theorem prodM_coe (W : ℕ → J → J → ℝ) :
    ∀ (k : ℕ) (q j : J), prodM (fun k q j => (W k q j : EReal)) k q j = (prodMR W k q j : EReal)
  | 0, _, _ => rfl
  | k + 1, q, j => by
    rw [prodM_succ]
    simp only [prodM_coe W k]
    show _ = ((∑ l, W (k + 1) q l * prodMR W k l j : ℝ) : EReal)
    rw [coe_sum]
    simp only [EReal.coe_mul]

theorem biasR_coe (W : ℕ → J → J → ℝ) (b : ℕ → J → ℝ) :
    ∀ (k : ℕ) (q : J),
      biasR (fun k q j => (W k q j : EReal)) (fun k q => (b k q : EReal)) k q = (biasRR W b k q : EReal)
  | 0, _ => rfl
  | k + 1, q => by
    rw [biasR_succ]
    simp only [biasR_coe W b k]
    show _ = (((∑ j, biasRR W b k j * W (k + 1) q j) + b (k + 1) q : ℝ) : EReal)
    rw [EReal.coe_add, coe_sum]
    simp only [EReal.coe_mul]

/-! ## On the extended reals, for real-valued data -/

/-- THE COLLAPSE: for real-valued `x`, `W`, `b`, the input after `k+1` layers is the one affine map
    `x · (prodM k)ᵀ + biasR k`. -/
theorem collapse (x : P → J → EReal) (W : ℕ → J → J → EReal) (b : ℕ → J → EReal)
    (hx : ∀ p j, IsReal (x p j)) (hW : ∀ k q j, IsReal (W k q j)) (hb : ∀ k q, IsReal (b k q))
    (k : ℕ) (p : P) (q : J) :
    layers x W b (k + 1) p q = (∑ j, x p j * prodM W k q j) + biasR W b k q := by
  choose xr hxr using hx
  choose Wr hWr using hW
  choose br hbr using hb
  obtain rfl : x = fun p j => (xr p j : EReal) := funext fun p => funext fun j => hxr p j
  obtain rfl : W = fun k q j => (Wr k q j : EReal) := funext fun k => funext fun q => funext fun j => hWr k q j
  obtain rfl : b = fun k q => (br k q : EReal) := funext fun k => funext fun q => hbr k q
  rw [layers_coe, collapseR, EReal.coe_add, coe_sum, biasR_coe]
  simp only [EReal.coe_mul, prodM_coe]

end Cert.AffineChain

end
-- ==== Proof.LibFiniteEntries.lean ====
/-
  Finite entries are real numbers.

  A test "every entry of x is finite" is computed as the conjunction, over all entries, of the comparison |x| < +∞
  against the word of +∞, reduced to one bit. On the extended reals |x| = max x (-x), and max x (-x) < +∞ fails exactly
  at x = +∞ and at x = -∞. So when the reduced bit is 1, no entry is an infinity: every entry is a real number. Stated
  for one value and for an array of any shape, the test's result being the rank-0 array of one bit.
-/
import proofs.«123963_g79869211837047_cont_9to1_m_368_32_alg».proof.Proof.LibERealSums
import Idealize.ShloMosaic.PureOps.Ideal
import Idealize.ShloMosaic.Lib.ReduceAll
import Idealize.ShloMosaic.Lib.ValueIdx

noncomputable section

namespace Cert.Lib.FiniteEntries

open Idealize.ShloMosaic Cert.Lib.ERealSums

/-- The rank-0 shape has exactly one index. -/
instance : Subsingleton (⟨0, ![]⟩ : Shape).Idx := ⟨fun a b => funext fun d => d.elim0⟩

/-- One value: if the comparison |x| < +∞ holds of an extended real x, then x is a real number (it is neither +∞
    nor -∞). -/
theorem isReal_of_abs_lt_inf (x : Ideal .f32)
    (h : FloatOps.cmpf .olt (FloatOps.hostAbsf x) (FloatOps.ofBits (F := Ideal) .f32 0x7F800000#32) = 1#1) :
    IsReal x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- An array all of whose entries satisfy |x| < +∞ (the conjunction over all entries, reduced to one bit, is 1) has
    only real entries. -/
theorem isReal_of_all {S : Shape} {axes : List (Fin S.rank)} (x : FVec Ideal S .f32)
    (hb : (⟨0, ![]⟩ : Shape).BroadcastsInDim S (![] : Fin 0 → Fin S.rank)) (hr : S.ReducesTo axes (⟨0, ![]⟩ : Shape))
    (hu : 0 < (⟨0, ![]⟩ : Shape).numel)
    (h : Host.reduce IntOp.andi
          (cmpf .olt (Host.absf x) (broadcastInDim S ![] hb (constant (F := Ideal) (⟨0, ![]⟩ : Shape) .f32 0x7F800000#32)))
          (constantI (⟨0, ![]⟩ : Shape) 1 1#1) hr hu ValueIdx.ix0 = 1#1)
    (i : S.Idx) : IsReal (x i) := by
  have e := Host.reduce_andi_all _ _ hr hu _ h i
  exact isReal_of_abs_lt_inf (x i) e

end Cert.Lib.FiniteEntries

end
-- ==== Proof.FiniteInputs.lean ====
/-
  From the precondition to real entries.

  The precondition "every float input is finite" is the conjunction of three tests, one per argument array, each the
  conjunction over all entries of |x| < +∞.  When it reads 1, every entry of each of the three arrays is a real number.
-/
import proofs.«123963_g79869211837047_cont_9to1_m_368_32_alg».proof.Pre_finite_inputs
import proofs.«123963_g79869211837047_cont_9to1_m_368_32_alg».proof.Proof.LibFiniteEntries
import Idealize.ShloMosaic.Lib.Affine

noncomputable section

namespace Cert.FiniteInputs

open Idealize.ShloMosaic Cert.Lib.ERealSums Cert.Lib.FiniteEntries Cert.Pre_finite_inputs

variable [Cert.Pre_finite_inputs.Facts]

open Cert.Pre_finite_inputs.Facts

/-- If the finiteness test of the three argument arrays reads 1, every entry of each array is a real number. -/
theorem entries_real (X : FVec Ideal S32768x768 .f32) (Wa : FVec Ideal S20x768x768 .f32) (Ba : FVec Ideal S20x768 .f32)
    (h : Cert.Pre_finite_inputs.fn (F := Ideal) X Wa Ba = fun _ => 1#1) :
    (∀ i, IsReal (X i)) ∧ (∀ i, IsReal (Wa i)) ∧ (∀ i, IsReal (Ba i)) := by
  have h0 := congrFun h ValueIdx.ix0
  dsimp only [Cert.Pre_finite_inputs.fn, andi] at h0
  obtain ⟨h1, hB⟩ := IntOp.andi_eq_one.mp h0
  obtain ⟨hX, hW⟩ := IntOp.andi_eq_one.mp h1
  exact ⟨isReal_of_all X _ _ _ hX, isReal_of_all Wa _ _ _ hW, isReal_of_all Ba _ _ _ hB⟩

end Cert.FiniteInputs

end
-- ==== Proof.Claims.lean ====
/-
  The five claims about the kernel, its idealization and the reference.

  The reference applies twenty affine layers  h ↦ h · Wₖᵀ + bₖ  to the input, one after the other. The kernel first
  multiplies the twenty matrices together (and pushes the bias rows through them), and then applies the single
  resulting affine map  x ↦ x · (W₁₉ ⋯ W₀)ᵀ + r₁₉  to the input. With exact arithmetic on real entries the two agree,
  entry by entry: this is associativity of the matrix product together with distributivity of the product over the
  added bias. Both laws hold in the real field and fail at the infinities of the extended reals, which is why the
  precondition (every entry of the three argument arrays is finite) is used: it makes every entry a real number.

  The three frame claims say that each program terminates without fault and leaves its three argument arrays as they
  were. The idealized kernel differs from the kernel as compiled in three places, each the removal of a narrowing to
  bf16 followed by the widening back to f32: exact on the extended reals, a rounding on machine words.
-/
import proofs.«123963_g79869211837047_cont_9to1_m_368_32_alg».proof.Defs
import proofs.«123963_g79869211837047_cont_9to1_m_368_32_alg».proof.Proof.BBodyFrame
import proofs.«123963_g79869211837047_cont_9to1_m_368_32_alg».proof.Proof.KBodyFrame
import proofs.«123963_g79869211837047_cont_9to1_m_368_32_alg».proof.Proof.KernelRun
import proofs.«123963_g79869211837047_cont_9to1_m_368_32_alg».proof.Proof.RefChain
import proofs.«123963_g79869211837047_cont_9to1_m_368_32_alg».proof.Proof.LibAffineCollapse
import proofs.«123963_g79869211837047_cont_9to1_m_368_32_alg».proof.Proof.FiniteInputs
import proofs.«123963_g79869211837047_cont_9to1_m_368_32_alg».proof.Proof.Gen.Kernel
import proofs.«123963_g79869211837047_cont_9to1_m_368_32_alg».proof.Proof.Gen.KernelIdeal
import proofs.«123963_g79869211837047_cont_9to1_m_368_32_alg».proof.Proof.Gen.ReferenceIdeal
import proofs.«123963_g79869211837047_cont_9to1_m_368_32_alg».proof.Proof.Gen.ReferenceIdeal.Run
import proofs.«123963_g79869211837047_cont_9to1_m_368_32_alg».proof.Proof.Gen.Pre_finite_inputs

noncomputable section

namespace Cert.Proof.Claims

open Idealize.ShloMosaic Idealize.ShloMosaic.TcCoe Idealize.SL.Sem
open Cert.AffineChain Cert.Lib.ERealSums

/-- The kernel as compiled terminates and leaves its arguments unchanged. -/
theorem frame_k : Cert.frame_Kernel := fun m ρ _ => Cert.Kernel.Body.frame (F := Bits) m ρ

/-- So does the idealized kernel. -/
theorem frame_ki : Cert.frame_KernelIdeal := fun m ρ _ => Cert.KernelIdeal.Body.frame (F := Ideal) m ρ

/-- So does the idealized reference: its run ends with the arguments as they were. -/
theorem frame_ri : Cert.frame_ReferenceIdeal := fun m ρ _ =>
  (θ_run Cert.ReferenceIdeal.defs _ _).mono (fun _ h c => (h c).2) (Cert.ReferenceIdeal.Value.run (F := Ideal) m ρ)

/-- The three places where the idealized kernel differs from the compiled one: a 768 × 768 matrix narrowed to bf16
    and widened back. On the extended reals that round trip is the identity. -/
theorem preserves : Cert.preserves_Kernel_KernelIdeal :=
  ⟨IdealRules.truncf_extf.statement _ .f32 .bf16, IdealRules.truncf_extf.statement _ .f32 .bf16,
    IdealRules.truncf_extf.statement _ .f32 .bf16⟩

/-- For finite inputs the idealized kernel and the idealized reference end with the same result array. The kernel's
    is  Σ_j x(p, j) · M₁₉(q, j) + r₁₉(q)  with M₁₉ the product of the twenty matrices and r₁₉ the bias row pushed through
    them; the reference's is the twentieth iterate of the layer map. The two are equal for real entries by the collapse
    of the chain (associativity of the matrix product, distributivity over the bias). -/
theorem algebraic : Cert.algebraic_KernelIdeal_ReferenceIdeal := by
  intro m ρ m' ρ' hpre hagree
  have hreal := fun c => Cert.FiniteInputs.entries_real _ _ _ (hpre c)
  refine ⟨fun c => Cert.KernelIdeal.Carried.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Carried.kernel_run m ρ (fun c => (hreal c).1) (fun c => (hreal c).2.1) (fun c => (hreal c).2.2), ?_⟩
  refine (θ_run Cert.ReferenceIdeal.defs _ _).mono (fun _ h c => ⟨(h c).1.trans ?_, (h c).2⟩)
    (Cert.RefChain.ref_run m' ρ')
  rw [(hagree c).1, (hagree c).2.1, (hagree c).2.2]
  funext i
  exact collapse _ _ _ (xOf_isReal (hreal c).1) (wOf_isReal (hreal c).2.1) (bOf_isReal (hreal c).2.2) 19 (i 0) (i 1)

end Cert.Proof.Claims

end
-- ==== Proof.lean ====
/-
  The certificate's five claims, assembled.

  A stack of twenty linear layers with no activation between them is one affine map. The kernel computes that map's
  matrix and bias row first and applies it once; the reference applies the layers one at a time. The claims proved in
  Proof/Claims.lean are: each of the three programs terminates and leaves its arguments unchanged; the idealized
  kernel differs from the compiled one only by three bf16 round trips that are exact on the extended reals; and, for
  finite inputs, the idealized kernel and the idealized reference end with equal result arrays, by associativity of
  the matrix product and distributivity of the product over the bias on real entries. Here they are put behind the
  witnesses of the side conditions the programs and the precondition state.
-/
import proofs.«123963_g79869211837047_cont_9to1_m_368_32_alg».proof.Defs
import proofs.«123963_g79869211837047_cont_9to1_m_368_32_alg».proof.Proof.Claims
import proofs.«123963_g79869211837047_cont_9to1_m_368_32_alg».proof.Proof.Gen.Kernel
import proofs.«123963_g79869211837047_cont_9to1_m_368_32_alg».proof.Proof.Gen.KernelIdeal
import proofs.«123963_g79869211837047_cont_9to1_m_368_32_alg».proof.Proof.Gen.ReferenceIdeal
import proofs.«123963_g79869211837047_cont_9to1_m_368_32_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
